-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4x4096x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S10 : Shape := ⟨1, ![10]⟩
abbrev S16384x256 : Shape := ⟨2, ![16384, 256]⟩
abbrev S2048x256 : Shape := ⟨2, ![2048, 256]⟩
abbrev S1x256 : Shape := ⟨2, ![1, 256]⟩
abbrev S1x1024x256 : Shape := ⟨3, ![1, 1024, 256]⟩
abbrev S1 : Shape := ⟨1, ![1]⟩
abbrev S1x1024x1 : Shape := ⟨3, ![1, 1024, 1]⟩
abbrev S1x1024x1024 : Shape := ⟨3, ![1, 1024, 1024]⟩
abbrev S1x1024 : Shape := ⟨2, ![1, 1024]⟩

abbrev nBuf : Space → Nat
  | .hbm => 15
  | .vmem => 25
  | .smem => 2
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S16384x256, .f32⟩
  | .hbm, ⟨8, _⟩ => ⟨S16384x256, .bf16⟩
  | .hbm, ⟨9, _⟩ => ⟨S16384x256, .bf16⟩
  | .hbm, ⟨10, _⟩ => ⟨S16384x256, .bf16⟩
  | .hbm, ⟨11, _⟩ => ⟨S4x4096x256, .bf16⟩
  | .hbm, ⟨12, _⟩ => ⟨S4x4096x256, .bf16⟩
  | .hbm, ⟨13, _⟩ => ⟨S4x4096x256, .bf16⟩
  | .hbm, ⟨14, _⟩ => ⟨S4x4096x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x1024x256, .f32⟩
  | .local _ .vmem, ⟨21, _⟩ => ⟨S1x1024x256, .f32⟩
  | .local _ .vmem, ⟨22, _⟩ => ⟨S1x1024x1, .f32⟩
  | .local _ .vmem, ⟨23, _⟩ => ⟨S1x1024x1, .f32⟩
  | .local _ .vmem, ⟨24, _⟩ => ⟨S1x1024x256, .f32⟩
  | .local _ .smem, ⟨0, _⟩ => ⟨S10, .i32⟩
  | .local _ .smem, ⟨1, _⟩ => ⟨S10, .i32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond2 (v1 : BitVec 32) (v3 : BitVec 32) : BitVec 1 :=
  let v54 : BitVec 1 := Scalar.cmpi .eq v3 v1
  let v55 : BitVec 32 := Scalar.extui v54
  let c0_i32_32 : BitVec 32 := 0#32
  let v56 : BitVec 1 := Scalar.cmpi .ne v55 c0_i32_32
  v56

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_2 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x4096x256_S16384x256 : S4x4096x256.ShapeCasts S16384x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  packedbf16_S2048x256_S2048x256_0_0 : (Rect.unit (s := S2048x256) ![0, 0] S2048x256.size inb_S2048x256_S2048x256_0_0).PackedRows (EltTy.packing .bf16)
  shapeCasts_S16384x256_S4x4096x256 : S16384x256.ShapeCasts S4x4096x256
  numel1_S1 : S1.numel = 1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1x1024x256 : S1x1024x256.ShapeCasts S1x1024x256
  iota_S1x1024x1024_d1_w32 : S1x1024x1024.Iotas .tc 32 [1]
  iota_S1x1024x1024_d2_w32 : S1x1024x1024.Iotas .tc 32 [2]
  reduces_S1x1024x1024_S1x1024 : S1x1024x1024.Reduces [2] S1x1024
  shapeCasts_S1x1024_S1x1024x1 : S1x1024.ShapeCasts S1x1024x1
  broadcasts_S1x1024x1_S1x1024x1024 : S1x1024x1.Broadcasts S1x1024x1024
  broadcasts_S1x1024x1_S1x1024x256 : S1x1024x1.Broadcasts S1x1024x256
  dot_S2048x256_S256x256_S2048x256_1_1_0_0_n_n_wf : DotDims.WF S2048x256 S256x256 S2048x256 [1] [1] [0] [0] [] []
  dot_S1x1024x256_S1x1024x256_S1x1024x1024_2_2_1_1_0_0_wf : DotDims.WF S1x1024x256 S1x1024x256 S1x1024x1024 [2] [2] [1] [1] [0] [0]
  dot_S1x1024x1024_S1x1024x256_S1x1024x256_2_1_1_2_0_0_wf : DotDims.WF S1x1024x1024 S1x1024x256 S1x1024x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S16384x256.size a
  hwx0_7 : ∀ i : grid0.Coords, EltTy.bits .bf16 = 32 ∨ (Rect.block (s := S16384x256) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S16384x256.size a
  hwx0_8 : ∀ i : grid0.Coords, EltTy.bits .bf16 = 32 ∨ (Rect.block (s := S16384x256) S2048x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S16384x256.size a
  hwx0_9 : ∀ i : grid0.Coords, EltTy.bits .bf16 = 32 ∨ (Rect.block (s := S16384x256) S2048x256.size (cc0_transform_9 i) (hinb0_9 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S1x1024x256_S1x1024x256_S1x1024x1024_2_2_1_1_0_0 : DotDims S1x1024x256 S1x1024x256 S1x1024x1024 where
  lhsContracting := [2]
  rhsContracting := [2]
  lhsNonContracting := [1]
  rhsNonContracting := [1]
  lhsBatch := [0]
  rhsBatch := [0]
  wf := dot_S1x1024x256_S1x1024x256_S1x1024x1024_2_2_1_1_0_0_wf
def dot_S1x1024x1024_S1x1024x256_S1x1024x256_2_1_1_2_0_0 : DotDims S1x1024x1024 S1x1024x256 S1x1024x256 where
  lhsContracting := [2]
  rhsContracting := [1]
  lhsNonContracting := [1]
  rhsNonContracting := [2]
  lhsBatch := [0]
  rhsBatch := [0]
  wf := dot_S1x1024x1024_S1x1024x256_S1x1024x256_2_1_1_2_0_0_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_0) S2048x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_1) S2048x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_2) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev spec1_0 : Pipeline.WinSpec sig grid1.rank :=
  Pipeline.WinSpec.ofSpec (Memref.whole main_v2) S1x1024x256.size reads1_0 false false 2 stage1_0 sem1_0 nbuf1_0 hstage1_0

abbrev spec1_1 : Pipeline.WinSpec sig grid1.rank :=
  Pipeline.WinSpec.ofSpec (Memref.whole main_v3) S1x1024x256.size reads1_1 false false 2 stage1_1 sem1_1 nbuf1_1 hstage1_1

abbrev spec1_2 : Pipeline.WinSpec sig grid1.rank :=
  Pipeline.WinSpec.ofSpec (Memref.whole main_v4) S1x1024x256.size reads1_2 false false 2 stage1_2 sem1_2 nbuf1_2 hstage1_2

abbrev spec1_3 : Pipeline.WinSpec sig grid1.rank :=
  Pipeline.WinSpec.ofSpec (Memref.whole main_v5) S1x1024x256.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1024x256.size a ≤ S4x4096x256.size a), EltTy.bits .bf16 = 32 ∨ (Rect.block (s := S4x4096x256) S1x1024x256.size (cc1_transform_0 k1_off1_inb numel1_S1 pf i) h).WholeWords (EltTy.packing .bf16)) ∧
  (∀ i : grid1.Coords, ∃ h : (∀ a, (cc1_transform_1 k1_off1_inb numel1_S1 pf i a + 1) * S1x1024x256.size a ≤ S4x4096x256.size a), EltTy.bits .bf16 = 32 ∨ (Rect.block (s := S4x4096x256) S1x1024x256.size (cc1_transform_1 k1_off1_inb numel1_S1 pf i) h).WholeWords (EltTy.packing .bf16)) ∧
  (∀ i : grid1.Coords, ∃ h : (∀ a, (cc1_transform_2 k1_off1_inb numel1_S1 pf i a + 1) * S1x1024x256.size a ≤ S4x4096x256.size a), EltTy.bits .bf16 = 32 ∨ (Rect.block (s := S4x4096x256) S1x1024x256.size (cc1_transform_2 k1_off1_inb numel1_S1 pf i) h).WholeWords (EltTy.packing .bf16)) ∧
  (∀ i : grid1.Coords, ∃ h : (∀ a, (cc1_transform_3 k1_off1_inb numel1_S1 pf i a + 1) * S1x1024x256.size a ≤ S4x4096x256.size a), EltTy.bits .f32 = 32 ∨ (Rect.block (s := S4x4096x256) S1x1024x256.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond2 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S4096x4096 : Shape := ⟨2, ![4096, 4096]⟩
abbrev S4x4096x4096 : Shape := ⟨3, ![4, 4096, 4096]⟩
abbrev S1x4096x4096 : Shape := ⟨3, ![1, 4096, 4096]⟩
abbrev S4x4096 : Shape := ⟨2, ![4, 4096]⟩
abbrev S4x4096x1 : Shape := ⟨3, ![4, 4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S4x4096x256, .f32⟩
  | .hbm, ⟨8, _⟩ => ⟨S1x1x256, .f32⟩
  | .hbm, ⟨9, _⟩ => ⟨S4x4096x256, .f32⟩
  | .hbm, ⟨10, _⟩ => ⟨S4x4096x256, .f32⟩
  | .hbm, ⟨11, _⟩ => ⟨S4x4096x256, .f32⟩
  | .hbm, ⟨12, _⟩ => ⟨S1x1x256, .f32⟩
  | .hbm, ⟨13, _⟩ => ⟨S4x4096x256, .f32⟩
  | .hbm, ⟨14, _⟩ => ⟨S4x4096x256, .f32⟩
  | .hbm, ⟨15, _⟩ => ⟨S4x4096x256, .f32⟩
  | .hbm, ⟨16, _⟩ => ⟨S1x1x256, .f32⟩
  | .hbm, ⟨17, _⟩ => ⟨S4x4096x256, .f32⟩
  | .hbm, ⟨18, _⟩ => ⟨S4x4096x256, .f32⟩
  | .hbm, ⟨19, _⟩ => ⟨S_, .i1⟩
  | .hbm, ⟨20, _⟩ => ⟨S4096x4096, .i1⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .i1⟩
  | .hbm, ⟨28, _⟩ => ⟨S4096x4096, .i1⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4x4096x4096, .f32⟩
  | .hbm, ⟨37, _⟩ => ⟨S1x4096x4096, .f32⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S4x4096, .f32⟩
  | .hbm, ⟨42, _⟩ => ⟨S_, .f32⟩
  | .hbm, ⟨43, _⟩ => ⟨S4x4096, .f32⟩
  | .hbm, ⟨44, _⟩ => ⟨S4x4096, .f32⟩
  | .hbm, ⟨45, _⟩ => ⟨S4x4096x1, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S4x4096x4096, .f32⟩
  | .hbm, ⟨53, _⟩ => ⟨S4x4096x4096, .f32⟩
  | .hbm, ⟨54, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v13 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.K.R0.lean ====
/-
  Region 0: the three projections. One grid point stages a 2048-row block of the flattened input beside the three
  weight matrices and the three bias vectors (each whole, fetched once), and stores the three 2048 x 256 blocks
  x W^T + b (queries, keys, values). Stated at a PARAMETER `V`, the buffer contents when the region is entered: the
  blocks the body finds, what each output's staging buffer holds after the body, the body's triple, the proof data and
  the body obligation.
-/
import proofs.«168436_j23081154249219_2_alg».proof.Proof.Gen.Kernel.Launch
import proofs.«168436_j23081154249219_2_alg».proof.Proof.Gen.Kernel.Skeleton
import proofs.«168436_j23081154249219_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: a window fetched once
    keeps its index, so the block it was handed is the block of every later point. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX : Rect S2048x256 := Rect.unit (s := S2048x256) ![0, 0] S2048x256.size inb_S2048x256_S2048x256_0_0
abbrev rW : Rect S256x256 := Rect.unit (s := S256x256) ![0, 0] S256x256.size inb_S256x256_S256x256_0_0
abbrev rB : Rect S256 := Rect.unit (s := S256) ![0] S256.size inb_S256_S256_0

/-! ## What the body leaves in each output window's buffer -/

/-- The query block's staging buffer after the body: its one store, the whole block. -/
def out0_7 (x0 : Vec F S2048x256 .f32) (x1 : Vec F S256x256 .f32) (x2 : Vec F S256 .f32) : Vec F S2048x256 .bf16 :=
  View.canon [⟨rX, k0_pay2 (View.ld x0 rX) (View.ld x1 rW) (View.ld x2 rB)⟩]
/-- The key block's. -/
def out0_8 (x0 : Vec F S2048x256 .f32) (x3 : Vec F S256x256 .f32) (x4 : Vec F S256 .f32) : Vec F S2048x256 .bf16 :=
  View.canon [⟨rX, k0_pay3 (View.ld x0 rX) (View.ld x3 rW) (View.ld x4 rB)⟩]
/-- The value block's. -/
def out0_9 (x0 : Vec F S2048x256 .f32) (x5 : Vec F S256x256 .f32) (x6 : Vec F S256 .f32) : Vec F S2048x256 .bf16 :=
  View.canon [⟨rX, k0_pay4 (View.ld x0 rX) (View.ld x5 rW) (View.ld x6 rB)⟩]

/-- One store of the whole block covers it. -/
theorem cover0 (p0 : Vec F S2048x256 .bf16) (y : S2048x256.Idx) :
    ∃ pc ∈ ([⟨rX, p0⟩] : List (View.Piece (Elt F) S2048x256 .bf16)), y ∈ pc.1.set :=
  View.cover_of_tiled [⟨rX, p0⟩] S2048x256.size (by rfl) y

/-! ## The body's triple -/

set_option maxHeartbeats 2000000 in
/-- The body on whole staging memrefs, the inputs' at read contents `x0 … x6` and the outputs' at anything, runs to the
    continuation holding the inputs' as they were and each output's at its projection of the inputs'. -/
theorem sound_kernel0 (c : Dev nD) (E : Set ℕ) (i : grid0.Coords)
    (arg1 : Memref sig .tc .vmem S2048x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S256x256 .f32) (harg6 : arg6.IsWhole)
    (arg7 : Memref sig .tc .vmem S256 .f32) (harg7 : arg7.IsWhole) (arg8 : Memref sig .tc .vmem S2048x256 .bf16) (harg8 : arg8.IsWhole)
    (arg9 : Memref sig .tc .vmem S2048x256 .bf16) (harg9 : arg9.IsWhole) (arg10 : Memref sig .tc .vmem S2048x256 .bf16) (harg10 : arg10.IsWhole)
    (x0 : Vec F S2048x256 .f32) (x1 : Vec F S256x256 .f32) (x2 : Vec F S256 .f32) (x3 : Vec F S256x256 .f32) (x4 : Vec F S256 .f32)
    (x5 : Vec F S256x256 .f32) (x6 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2) ∗ owns (c : Thread nD τ) arg9 fullShare (out0_8 x0 x3 x4)
            ∗ owns (c : Thread nD τ) arg10 fullShare (out0_9 x0 x5 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The pipeline's proof data -/

/-- The proof data of the projection pipeline on core `c`: the arrays as the region finds them; after the body at point
    `t` each input's buffer at its block and each output's at its projection of the input blocks; the class invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1a.lean ====
/-
  Region 1, the body: causal attention, one (query tile, key tile) pair per grid point, the pairs of one batch listed
  by two prefetched tables (the query tile's number and the key tile's number at each step). Three scratch arrays are
  carried from point to point: the running row maximum, the running normaliser and the running accumulator. At the first
  key tile of a query tile they are reset (maximum to the named minus infinity, the others to zero); every point rescales
  them by exp(old maximum - new maximum) and adds the tile's terms; at the last key tile (the diagonal one) the output
  block is stored as accumulator over normaliser. Here: the carried state as a pure function of the tables' two words and
  the three input blocks, and the body's triple in each of the four control cases.
-/
import proofs.«168436_j23081154249219_2_alg».proof.Proof.Gen.Kernel.Launch
import proofs.«168436_j23081154249219_2_alg».proof.Proof.Gen.Kernel.Skeleton
import proofs.«168436_j23081154249219_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables and the scratch arrays as the body is handed them -/

abbrev tbM0 : Memref sig .tc .smem S10 .i32 := Memref.whole main_c
abbrev tbM1 : Memref sig .tc .smem S10 .i32 := Memref.whole main_c_0
abbrev scM : Memref sig .tc .vmem S1x1024x1 .f32 := Memref.whole cc1_scratch0
abbrev scL : Memref sig .tc .vmem S1x1024x1 .f32 := Memref.whole cc1_scratch1
abbrev scA : Memref sig .tc .vmem S1x1024x256 .f32 := Memref.whole cc1_scratch2
abbrev TbBuf (c : Dev nD) {S : Shape} {e : EltTy} (M : Memref sig .tc .smem S e) : Type := Buf (Elt F) (M.view.loc (c : Thread nD τ))
/-- A table held whole. -/
abbrev tbPt (c : Dev nD) {S : Shape} {e : EltTy} (M : Memref sig .tc .smem S e) (f : TbBuf (F := F) c M) : sProp 𝕄 :=
  M.view.loc (c : Thread nD τ) ↦{fullShare} f

/-- The query-tile word the body loads at grid point `i`: entry (second coordinate of `i`) of the first table. -/
abbrev qiW (c : Dev nD) (i : grid1.Coords) (xt0 : TbBuf (F := F) c tbM0) : Elt F .i32 :=
  tbM0.view.readAt (Elt F) (Rect.unit (s := S10) (k1_off1 i) S1.size (k1_off1_inb i)).toLoadRect xt0 (Shape.Idx.first (numel1_S1.symm ▸ Nat.one_pos))
/-- The key-tile word: the same entry of the second table. -/
abbrev kiW (c : Dev nD) (i : grid1.Coords) (xt1 : TbBuf (F := F) c tbM1) : Elt F .i32 :=
  tbM1.view.readAt (Elt F) (Rect.unit (s := S10) (k1_off1 i) S1.size (k1_off1_inb i)).toLoadRect xt1 (Shape.Idx.first (numel1_S1.symm ▸ Nat.one_pos))
/-- The reset condition as the body computes it from the key-tile word: the word is zero. -/
def isFirst (w1 : BitVec 32) : BitVec 1 := Scalar.cmpi .ne (Scalar.extui (Scalar.cmpi .eq w1 0#32)) 0#32

/-! ## The carried state -/

/-- Running maximum, normaliser and accumulator of the 1024 query rows of a tile. -/
structure Sc (F : FTy → Type) where
  m : Vec F S1x1024x1 .f32
  l : Vec F S1x1024x1 .f32
  a : Vec F S1x1024x256 .f32

/-- The reset state: maximum the named minus infinity, normaliser and accumulator zero. -/
def scInit : Sc F := ⟨k1_pay5, k1_pay6, k1_pay7⟩
/-- The state a point computes from: the reset state at a first key tile, else what the point before left. -/
def scPrev (w1 : BitVec 32) (s : Sc F) : Sc F := if isFirst w1 = 1#1 then scInit else s
/-- One point: the new maximum; the normaliser and the accumulator rescaled, the tile's terms added. -/
def scStep (w0 w1 : BitVec 32) (xq xk xv : Vec F S1x1024x256 .bf16) (s : Sc F) : Sc F :=
  ⟨k1_pay3 (k1_pay10 w0 w1 xq xk (scPrev w1 s).m),
   k1_pay1 (k1_pay11 w0 w1 xq xk (scPrev w1 s).m) (k1_pay12 w0 w1 xq xk (scPrev w1 s).m) (scPrev w1 s).l,
   k1_pay2 (k1_pay8 xv) (k1_pay11 w0 w1 xq xk (scPrev w1 s).m) (k1_pay12 w0 w1 xq xk (scPrev w1 s).m) (scPrev w1 s).a⟩
/-- The output block of a finished query tile: accumulator over normaliser. -/
def outOf (s : Sc F) : Vec F S1x1024x256 .f32 := k1_pay4 s.a s.l

theorem scStep_first (w0 w1 : BitVec 32) (xq xk xv : Vec F S1x1024x256 .bf16) (s s' : Sc F) (h : isFirst w1 = 1#1) :
    scStep w0 w1 xq xk xv s = scStep w0 w1 xq xk xv s' := by
  unfold scStep scPrev; simp only [if_pos h]

/-! ## Whole-block stores and loads -/

theorem hz3 : (![0, 0, 0] : Fin 3 → Nat) = fun _ => 0 := by funext a; fin_cases a <;> rfl

/-- After a list of stores whose LAST is of the whole block, the buffer reads that store's payload. -/
theorem read_writes_whole {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, by
    subst h; show y ∈ (Rect.whole S).set; rw [Rect.set_whole]; exact Finset.mem_univ y⟩), View.canon_cons_unit_zero h]

/-- A load of the whole block reads the buffer's contents. -/
theorem readAt_whole {S : Shape} {e : EltTy} {sp : Space} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld]; exact View.ld_unit_zero h inb _

/-- A load of the whole block after stores whose last is of the whole block reads that store's payload. -/
theorem readCov_head_whole {S : Shape} {e : EltTy} {sp : Space} (v : View sig .tc sp S e)
    {off : Fin S.rank → Nat} (h : off = fun _ => 0) (inb inb' : ∀ a, off a + S.size a ≤ S.size a) (w : S.Idx → Elt F e)
    (L : List (View.Piece (Elt F) S e)) :
    v.readCov ((⟨Rect.unit off S.size inb, w⟩ : View.Piece (Elt F) S e) :: L) (Rect.unit off S.size inb').toLoadRect = w := by
  rw [View.readCov_eq_canon']; funext j; rw [View.canon_cons_unit_zero h]; exact congrFun (View.ld_unit_zero h inb' w) j

/-! ## The body's triple -/

set_option maxHeartbeats 4000000 in
/-- The body on whole staging memrefs: the three input blocks at read contents `xq xk xv`, the output's buffer at `xo`, the
    scratch arrays at the state `s`, the tables at `xt0 xt1`. It runs to the continuation holding the inputs and the tables
    as they were, the scratch arrays at the next state, and the output's buffer at accumulator over normaliser if this is the
    query tile's last key tile, untouched otherwise. -/
theorem sound_kernel1 (c : Dev nD) (E : Set ℕ) (i : grid1.Coords)
    (arg4 : Memref sig .tc .vmem S1x1024x256 .bf16) (harg4 : arg4.IsWhole) (arg5 : Memref sig .tc .vmem S1x1024x256 .bf16) (harg5 : arg5.IsWhole)
    (arg6 : Memref sig .tc .vmem S1x1024x256 .bf16) (harg6 : arg6.IsWhole) (arg7 : Memref sig .tc .vmem S1x1024x256 .f32) (harg7 : arg7.IsWhole)
    (xq xk xv : Vec F S1x1024x256 .bf16) (xo : Vec F S1x1024x256 .f32) (xt0 : TbBuf (F := F) c tbM0) (xt1 : TbBuf (F := F) c tbM1)
    (s : Sc F) (K : PUnit → sProp 𝕄) :
    iprop(owns (c : Thread nD τ) arg4 fullShare xq ∗ owns (c : Thread nD τ) arg5 fullShare xk ∗ owns (c : Thread nD τ) arg6 fullShare xv
        ∗ owns (c : Thread nD τ) arg7 fullShare xo
        ∗ owns (c : Thread nD τ) scM fullShare s.m ∗ owns (c : Thread nD τ) scL fullShare s.l ∗ owns (c : Thread nD τ) scA fullShare s.a
        ∗ tbPt c tbM0 xt0 ∗ tbPt c tbM1 xt1
        ∗ (iprop(owns (c : Thread nD τ) arg4 fullShare xq ∗ owns (c : Thread nD τ) arg5 fullShare xk ∗ owns (c : Thread nD τ) arg6 fullShare xv
            ∗ owns (c : Thread nD τ) arg7 fullShare
                (if k1_cond2 (qiW c i xt0) (kiW c i xt1) = 1#1 then outOf (scStep (qiW c i xt0) (kiW c i xt1) xq xk xv s) else xo)
            ∗ owns (c : Thread nD τ) scM fullShare (scStep (qiW c i xt0) (kiW c i xt1) xq xk xv s).m
            ∗ owns (c : Thread nD τ) scL fullShare (scStep (qiW c i xt0) (kiW c i xt1) xq xk xv s).l
            ∗ owns (c : Thread nD τ) scA fullShare (scStep (qiW c i xt0) (kiW c i xt1) xq xk xv s).a
            ∗ tbPt c tbM0 xt0 ∗ tbPt c tbM1 xt1) -∗ K ⟨⟩))
      ⊢ wp frame (wpE (defs₀ (F := F)) Variants.none c none) E
          (cc1__attn_kernel i tbM0 (Memref.isWhole_whole _) tbM1 (Memref.isWhole_whole _) arg4 harg4 arg5 harg5 arg6 harg6 arg7 harg7 scM (Memref.isWhole_whole _) scL (Memref.isWhole_whole _) scA (Memref.isWhole_whole _)) K := by
  obtain ⟨sm, sl, sa⟩ := s
  simp only [cc1__attn_kernel_eq_skeleton]; unfold cc1__attn_kernel_skel
  simp only [k1_part1_eq_skeleton]
  unfold owns
  iintro ⟨⟨%f4, %hf4, H4⟩, ⟨%f5, %hf5, H5⟩, ⟨%f6, %hf6, H6⟩, ⟨%f7, %hf7, H7⟩, ⟨%fm, %hfm, Hm⟩, ⟨%fl, %hfl, Hl⟩, ⟨%fa, %hfa, Ha⟩, HT0, HT1, Hk⟩
  subst hf4 hf5 hf6 hf7 hfm hfl hfa
  by_cases h1 : isFirst (kiW c i xt1) = 1#1 <;> by_cases h2 : k1_cond2 (qiW c i xt0) (kiW c i xt1) = 1#1
  all_goals
    sl_exec (disch := first | sl_exact h1 | sl_exact h2)
    sl_step
    sl_unfold_run_names
    iapply Hk
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]
    · iexists _; isplitr
      swap; · iexact H7
      ipureintro
      first
        | (rw [if_pos h2, read_writes_whole (S := S1x1024x256) _ _ hz3]
           simp only [outOf, scStep, scPrev, scInit, h1, ↓reduceIte, readAt_whole (S := S1x1024x256) _ _ hz3, readAt_whole (S := S1x1024x1) _ _ hz3, readCov_head_whole (S := S1x1024x256) _ hz3, readCov_head_whole (S := S1x1024x1) _ hz3])
        | (rw [if_neg h2])
    isplitl [Hm]
    · iexists _; isplitr
      swap; · iexact Hm
      ipureintro
      first | rw [read_writes_whole (S := S1x1024x256) _ _ hz3] | rw [read_writes_whole (S := S1x1024x1) _ _ hz3]
      simp only [scStep, scPrev, scInit, h1, ↓reduceIte, readAt_whole (S := S1x1024x256) _ _ hz3, readAt_whole (S := S1x1024x1) _ _ hz3, readCov_head_whole (S := S1x1024x256) _ hz3, readCov_head_whole (S := S1x1024x1) _ hz3]
    isplitl [Hl]
    · iexists _; isplitr
      swap; · iexact Hl
      ipureintro
      first | rw [read_writes_whole (S := S1x1024x256) _ _ hz3] | rw [read_writes_whole (S := S1x1024x1) _ _ hz3]
      simp only [scStep, scPrev, scInit, h1, ↓reduceIte, readAt_whole (S := S1x1024x256) _ _ hz3, readAt_whole (S := S1x1024x1) _ _ hz3, readCov_head_whole (S := S1x1024x256) _ hz3, readCov_head_whole (S := S1x1024x1) _ hz3]
    isplitl [Ha]
    · iexists _; isplitr
      swap; · iexact Ha
      ipureintro
      first | rw [read_writes_whole (S := S1x1024x256) _ _ hz3] | rw [read_writes_whole (S := S1x1024x1) _ _ hz3]
      simp only [scStep, scPrev, scInit, h1, ↓reduceIte, readAt_whole (S := S1x1024x256) _ _ hz3, readAt_whole (S := S1x1024x1) _ _ hz3, readCov_head_whole (S := S1x1024x256) _ hz3, readCov_head_whole (S := S1x1024x1) _ hz3]
    isplitl [HT0]; · iexact HT0
    iexact HT1

/-- At a query tile's last key tile the output's buffer is left at accumulator over normaliser. -/
theorem sound_kernel1_last (c : Dev nD) (E : Set ℕ) (i : grid1.Coords)
    (arg4 : Memref sig .tc .vmem S1x1024x256 .bf16) (harg4 : arg4.IsWhole) (arg5 : Memref sig .tc .vmem S1x1024x256 .bf16) (harg5 : arg5.IsWhole)
    (arg6 : Memref sig .tc .vmem S1x1024x256 .bf16) (harg6 : arg6.IsWhole) (arg7 : Memref sig .tc .vmem S1x1024x256 .f32) (harg7 : arg7.IsWhole)
    (xq xk xv : Vec F S1x1024x256 .bf16) (xo : Vec F S1x1024x256 .f32) (xt0 : TbBuf (F := F) c tbM0) (xt1 : TbBuf (F := F) c tbM1)
    (s : Sc F) (K : PUnit → sProp 𝕄)
    (h2 : k1_cond2 (qiW c i xt0) (kiW c i xt1) = 1#1) :
    iprop(owns (c : Thread nD τ) arg4 fullShare xq ∗ owns (c : Thread nD τ) arg5 fullShare xk ∗ owns (c : Thread nD τ) arg6 fullShare xv
        ∗ owns (c : Thread nD τ) arg7 fullShare xo
        ∗ owns (c : Thread nD τ) scM fullShare s.m ∗ owns (c : Thread nD τ) scL fullShare s.l ∗ owns (c : Thread nD τ) scA fullShare s.a
        ∗ tbPt c tbM0 xt0 ∗ tbPt c tbM1 xt1
        ∗ (iprop(owns (c : Thread nD τ) arg4 fullShare xq ∗ owns (c : Thread nD τ) arg5 fullShare xk ∗ owns (c : Thread nD τ) arg6 fullShare xv
            ∗ owns (c : Thread nD τ) arg7 fullShare (outOf (scStep (qiW c i xt0) (kiW c i xt1) xq xk xv s))
            ∗ owns (c : Thread nD τ) scM fullShare (scStep (qiW c i xt0) (kiW c i xt1) xq xk xv s).m
            ∗ owns (c : Thread nD τ) scL fullShare (scStep (qiW c i xt0) (kiW c i xt1) xq xk xv s).l
            ∗ owns (c : Thread nD τ) scA fullShare (scStep (qiW c i xt0) (kiW c i xt1) xq xk xv s).a
            ∗ tbPt c tbM0 xt0 ∗ tbPt c tbM1 xt1) -∗ K ⟨⟩))
      ⊢ wp frame (wpE (defs₀ (F := F)) Variants.none c none) E
          (cc1__attn_kernel i tbM0 (Memref.isWhole_whole _) tbM1 (Memref.isWhole_whole _) arg4 harg4 arg5 harg5 arg6 harg6 arg7 harg7 scM (Memref.isWhole_whole _) scL (Memref.isWhole_whole _) scA (Memref.isWhole_whole _)) K := by
  have h := sound_kernel1 c E i arg4 harg4 arg5 harg5 arg6 harg6 arg7 harg7 xq xk xv xo xt0 xt1 s K
  rw [if_pos h2] at h; exact h

/-- At any other step the output's buffer is left as found. -/
theorem sound_kernel1_idle (c : Dev nD) (E : Set ℕ) (i : grid1.Coords)
    (arg4 : Memref sig .tc .vmem S1x1024x256 .bf16) (harg4 : arg4.IsWhole) (arg5 : Memref sig .tc .vmem S1x1024x256 .bf16) (harg5 : arg5.IsWhole)
    (arg6 : Memref sig .tc .vmem S1x1024x256 .bf16) (harg6 : arg6.IsWhole) (arg7 : Memref sig .tc .vmem S1x1024x256 .f32) (harg7 : arg7.IsWhole)
    (xq xk xv : Vec F S1x1024x256 .bf16) (xo : Vec F S1x1024x256 .f32) (xt0 : TbBuf (F := F) c tbM0) (xt1 : TbBuf (F := F) c tbM1)
    (s : Sc F) (K : PUnit → sProp 𝕄)
    (h2 : ¬ (k1_cond2 (qiW c i xt0) (kiW c i xt1) = 1#1)) :
    iprop(owns (c : Thread nD τ) arg4 fullShare xq ∗ owns (c : Thread nD τ) arg5 fullShare xk ∗ owns (c : Thread nD τ) arg6 fullShare xv
        ∗ owns (c : Thread nD τ) arg7 fullShare xo
        ∗ owns (c : Thread nD τ) scM fullShare s.m ∗ owns (c : Thread nD τ) scL fullShare s.l ∗ owns (c : Thread nD τ) scA fullShare s.a
        ∗ tbPt c tbM0 xt0 ∗ tbPt c tbM1 xt1
        ∗ (iprop(owns (c : Thread nD τ) arg4 fullShare xq ∗ owns (c : Thread nD τ) arg5 fullShare xk ∗ owns (c : Thread nD τ) arg6 fullShare xv
            ∗ owns (c : Thread nD τ) arg7 fullShare xo
            ∗ owns (c : Thread nD τ) scM fullShare (scStep (qiW c i xt0) (kiW c i xt1) xq xk xv s).m
            ∗ owns (c : Thread nD τ) scL fullShare (scStep (qiW c i xt0) (kiW c i xt1) xq xk xv s).l
            ∗ owns (c : Thread nD τ) scA fullShare (scStep (qiW c i xt0) (kiW c i xt1) xq xk xv s).a
            ∗ tbPt c tbM0 xt0 ∗ tbPt c tbM1 xt1) -∗ K ⟨⟩))
      ⊢ wp frame (wpE (defs₀ (F := F)) Variants.none c none) E
          (cc1__attn_kernel i tbM0 (Memref.isWhole_whole _) tbM1 (Memref.isWhole_whole _) arg4 harg4 arg5 harg5 arg6 harg6 arg7 harg7 scM (Memref.isWhole_whole _) scL (Memref.isWhole_whole _) scA (Memref.isWhole_whole _)) K := by
  have h := sound_kernel1 c E i arg4 harg4 arg5 harg5 arg6 harg6 arg7 harg7 xq xk xv xo xt0 xt1 s K
  rw [if_neg h2] at h; exact h

end Cert.Kernel.Hand

end
-- ==== Proof.K.R1b.lean ====
/-
  Region 1, the proof data: the carried state point by point, what each window's staging buffer holds after the body, the
  invariant between points (the three scratch arrays at the carried state, the two tables, the core's other scoped buffers),
  and the body obligation at a generic point. Stated at a PARAMETER `V` (the buffer contents when the region is entered) and at
  ANY admissible contents `a` of the two tables; two facts about the tables are taken as hypotheses here and decided of the
  literal tables later: the first step's key tile is tile 0, and a step that is not a query tile's last does not write the
  output block back.
-/
import proofs.«168436_j23081154249219_2_alg».proof.Proof.Gen.Kernel.Launch
import proofs.«168436_j23081154249219_2_alg».proof.Proof.Gen.Kernel.Skeleton
import proofs.«168436_j23081154249219_2_alg».proof.Proof.Gen.Kernel.Points
import proofs.«168436_j23081154249219_2_alg».proof.Proof.K.R1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

/-! ## The windows' blocks and the body's call -/

/-- Window `w`'s block at point `t`, read off its array as the region finds it; the block's position is read off the tables. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 a) c) (hA : dat.A 2 = V c (Pipeline.arrRef spec1 2))
    (hafter : ∀ t, dat.after 2 t = iblk1 V a c 2 t) (t : Fin (cfg1 a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`. -/
abbrev st1_0 (t : Fin (cfg1 a).N) : Memref sig .tc .vmem S1x1024x256 .bf16 := spec1_0.stage ((cfg1 a).slots t 0)
abbrev st1_1 (t : Fin (cfg1 a).N) : Memref sig .tc .vmem S1x1024x256 .bf16 := spec1_1.stage ((cfg1 a).slots t 1)
abbrev st1_2 (t : Fin (cfg1 a).N) : Memref sig .tc .vmem S1x1024x256 .bf16 := spec1_2.stage ((cfg1 a).slots t 2)
abbrev st1_3 (t : Fin (cfg1 a).N) : Memref sig .tc .vmem S1x1024x256 .f32 := spec1_3.stage ((cfg1 a).slots t 3)

/-- The body at point `t`, on what the pipeline calls it with. -/
abbrev bodyAt1 (t : Fin (cfg1 a).N) : Prog (TpuEff nD τ sig (Elt F) Λ₀ .tc) PUnit :=
  cc1__attn_kernel (grid1.coords t) (Memref.whole main_c) (Memref.isWhole_whole _) (Memref.whole main_c_0) (Memref.isWhole_whole _)
    (spec1_0.stage ((cfg1 a).slots t 0)) (hstage1_0 (((cfg1 a).slots t 0).cast nbuf1_0)) (spec1_1.stage ((cfg1 a).slots t 1)) (hstage1_1 (((cfg1 a).slots t 1).cast nbuf1_1))
    (spec1_2.stage ((cfg1 a).slots t 2)) (hstage1_2 (((cfg1 a).slots t 2).cast nbuf1_2)) (spec1_3.stage ((cfg1 a).slots t 3)) (hstage1_3 (((cfg1 a).slots t 3).cast nbuf1_3))
    (Memref.whole cc1_scratch0) (Memref.isWhole_whole _) (Memref.whole cc1_scratch1) (Memref.isWhole_whole _) (Memref.whole cc1_scratch2) (Memref.isWhole_whole _)

/-! ## The tables' words at a point -/

/-- The query tile's number and the key tile's number at point `t`, as the body loads them. -/
abbrev w0At (c : Dev nD) (t : Fin (cfg1 a).N) : BitVec 32 := qiW (F := F) c (grid1.coords t) (a.1 0)
abbrev w1At (c : Dev nD) (t : Fin (cfg1 a).N) : BitVec 32 := kiW (F := F) c (grid1.coords t) (a.1 1)

/-! ## The carried state, point by point -/

/-- The scratch arrays' contents before point `t` (after point `t - 1`): each point's step of the one before; before the
    first point the reset state, which nobody reads (the first step resets anyway). -/
def scAt (c : Dev nD) : ℕ → Sc F
  | 0 => scInit
  | t + 1 => if h : t < (cfg1 a).N then
      scStep (w0At a c ⟨t, h⟩) (w1At a c ⟨t, h⟩) (iblk1 V a c 0 ⟨t, h⟩) (iblk1 V a c 1 ⟨t, h⟩) (iblk1 V a c 2 ⟨t, h⟩) (scAt c t)
    else scAt c t

theorem scAt_succ (c : Dev nD) (t : Fin (cfg1 a).N) :
    scAt V a c (t.val + 1) = scStep (w0At a c t) (w1At a c t) (iblk1 V a c 0 t) (iblk1 V a c 1 t) (iblk1 V a c 2 t) (scAt V a c t.val) := by
  rw [scAt, dif_pos t.isLt]

/-! ## The invariant between points -/

/-- The core's scoped buffers that are neither a staging buffer of this pipeline nor a scratch array: the projection
    pipeline's staging buffers, at some contents each. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f))

/-- Before point `t`: the scratch arrays at the carried state (before the first point at anything), the other scoped
    buffers, the generator register, the two tables. -/
def Phi1 (c : Dev nD) (t : Fin ((cfg1 a).N + 1)) : sProp 𝕄 :=
  iprop(∃ s : Sc F, ⌜t.val ≠ 0 → s = scAt V a c t.val⌝ ∗ owns (c : Thread nD τ) scM fullShare s.m ∗ owns (c : Thread nD τ) scL fullShare s.l
    ∗ owns (c : Thread nD τ) scA fullShare s.a ∗ rest1 (F := F) c ∗ (∃ r, prngReg c r) ∗ tbPt c tbM0 (a.1 0) ∗ tbPt c tbM1 (a.1 1))

/-! ## The pipeline's proof data -/

def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => outOf (scAt V a c (t.val + 1))
  Φ t := Phi1 V a c t
  q _ := fullShare
  owed _ := 0

theorem A_eq1 (c : Dev nD) (w : Fin (cfg1 a).W) : (dat1 V a c).A w = V c (Pipeline.arrRef spec1 w) := by
  dsimp only [dat1]
theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = iblk1 V a c 2 t := by dsimp only [dat1]; try rfl
theorem after1_3 (c : Dev nD) (t : Fin (cfg1 a).N) : (dat1 V a c).after 3 t = outOf (scAt V a c (t.val + 1)) := by dsimp only [dat1]; try rfl
theorem before1_0 (c : Dev nD) (t : Fin (cfg1 a).N) (d) : (dat1 V a c).before 0 t d = iblk1 V a c 0 t :=
  before1_0_of V a (dat1 V a c) (A_eq1 V a c 0) (after1_0 V a c) t d
theorem before1_1 (c : Dev nD) (t : Fin (cfg1 a).N) (d) : (dat1 V a c).before 1 t d = iblk1 V a c 1 t :=
  before1_1_of V a (dat1 V a c) (A_eq1 V a c 1) (after1_1 V a c) t d
theorem before1_2 (c : Dev nD) (t : Fin (cfg1 a).N) (d) : (dat1 V a c).before 2 t d = iblk1 V a c 2 t :=
  before1_2_of V a (dat1 V a c) (A_eq1 V a c 2) (after1_2 V a c) t d

/-! ## The output window is idle exactly off a query tile's last step -/

/-- Inside the table, the pipeline's reading of an element at given offsets is the table's entry there. -/
theorem atD_pos {pre : Pipeline.Prefetch sig} (pf : pre.Contents (Elt F)) (k : Fin pre.K) [Inhabited (Elt F (pre.ref k).ty.elt)]
    (off : Fin (pre.ref k).ty.shape.rank → Nat) (h : ∀ x, off x + 1 ≤ (pre.ref k).ty.shape.size x) :
    pf.atD k off = pf k (fun x => ⟨off x, h x⟩) := dif_pos h

/-- The table element the pipeline reads at a point's offset is the word the body loads there. -/
theorem atD0_eq (c : Dev nD) (i : grid1.Coords) : (a.1).atD 0 (k1_off1 i) = qiW (F := F) c i (a.1 0) := by
  have h : ∀ x, k1_off1 i x + 1 ≤ (pre1.ref 0).ty.shape.size x := fun x => by
    have h' := k1_off1_inb i x
    have e : S1.size x = 1 := by match x with | ⟨0, _⟩ => rfl
    rw [e] at h'; exact h'
  rw [atD_pos (a.1) 0 (k1_off1 i) h]
  refine congrArg (a.1 0) ?_
  funext x; apply Fin.ext
  match x with
  | ⟨0, _⟩ =>
    show k1_off1 i 0 = k1_off1 i 0 + 1 * (Shape.Idx.first (s := S1) (numel1_S1.symm ▸ Nat.one_pos) (0 : Fin 1)).val
    have : (Shape.Idx.first (s := S1) (numel1_S1.symm ▸ Nat.one_pos) (0 : Fin 1)).val = 0 := by
      have := (Shape.Idx.first (s := S1) (numel1_S1.symm ▸ Nat.one_pos) (0 : Fin 1)).isLt
      have e : S1.size (0 : Fin 1) = 1 := by decide
      omega
    omega
theorem atD1_eq (c : Dev nD) (i : grid1.Coords) : (a.1).atD 1 (k1_off1 i) = kiW (F := F) c i (a.1 1) := by
  have h : ∀ x, k1_off1 i x + 1 ≤ (pre1.ref 1).ty.shape.size x := fun x => by
    have h' := k1_off1_inb i x
    have e : S1.size x = 1 := by match x with | ⟨0, _⟩ => rfl
    rw [e] at h'; exact h'
  rw [atD_pos (a.1) 1 (k1_off1 i) h]
  refine congrArg (a.1 1) ?_
  funext x; apply Fin.ext
  match x with
  | ⟨0, _⟩ =>
    show k1_off1 i 0 = k1_off1 i 0 + 1 * (Shape.Idx.first (s := S1) (numel1_S1.symm ▸ Nat.one_pos) (0 : Fin 1)).val
    have : (Shape.Idx.first (s := S1) (numel1_S1.symm ▸ Nat.one_pos) (0 : Fin 1)).val = 0 := by
      have := (Shape.Idx.first (s := S1) (numel1_S1.symm ▸ Nat.one_pos) (0 : Fin 1)).isLt
      have e : S1.size (0 : Fin 1) = 1 := by decide
      omega
    omega

theorem idle3_eq (c : Dev nD) (t : Fin (cfg1 a).N) :
    (cfg1 a).idle 3 ((cfg1 a).grid.coords t) = !(k1_cond2 (w0At a c t) (w1At a c t) == 1#1) := by
  show (!(k1_cond2 ((a.1).atD 0 (k1_off1 (grid1.coords t))) ((a.1).atD 1 (k1_off1 (grid1.coords t))) == 1#1)) = _
  rw [atD0_eq a c, atD1_eq a c]

/-! ## The body obligation, at a generic point -/

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d)))

/-- What the body leaves in the output's buffer at point `t`: the finished block at a query tile's last step; elsewhere the
    window is idle, and (the block not being written back there) the buffer is as found. -/
def outClause (c : Dev nD) (t : Fin (cfg1 a).N) : sProp 𝕄 :=
  match (cfg1 a).idle 3 ((cfg1 a).grid.coords t) with
  | true =>
    match ((cfg1 a).win 3).flush t with
    | false => iprop(∃ d, owns (c : Thread nD τ) (st1_3 a t) fullShare ((dat1 V a c).before 3 t d))
    | true => owns (c : Thread nD τ) (st1_3 a t) fullShare ((dat1 V a c).after 3 t)
  | false => owns (c : Thread nD τ) (st1_3 a t) fullShare ((dat1 V a c).after 3 t)

theorem outClause_last (c : Dev nD) (t : Fin (cfg1 a).N) (h2 : k1_cond2 (w0At a c t) (w1At a c t) = 1#1) :
    outClause V a c t = owns (c : Thread nD τ) (st1_3 a t) fullShare (outOf (scAt V a c (t.val + 1))) := by
  unfold outClause; rw [idle3_eq a c t, h2, after1_3]; rfl

theorem outClause_idle (c : Dev nD) (t : Fin (cfg1 a).N) (h2 : ¬ (k1_cond2 (w0At a c t) (w1At a c t) = 1#1))
    (hfl : ((cfg1 a).win 3).flush t = false) :
    outClause V a c t = iprop(∃ d, owns (c : Thread nD τ) (st1_3 a t) fullShare ((dat1 V a c).before 3 t d)) := by
  have hb : (k1_cond2 (w0At a c t) (w1At a c t) == 1#1) = false := by
    cases hb : (k1_cond2 (w0At a c t) (w1At a c t) == 1#1)
    · rfl
    · exact absurd (by simpa using hb) h2
  unfold outClause; rw [idle3_eq a c t, hb, hfl]; rfl

/-- and what it returns. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t)
    ∗ outClause V a c t)

set_option maxHeartbeats 1000000 in
/-- The body at any point. The inputs' memrefs hold their blocks; the scratch arrays hold the carried state (at the first
    point anything: its step resets); the body's triple applies; at a query tile's last step the output's buffer is left at
    the finished block, elsewhere as found (and such a step does not write it back). -/
theorem sound_body1 (c : Dev nD) (hfirst : ∀ t : Fin (cfg1 a).N, t.val = 0 → isFirst (w1At a c t) = 1#1)
    (hflush : ∀ t : Fin (cfg1 a).N, ¬ (k1_cond2 (w0At a c t) (w1At a c t) = 1#1) → ((cfg1 a).win 3).flush t = false)
    (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).owesAt () t.succ = (dat1 V a c).owesAt () t.castSucc from rfl, after1_0, after1_1, after1_2,
    show (dat1 V a c).Φ t.castSucc = Phi1 V a c t.castSucc from rfl, show (dat1 V a c).Φ t.succ = Phi1 V a c t.succ from rfl]
  unfold Phi1
  by_cases h2 : k1_cond2 (w0At a c t) (w1At a c t) = 1#1
  · rw [outClause_last V a c t h2]
    iintro ⟨⟨%s, %hs, Hm, Hl, Ha, Hrest, Hp, HT0, HT1⟩, Ho, ⟨%d0, H0⟩, ⟨%d1, H1⟩, ⟨%d2, H2⟩, ⟨%d3, H3⟩⟩
    have hstep : scStep (w0At a c t) (w1At a c t) (iblk1 V a c 0 t) (iblk1 V a c 1 t) (iblk1 V a c 2 t) s = scAt V a c (t.val + 1) := by
      rw [scAt_succ]
      by_cases h0 : t.val = 0
      · rw [h0]; exact scStep_first _ _ _ _ _ _ _ (hfirst t h0)
      · rw [hs h0]; rfl
    iapply (sound_kernel1_last c Set.univ (grid1.coords t) _ _ _ _ _ _ _ _ (iblk1 V a c 0 t) (iblk1 V a c 1 t) (iblk1 V a c 2 t) ((dat1 V a c).before 3 t d3) (a.1 0) (a.1 1) s _ h2)
    isplitl [H0]; · iexact H0
    isplitl [H1]; · iexact H1
    isplitl [H2]; · iexact H2
    isplitl [H3]; · iexact H3
    isplitl [Hm]; · iexact Hm
    isplitl [Hl]; · iexact Hl
    isplitl [Ha]; · iexact Ha
    isplitl [HT0]; · iexact HT0
    isplitl [HT1]; · iexact HT1
    iintro ⟨H0, H1, H2, H3, Hm, Hl, Ha, HT0, HT1⟩
    isplitl [Hm Hl Ha Hrest Hp HT0 HT1]
    · iexists (scStep (w0At a c t) (w1At a c t) (iblk1 V a c 0 t) (iblk1 V a c 1 t) (iblk1 V a c 2 t) s)
      isplitr; · ipureintro; exact fun _ => hstep
      isplitl [Hm]; · iexact Hm
      isplitl [Hl]; · iexact Hl
      isplitl [Ha]; · iexact Ha
      isplitl [Hrest]; · iexact Hrest
      isplitl [Hp]; · iexact Hp
      isplitl [HT0]; · iexact HT0
      iexact HT1
    isplitl [Ho]; · iexact Ho
    isplitl [H0]; · iexact H0
    isplitl [H1]; · iexact H1
    isplitl [H2]; · iexact H2
    rw [← hstep]; iexact H3
  · rw [outClause_idle V a c t h2 (hflush t h2)]
    iintro ⟨⟨%s, %hs, Hm, Hl, Ha, Hrest, Hp, HT0, HT1⟩, Ho, ⟨%d0, H0⟩, ⟨%d1, H1⟩, ⟨%d2, H2⟩, ⟨%d3, H3⟩⟩
    have hstep : scStep (w0At a c t) (w1At a c t) (iblk1 V a c 0 t) (iblk1 V a c 1 t) (iblk1 V a c 2 t) s = scAt V a c (t.val + 1) := by
      rw [scAt_succ]
      by_cases h0 : t.val = 0
      · rw [h0]; exact scStep_first _ _ _ _ _ _ _ (hfirst t h0)
      · rw [hs h0]; rfl
    iapply (sound_kernel1_idle c Set.univ (grid1.coords t) _ _ _ _ _ _ _ _ (iblk1 V a c 0 t) (iblk1 V a c 1 t) (iblk1 V a c 2 t) ((dat1 V a c).before 3 t d3) (a.1 0) (a.1 1) s _ h2)
    isplitl [H0]; · iexact H0
    isplitl [H1]; · iexact H1
    isplitl [H2]; · iexact H2
    isplitl [H3]; · iexact H3
    isplitl [Hm]; · iexact Hm
    isplitl [Hl]; · iexact Hl
    isplitl [Ha]; · iexact Ha
    isplitl [HT0]; · iexact HT0
    isplitl [HT1]; · iexact HT1
    iintro ⟨H0, H1, H2, H3, Hm, Hl, Ha, HT0, HT1⟩
    isplitl [Hm Hl Ha Hrest Hp HT0 HT1]
    · iexists (scStep (w0At a c t) (w1At a c t) (iblk1 V a c 0 t) (iblk1 V a c 1 t) (iblk1 V a c 2 t) s)
      isplitr; · ipureintro; exact fun _ => hstep
      isplitl [Hm]; · iexact Hm
      isplitl [Hl]; · iexact Hl
      isplitl [Ha]; · iexact Ha
      isplitl [Hrest]; · iexact Hrest
      isplitl [Hp]; · iexact Hp
      isplitl [HT0]; · iexact HT0
      iexact HT1
    isplitl [Ho]; · iexact Ho
    isplitl [H0]; · iexact H0
    isplitl [H1]; · iexact H1
    isplitl [H2]; · iexact H2
    iexists d3; iexact H3

/-- The library's body obligation, at every point. -/
theorem body_obligation1 (c : Dev nD) (hfirst : ∀ t : Fin (cfg1 a).N, t.val = 0 → isFirst (w1At a c t) = 1#1)
    (hflush : ∀ t : Fin (cfg1 a).N, ¬ (k1_cond2 (w0At a c t) (w1At a c t) = 1#1) → ((cfg1 a).win 3).flush t = false) :
    BodyObligation (dat1 (F := F) V a c) (defs₀ (F := F)) Variants.none () Set.univ := fun t => by
  rw [bigSep_W1, bigSep_W1]
  exact sound_body1 V a c hfirst hflush t

end Cert.Kernel.Hand

end
-- ==== Proof.K.R1c.lean ====
/-
  Region 1 at the program's two tables. The host writes them as literals before the first region: per batch the ten
  (query tile, key tile) pairs of the lower triangle of a 4 x 4 tiling, query tiles 0,1,1,2,2,2,3,3,3,3 against key tiles
  0,0,1,0,1,2,0,1,2,3. Here: the contents are admissible (every block they name lies inside its array), the two words at
  each of the 40 points in closed form, and the two facts the body obligation uses: the first step's key tile is tile 0,
  and a step whose key tile is not its query tile does not write the output block back.
-/
import proofs.«168436_j23081154249219_2_alg».proof.Proof.Gen.Kernel.Launch
import proofs.«168436_j23081154249219_2_alg».proof.Proof.Gen.Kernel.Skeleton
import proofs.«168436_j23081154249219_2_alg».proof.Proof.Gen.Kernel.Points
import proofs.«168436_j23081154249219_2_alg».proof.Proof.K.R1b
import Idealize.ShloMosaic.Lib.Affine
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables' contents, as the host's constants write them. -/
def tblc : pre1.Contents (Elt F) := fun k => match k with
  | ⟨0, _⟩ => fun i => lit0 (S10.rowMajor i)
  | ⟨1, _⟩ => fun i => lit1 (S10.rowMajor i)

/-- Every entry of either table is a tile number below 4. -/
theorem tbl_lt0 (x : S10.Idx) : ((tblc (F := F) 0 x : BitVec 32)).toNat < 4 := (by decide : ∀ j : Fin 10, (lit0 j).toNat < 4) _
theorem tbl_lt1 (x : S10.Idx) : ((tblc (F := F) 1 x : BitVec 32)).toNat < 4 := (by decide : ∀ j : Fin 10, (lit1 j).toNat < 4) _

/-- The batch coordinate of a grid point is below 4. -/
theorem coord0_lt (i : grid1.Coords) : (BitVec.ofNat 32 (i 0).val).toNat < 4 := by
  have h : (i 0).val < 4 := (i 0).isLt
  rw [BitVec.toNat_ofNat, Nat.mod_eq_of_lt (by omega)]; exact h

/-- The tables are admissible: at every point each window's block (batch, tile, 0) lies inside its [4, 4096, 256] array. -/
theorem ok_tblc : ok1 (F := F) tblc := by
  refine ⟨fun i => ?_, fun i => ?_, fun i => ?_, fun i => ?_⟩
  · obtain ⟨w, hw, e⟩ : ∃ w : BitVec 32, w.toNat < 4 ∧ cc1_transform_0 k1_off1_inb numel1_S1 (tblc (F := F)) i = ![(BitVec.ofNat 32 (i 0).val).toNat, w.toNat, 0] :=
      ⟨_, tbl_lt0 (F := F) _, rfl⟩
    refine ⟨fun x => ?_, Or.inr (Affine.block_words_dvd (of_decide_eq_true rfl) (by decide))⟩
    rw [e]
    have hb := coord0_lt i
    fin_cases x <;> simp [S1x1024x256, S4x4096x256] <;> omega
  · obtain ⟨w, hw, e⟩ : ∃ w : BitVec 32, w.toNat < 4 ∧ cc1_transform_1 k1_off1_inb numel1_S1 (tblc (F := F)) i = ![(BitVec.ofNat 32 (i 0).val).toNat, w.toNat, 0] :=
      ⟨_, tbl_lt1 (F := F) _, rfl⟩
    refine ⟨fun x => ?_, Or.inr (Affine.block_words_dvd (of_decide_eq_true rfl) (by decide))⟩
    rw [e]
    have hb := coord0_lt i
    fin_cases x <;> simp [S1x1024x256, S4x4096x256] <;> omega
  · obtain ⟨w, hw, e⟩ : ∃ w : BitVec 32, w.toNat < 4 ∧ cc1_transform_2 k1_off1_inb numel1_S1 (tblc (F := F)) i = ![(BitVec.ofNat 32 (i 0).val).toNat, w.toNat, 0] :=
      ⟨_, tbl_lt1 (F := F) _, rfl⟩
    refine ⟨fun x => ?_, Or.inr (Affine.block_words_dvd (of_decide_eq_true rfl) (by decide))⟩
    rw [e]
    have hb := coord0_lt i
    fin_cases x <;> simp [S1x1024x256, S4x4096x256] <;> omega
  · obtain ⟨w, hw, e⟩ : ∃ w : BitVec 32, w.toNat < 4 ∧ cc1_transform_3 k1_off1_inb numel1_S1 (tblc (F := F)) i = ![(BitVec.ofNat 32 (i 0).val).toNat, w.toNat, 0] :=
      ⟨_, tbl_lt0 (F := F) _, rfl⟩
    refine ⟨fun x => ?_, Or.inl rfl⟩
    rw [e]
    have hb := coord0_lt i
    fin_cases x <;> simp [S1x1024x256, S4x4096x256] <;> omega

/-- The tables as admissible contents, and the pipeline at them. -/
abbrev adm1 : (pcfg1 (F := F)).Adm := ⟨tblc, ok_tblc⟩

/-- The literal tables by position. -/
def qiOf (j : Fin 10) : BitVec 32 := lit0 j
def kiOf (j : Fin 10) : BitVec 32 := lit1 j

/-- The offset at which a point reads the tables is its second coordinate, `t mod 10`. -/
theorem off_val : ∀ t : Fin grid1.N, k1_off1 (grid1.coords t) 0 = t.val % 10 := by decide +kernel

/-- The words at point `t`: entries `t mod 10` of the tables. -/
theorem w0At_eq (c : Dev nD) (t : Fin (cfg1 (adm1 (F := F))).N) : w0At (adm1 (F := F)) c t = qiOf ⟨t.val % 10, Nat.mod_lt _ (by decide)⟩ := by
  have h : ∀ x, k1_off1 (grid1.coords t) x + 1 ≤ (pre1.ref 0).ty.shape.size x := fun x => by
    have h' := k1_off1_inb (grid1.coords t) x
    have e : S1.size x = 1 := by match x with | ⟨0, _⟩ => rfl
    rw [e] at h'; exact h'
  rw [show w0At (adm1 (F := F)) c t = ((adm1 (F := F)).1).atD 0 (k1_off1 (grid1.coords t)) from (atD0_eq (adm1 (F := F)) c (grid1.coords t)).symm, atD_pos ((adm1 (F := F)).1) 0 _ h]
  show lit0 (S10.rowMajor _) = lit0 _
  refine congrArg lit0 (Fin.ext ?_)
  exact (Shape.rowMajor_val_one (d := ![10]) _).trans (off_val t)
theorem w1At_eq (c : Dev nD) (t : Fin (cfg1 (adm1 (F := F))).N) : w1At (adm1 (F := F)) c t = kiOf ⟨t.val % 10, Nat.mod_lt _ (by decide)⟩ := by
  have h : ∀ x, k1_off1 (grid1.coords t) x + 1 ≤ (pre1.ref 1).ty.shape.size x := fun x => by
    have h' := k1_off1_inb (grid1.coords t) x
    have e : S1.size x = 1 := by match x with | ⟨0, _⟩ => rfl
    rw [e] at h'; exact h'
  rw [show w1At (adm1 (F := F)) c t = ((adm1 (F := F)).1).atD 1 (k1_off1 (grid1.coords t)) from (atD1_eq (adm1 (F := F)) c (grid1.coords t)).symm, atD_pos ((adm1 (F := F)).1) 1 _ h]
  show lit1 (S10.rowMajor _) = lit1 _
  refine congrArg lit1 (Fin.ext ?_)
  exact (Shape.rowMajor_val_one (d := ![10]) _).trans (off_val t)

/-- The first step's key tile is tile 0: the step resets. -/
theorem hfirst1 (c : Dev nD) (t : Fin (cfg1 (adm1 (F := F))).N) (h0 : t.val = 0) : isFirst (w1At (adm1 (F := F)) c t) = 1#1 := by
  rw [w1At_eq]
  have : (⟨t.val % 10, Nat.mod_lt _ (by decide)⟩ : Fin 10) = 0 := by apply Fin.ext; simp [h0]
  rw [this]; decide

/-- The output window's block index at a point, with the tables' entries written out: (batch, query tile, 0). -/
def ixOut (i : grid1.Coords) : Fin 3 → Nat :=
  ![(BitVec.ofNat 32 (i 0).val).toNat,
    (lit0 (S10.rowMajor ((Rect.unit (s := S10) ![(Scalar.indexCast (BitVec.ofNat 32 (i 1).val)).toNat] S1.size (k1_off1_inb i)).emb
      (Shape.Idx.first (numel1_S1.symm ▸ Nat.one_pos))))).toNat, 0]
theorem ixOut_eq : cc1_transform_3 k1_off1_inb numel1_S1 (tblc (F := F)) = ixOut := by
  funext i; rfl

/-- A step whose key tile is not its query tile is followed by a step of the same query tile of the same batch: the output
    block's index does not move, and the block is not written back. -/
theorem hflush1 (c : Dev nD) (t : Fin (cfg1 (adm1 (F := F))).N) (h : ¬ (k1_cond2 (w0At (adm1 (F := F)) c t) (w1At (adm1 (F := F)) c t) = 1#1)) :
    ((cfg1 (adm1 (F := F))).win 3).flush t = false := by
  rw [w0At_eq, w1At_eq] at h
  show Pipeline.Window.flushOf grid1 true (cc1_transform_3 k1_off1_inb numel1_S1 (tblc (F := F))) t = false
  rw [ixOut_eq]
  exact (by decide +kernel : ∀ t : Fin grid1.N, ¬ (k1_cond2 (qiOf ⟨t.val % 10, Nat.mod_lt _ (by decide)⟩) (kiOf ⟨t.val % 10, Nat.mod_lt _ (by decide)⟩) = 1#1) →
    Pipeline.Window.flushOf grid1 true ixOut t = false) t h

end Cert.Kernel.Hand

end
-- ==== Proof.K.Run.lean ====
/-
  The whole run. @main is: the host writes the two tables and flattens the input to [16384, 256]; region 0 (the
  projections); the host reshapes the three results back to [4, 4096, 256]; region 1 (attention). Between the items every
  unscoped buffer is held whole at contents named by a fold from the launch memory: a host stretch applies its operations,
  a region leaves its arrays at what its write-backs make of them. Each region is entered from what the item before left;
  region 1 also takes the two tables (at the contents the host wrote) into its invariant and gives them back. The run ends
  with every unscoped buffer at the last fold's contents: the seven arguments as launched, the result at what region 1's
  write-backs leave.
-/
import proofs.«168436_j23081154249219_2_alg».proof.Proof.Gen.Kernel.Launch
import proofs.«168436_j23081154249219_2_alg».proof.Proof.Gen.Kernel.Skeleton
import proofs.«168436_j23081154249219_2_alg».proof.Proof.Gen.Kernel.Points
import proofs.«168436_j23081154249219_2_alg».proof.Proof.K.R0
import proofs.«168436_j23081154249219_2_alg».proof.Proof.K.R1c
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (V3 m ρ) (adm1 (F := F)) c).arrAt w (cfg1 (adm1 (F := F))).N
theorem W4_arr (c : Dev nD) (w : Fin (cfg1 (adm1 (F := F))).W) :
    W4 m ρ c (Proc.devRef .tc (Pipeline.arrRef spec1 w)) = (dat1 (V3 m ρ) (adm1 (F := F)) c).arrAt w (cfg1 (adm1 (F := F))).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin (cfg1 (adm1 (F := F))).W) : (dat1 (V3 m ρ) (adm1 (F := F)) c).arrAt w (cfg1 (adm1 (F := F))).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ### The tables reach region 1 as the host wrote them -/

theorem W1_main_c (c : Dev nD) : W1 m ρ c (Proc.devRef .tc main_c) = (tblc 0 : Buf (Elt F) ((c : Thread nD τ).loc main_c)) := by
  dsimp only [W1, hostOps0]; after_results; rfl
theorem W1_main_c_0 (c : Dev nD) : W1 m ρ c (Proc.devRef .tc main_c_0) = (tblc 1 : Buf (Elt F) ((c : Thread nD τ).loc main_c_0)) := by
  dsimp only [W1, hostOps0]; after_results; rfl
theorem W3_main_c_W1 (c : Dev nD) : W3 m ρ c (Proc.devRef .tc main_c) = W1 m ρ c (Proc.devRef .tc main_c) :=
  (StableHlo.after_of_forall_not_mem (b := Proc.devRef .tc main_c) hostOps1 (W2 m ρ c) (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_c (by decide))
theorem V3_main_c (c : Dev nD) : V3 m ρ c main_c = (tblc 0 : Buf (Elt F) ((c : Thread nD τ).loc main_c)) :=
  (W3_main_c_W1 m ρ c).trans (W1_main_c m ρ c)
theorem W3_main_c_0_W1 (c : Dev nD) : W3 m ρ c (Proc.devRef .tc main_c_0) = W1 m ρ c (Proc.devRef .tc main_c_0) :=
  (StableHlo.after_of_forall_not_mem (b := Proc.devRef .tc main_c_0) hostOps1 (W2 m ρ c) (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_c_0 (by decide))
theorem V3_main_c_0 (c : Dev nD) : V3 m ρ c main_c_0 = (tblc 1 : Buf (Elt F) ((c : Thread nD τ).loc main_c_0)) :=
  (W3_main_c_0_W1 m ρ c).trans (W1_main_c_0 m ρ c)

/-! ## The proof data family and the thread state -/

abbrev adm : (p : Fin 2) → (pcfgs (F := F) p).Adm
  | ⟨0, _⟩ => cfg0.toPCfg_adm
  | ⟨1, _⟩ => (adm1 (F := F))
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) (adm1 (F := F)) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-- Region 1's unscoped buffers that are no window's array, one by one (the two tables last). -/
theorem unscopedRest1_eq (c : Dev nD) (V : (b : Ref sig .tc) → Buf (Elt F) ((c : Thread nD τ).loc b)) :
    (Pipeline.unscopedRest (Ix := Unit) (Name := ℕ) (U := UR sig nD τ) (Lvl := ℕ) spec1 c V : sProp 𝕄)
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_arg4) ↦{fullShare} V main_arg4) ∗ (((c : Thread nD τ).loc main_arg5) ↦{fullShare} V main_arg5) ∗ (((c : Thread nD τ).loc main_arg6) ↦{fullShare} V main_arg6) ∗ (((c : Thread nD τ).loc main_v0) ↦{fullShare} V main_v0) ∗ (((c : Thread nD τ).loc main_v1_0) ↦{fullShare} V main_v1_0) ∗ (((c : Thread nD τ).loc main_v1_1) ↦{fullShare} V main_v1_1) ∗ (((c : Thread nD τ).loc main_v1_2) ↦{fullShare} V main_v1_2) ∗ (((c : Thread nD τ).loc main_c) ↦{fullShare} V main_c) ∗ (((c : Thread nD τ).loc main_c_0) ↦{fullShare} V main_c_0)) :=
  Pipeline.unscopedRest_eq_of_list spec1 c V [main_arg0, main_arg1, main_arg2, main_arg3, main_arg4, main_arg5, main_arg6, main_v0, main_v1_0, main_v1_1, main_v1_2, main_c, main_c_0] (by decide) (by decide)

/-- The buffers that bypass region 1: neither an array of it nor a table. -/
def Z1 (c : Dev nD) (V : (b : Ref sig .tc) → Buf (Elt F) ((c : Thread nD τ).loc b)) : sProp 𝕄 :=
  iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_arg4) ↦{fullShare} V main_arg4) ∗ (((c : Thread nD τ).loc main_arg5) ↦{fullShare} V main_arg5) ∗ (((c : Thread nD τ).loc main_arg6) ↦{fullShare} V main_arg6) ∗ (((c : Thread nD τ).loc main_v0) ↦{fullShare} V main_v0) ∗ (((c : Thread nD τ).loc main_v1_0) ↦{fullShare} V main_v1_0) ∗ (((c : Thread nD τ).loc main_v1_1) ↦{fullShare} V main_v1_1) ∗ (((c : Thread nD τ).loc main_v1_2) ↦{fullShare} V main_v1_2))

/-- The two tables held whole are the tables as the pipeline holds them. -/
theorem prefHeld1_eq (c : Dev nD) :
    (Pipeline.prefHeld (Ix := Unit) (Name := ℕ) (U := UR sig nD τ) (Lvl := ℕ) pre1 c (fun _ => fullShare) (tblc (F := F)) : sProp 𝕄)
      = iprop(tbPt c tbM0 (tblc (F := F) 0) ∗ tbPt c tbM1 (tblc (F := F) 1)) := by
  unfold Pipeline.prefHeld
  rw [show (Finset.univ : Finset (Fin 2)) = insert (0 : Fin 2) {(1 : Fin 2)} from by decide,
    bigSep_insert (by decide), bigSep_singleton]
  rfl

/-! ## The regions as segments -/

set_option backward.isDefEq.respectTransparency.types false in
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 1000000 in
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) (adm1 (F := F)) c (hfirst1 c) (hflush1 c)).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop((∃ r, prngReg c r) ∗ tbPt c tbM0 (tblc (F := F) 0) ∗ tbPt c tbM1 (tblc (F := F) 1))
  Z c := Z1 c (V3 m ρ c)
  hentry c := by
    rw [Pipeline.ownSems0_none]
    have hsplit := Pipeline.arrays_of_unscopedBufs (p := 1) (pcfgs (F := F)) adm (pdats m ρ) (launch1 (F := F)).win (launch1 (F := F)).arr_whole c
      ((pdats m ρ 1 c).share_full fun _ => rfl) (V3 m ρ c) fun _ => rfl
    rw [Pipeline.unscopedBufs_held] at hsplit
    replace hsplit : StableHlo.held (c : Thread nD τ) (Pipeline.ucRefs τ sig) (W3 m ρ c)
        ⊢ (iprop((pdats m ρ 1 c).arrays ((pdats m ρ 1 c).arrAt · 0)
          ∗ Pipeline.unscopedRest (Ix := Unit) (Name := ℕ) (U := UR sig nD τ) (Lvl := ℕ) spec1 c (V3 m ρ c)) : sProp 𝕄) := hsplit
    rw [unscopedRest1_eq, V3_main_c, V3_main_c_0] at hsplit
    have hpref : (iprop(tbPt c tbM0 (tblc (F := F) 0) ∗ tbPt c tbM1 (tblc (F := F) 1)) : sProp 𝕄)
        ⊢ Pipeline.prefHeld (Ix := Unit) (Name := ℕ) (U := UR sig nD τ) (Lvl := ℕ) pre1 c (fun _ => fullShare) (tblc (F := F)) := by
      rw [prefHeld1_eq]
    iintro ⟨⟨Hub, Hp, HO⟩, -, -⟩
    ihave H := hsplit $$ Hub
    icases H with ⟨Ha, A0, A1, A2, A3, A4, A5, A6, A7, A8, A9, A10, Hc, Hc0⟩
    imodintro
    isplitl [Ha]; · iexact Ha
    isplitl [Hc Hc0]
    · iapply hpref
      isplitl [Hc]; · iexact Hc
      iexact Hc0
    isplitl [HO]
    · unfold Pipeline.Dat.owesAt Pipeline.owesWithin
      icases HO with ⟨%W, HO⟩; iexists W; isplitr; · ipureintro; exact fun _ _ => Or.inl trivial
      iexact HO
    isplitl [Hp]; · iexact Hp
    unfold Z1
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  hin c := by
    show iprop((∃ r, prngReg c r) ∗ Pipeline.prefHeld (Ix := Unit) (Name := ℕ) (U := UR sig nD τ) (Lvl := ℕ) pre1 c (fun _ => fullShare) (tblc (F := F)) ∗ Pipeline.scopedRest (Ix := Unit) (Name := ℕ) (U := UR sig nD τ) (Lvl := ℕ) (Val := Elt F) spec1 c) ⊢ Phi1 (V3 m ρ) (adm1 (F := F)) c 0
    rw [prefHeld1_eq, scopedRest1_eq]
    unfold Phi1 rest1
    iintro ⟨Hp, ⟨HT0, HT1⟩, S0, S1, S2, S3, S4, S5, S6, S7, S8, S9, S10, S11, S12, S13, ⟨%fm, Hm⟩, ⟨%fl, Hl⟩, ⟨%fa, Ha⟩⟩
    iexists (⟨fm, fl, fa⟩ : Sc F)
    isplitr; · ipureintro; intro h; exact absurd rfl h
    isplitl [Hm]; · rw [owns_whole_eq]; iexists fm; isplitr; · ipureintro; rfl
                    iexact Hm
    isplitl [Hl]; · rw [owns_whole_eq]; iexists fl; isplitr; · ipureintro; rfl
                    iexact Hl
    isplitl [Ha]; · rw [owns_whole_eq]; iexists fa; isplitr; · ipureintro; rfl
                    iexact Ha
    isplitl [S0 S1 S2 S3 S4 S5 S6 S7 S8 S9 S10 S11 S12 S13]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      iexact S13
    isplitl [Hp]; · iexact Hp
    isplitl [HT0]; · iexact HT0
    iexact HT1
  hout c := by
    rw [Pipeline.ownSems0_none]
    show Phi1 (V3 m ρ) (adm1 (F := F)) c (Fin.last _) ⊢ iprop(((∃ r, prngReg c r) ∗ tbPt c tbM0 (tblc (F := F) 0) ∗ tbPt c tbM1 (tblc (F := F) 1)) ∗ BI.emp ∗ Pipeline.scopedRest (Ix := Unit) (Name := ℕ) (U := UR sig nD τ) (Lvl := ℕ) (Val := Elt F) spec1 c)
    rw [scopedRest1_eq]
    unfold Phi1 rest1
    simp only [owns_whole_eq]
    iintro ⟨%s, -, ⟨%fm, -, Hm⟩, ⟨%fl, -, Hl⟩, ⟨%fa, -, Ha⟩, ⟨S0, S1, S2, S3, S4, S5, S6, S7, S8, S9, S10, S11, S12, S13⟩, Hp, HT0, HT1⟩
    isplitl [Hp HT0 HT1]
    · isplitl [Hp]; · iexact Hp
      isplitl [HT0]; · iexact HT0
      iexact HT1
    isplitr; · iempintro
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [Hm]; · iexists fm; iexact Hm
    isplitl [Hl]; · iexists fl; iexact Hl
    iexists fa; iexact Ha
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · (cfg1 (adm1 (F := F))).N) (hF1 m ρ c) (hrest1 m ρ c)
    rw [Pipeline.unscopedBufs_held] at hjoin
    replace hjoin : (iprop((pdats m ρ 1 c).arrays ((pdats m ρ 1 c).arrAt · (cfg1 (adm1 (F := F))).N)
          ∗ Pipeline.unscopedRest (Ix := Unit) (Name := ℕ) (U := UR sig nD τ) (Lvl := ℕ) spec1 c (V3 m ρ c)) : sProp 𝕄)
        ⊢ StableHlo.held (c : Thread nD τ) (Pipeline.ucRefs τ sig) (W4 m ρ c) := hjoin
    rw [unscopedRest1_eq, V3_main_c, V3_main_c_0] at hjoin
    unfold Z1
    iintro ⟨Ha, HO, ⟨Hp, Hc, Hc0⟩, A0, A1, A2, A3, A4, A5, A6, A7, A8, A9, A10⟩
    imodintro
    isplitl [Ha A0 A1 A2 A3 A4 A5 A6 A7 A8 A9 A10 Hc Hc0 Hp]
    · isplitl [Ha A0 A1 A2 A3 A4 A5 A6 A7 A8 A9 A10 Hc Hc0]
      · iapply hjoin
        isplitl [Ha]; · iexact Ha
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [Hc]; · iexact Hc
        iexact Hc0
      iexact Hp
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c)⟩) (run_main m ρ)

end Cert.Kernel.Hand

end
-- ==== Proof.KI.R0.lean ====
/-
  Region 0: the three projections. One grid point stages a 2048-row block of the flattened input beside the three
  weight matrices and the three bias vectors (each whole, fetched once), and stores the three 2048 x 256 blocks
  x W^T + b (queries, keys, values). Stated at a PARAMETER `V`, the buffer contents when the region is entered: the
  blocks the body finds, what each output's staging buffer holds after the body, the body's triple, the proof data and
  the body obligation.
-/
import proofs.«168436_j23081154249219_2_alg».proof.Proof.Gen.KernelIdeal.Launch
import proofs.«168436_j23081154249219_2_alg».proof.Proof.Gen.KernelIdeal.Skeleton
import proofs.«168436_j23081154249219_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: a window fetched once
    keeps its index, so the block it was handed is the block of every later point. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX : Rect S2048x256 := Rect.unit (s := S2048x256) ![0, 0] S2048x256.size inb_S2048x256_S2048x256_0_0
abbrev rW : Rect S256x256 := Rect.unit (s := S256x256) ![0, 0] S256x256.size inb_S256x256_S256x256_0_0
abbrev rB : Rect S256 := Rect.unit (s := S256) ![0] S256.size inb_S256_S256_0

/-! ## What the body leaves in each output window's buffer -/

/-- The query block's staging buffer after the body: its one store, the whole block. -/
def out0_7 (x0 : Vec F S2048x256 .f32) (x1 : Vec F S256x256 .f32) (x2 : Vec F S256 .f32) : Vec F S2048x256 .bf16 :=
  View.canon [⟨rX, k0_pay2 (View.ld x0 rX) (View.ld x1 rW) (View.ld x2 rB)⟩]
/-- The key block's. -/
def out0_8 (x0 : Vec F S2048x256 .f32) (x3 : Vec F S256x256 .f32) (x4 : Vec F S256 .f32) : Vec F S2048x256 .bf16 :=
  View.canon [⟨rX, k0_pay3 (View.ld x0 rX) (View.ld x3 rW) (View.ld x4 rB)⟩]
/-- The value block's. -/
def out0_9 (x0 : Vec F S2048x256 .f32) (x5 : Vec F S256x256 .f32) (x6 : Vec F S256 .f32) : Vec F S2048x256 .bf16 :=
  View.canon [⟨rX, k0_pay4 (View.ld x0 rX) (View.ld x5 rW) (View.ld x6 rB)⟩]

/-- One store of the whole block covers it. -/
theorem cover0 (p0 : Vec F S2048x256 .bf16) (y : S2048x256.Idx) :
    ∃ pc ∈ ([⟨rX, p0⟩] : List (View.Piece (Elt F) S2048x256 .bf16)), y ∈ pc.1.set :=
  View.cover_of_tiled [⟨rX, p0⟩] S2048x256.size (by rfl) y

/-! ## The body's triple -/

set_option maxHeartbeats 2000000 in
/-- The body on whole staging memrefs, the inputs' at read contents `x0 … x6` and the outputs' at anything, runs to the
    continuation holding the inputs' as they were and each output's at its projection of the inputs'. -/
theorem sound_kernel0 (c : Dev nD) (E : Set ℕ) (i : grid0.Coords)
    (arg1 : Memref sig .tc .vmem S2048x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S256x256 .f32) (harg6 : arg6.IsWhole)
    (arg7 : Memref sig .tc .vmem S256 .f32) (harg7 : arg7.IsWhole) (arg8 : Memref sig .tc .vmem S2048x256 .bf16) (harg8 : arg8.IsWhole)
    (arg9 : Memref sig .tc .vmem S2048x256 .bf16) (harg9 : arg9.IsWhole) (arg10 : Memref sig .tc .vmem S2048x256 .bf16) (harg10 : arg10.IsWhole)
    (x0 : Vec F S2048x256 .f32) (x1 : Vec F S256x256 .f32) (x2 : Vec F S256 .f32) (x3 : Vec F S256x256 .f32) (x4 : Vec F S256 .f32)
    (x5 : Vec F S256x256 .f32) (x6 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2) ∗ owns (c : Thread nD τ) arg9 fullShare (out0_8 x0 x3 x4)
            ∗ owns (c : Thread nD τ) arg10 fullShare (out0_9 x0 x5 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The pipeline's proof data -/

/-- The proof data of the projection pipeline on core `c`: the arrays as the region finds them; after the body at point
    `t` each input's buffer at its block and each output's at its projection of the input blocks; the class invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1a.lean ====
/-
  Region 1, the body: causal attention, one (query tile, key tile) pair per grid point, the pairs of one batch listed
  by two prefetched tables (the query tile's number and the key tile's number at each step). Three scratch arrays are
  carried from point to point: the running row maximum, the running normaliser and the running accumulator. At the first
  key tile of a query tile they are reset (maximum to the named minus infinity, the others to zero); every point rescales
  them by exp(old maximum - new maximum) and adds the tile's terms; at the last key tile (the diagonal one) the output
  block is stored as accumulator over normaliser. Here: the carried state as a pure function of the tables' two words and
  the three input blocks, and the body's triple in each of the four control cases.
-/
import proofs.«168436_j23081154249219_2_alg».proof.Proof.Gen.KernelIdeal.Launch
import proofs.«168436_j23081154249219_2_alg».proof.Proof.Gen.KernelIdeal.Skeleton
import proofs.«168436_j23081154249219_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The tables and the scratch arrays as the body is handed them -/

abbrev tbM0 : Memref sig .tc .smem S10 .i32 := Memref.whole main_c
abbrev tbM1 : Memref sig .tc .smem S10 .i32 := Memref.whole main_c_0
abbrev scM : Memref sig .tc .vmem S1x1024x1 .f32 := Memref.whole cc1_scratch0
abbrev scL : Memref sig .tc .vmem S1x1024x1 .f32 := Memref.whole cc1_scratch1
abbrev scA : Memref sig .tc .vmem S1x1024x256 .f32 := Memref.whole cc1_scratch2
abbrev TbBuf (c : Dev nD) {S : Shape} {e : EltTy} (M : Memref sig .tc .smem S e) : Type := Buf (Elt F) (M.view.loc (c : Thread nD τ))
/-- A table held whole. -/
abbrev tbPt (c : Dev nD) {S : Shape} {e : EltTy} (M : Memref sig .tc .smem S e) (f : TbBuf (F := F) c M) : sProp 𝕄 :=
  M.view.loc (c : Thread nD τ) ↦{fullShare} f

/-- The query-tile word the body loads at grid point `i`: entry (second coordinate of `i`) of the first table. -/
abbrev qiW (c : Dev nD) (i : grid1.Coords) (xt0 : TbBuf (F := F) c tbM0) : Elt F .i32 :=
  tbM0.view.readAt (Elt F) (Rect.unit (s := S10) (k1_off1 i) S1.size (k1_off1_inb i)).toLoadRect xt0 (Shape.Idx.first (numel1_S1.symm ▸ Nat.one_pos))
/-- The key-tile word: the same entry of the second table. -/
abbrev kiW (c : Dev nD) (i : grid1.Coords) (xt1 : TbBuf (F := F) c tbM1) : Elt F .i32 :=
  tbM1.view.readAt (Elt F) (Rect.unit (s := S10) (k1_off1 i) S1.size (k1_off1_inb i)).toLoadRect xt1 (Shape.Idx.first (numel1_S1.symm ▸ Nat.one_pos))
/-- The reset condition as the body computes it from the key-tile word: the word is zero. -/
def isFirst (w1 : BitVec 32) : BitVec 1 := Scalar.cmpi .ne (Scalar.extui (Scalar.cmpi .eq w1 0#32)) 0#32

/-! ## The carried state -/

/-- Running maximum, normaliser and accumulator of the 1024 query rows of a tile. -/
structure Sc (F : FTy → Type) where
  m : Vec F S1x1024x1 .f32
  l : Vec F S1x1024x1 .f32
  a : Vec F S1x1024x256 .f32

/-- The reset state: maximum the named minus infinity, normaliser and accumulator zero. -/
def scInit : Sc F := ⟨k1_pay5, k1_pay6, k1_pay7⟩
/-- The state a point computes from: the reset state at a first key tile, else what the point before left. -/
def scPrev (w1 : BitVec 32) (s : Sc F) : Sc F := if isFirst w1 = 1#1 then scInit else s
/-- One point: the new maximum; the normaliser and the accumulator rescaled, the tile's terms added. -/
def scStep (w0 w1 : BitVec 32) (xq xk xv : Vec F S1x1024x256 .bf16) (s : Sc F) : Sc F :=
  ⟨k1_pay3 (k1_pay10 w0 w1 xq xk (scPrev w1 s).m),
   k1_pay1 (k1_pay11 w0 w1 xq xk (scPrev w1 s).m) (k1_pay12 w0 w1 xq xk (scPrev w1 s).m) (scPrev w1 s).l,
   k1_pay2 (k1_pay8 xv) (k1_pay11 w0 w1 xq xk (scPrev w1 s).m) (k1_pay12 w0 w1 xq xk (scPrev w1 s).m) (scPrev w1 s).a⟩
/-- The output block of a finished query tile: accumulator over normaliser. -/
def outOf (s : Sc F) : Vec F S1x1024x256 .f32 := k1_pay4 s.a s.l

theorem scStep_first (w0 w1 : BitVec 32) (xq xk xv : Vec F S1x1024x256 .bf16) (s s' : Sc F) (h : isFirst w1 = 1#1) :
    scStep w0 w1 xq xk xv s = scStep w0 w1 xq xk xv s' := by
  unfold scStep scPrev; simp only [if_pos h]

/-! ## Whole-block stores and loads -/

theorem hz3 : (![0, 0, 0] : Fin 3 → Nat) = fun _ => 0 := by funext a; fin_cases a <;> rfl

/-- After a list of stores whose LAST is of the whole block, the buffer reads that store's payload. -/
theorem read_writes_whole {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, by
    subst h; show y ∈ (Rect.whole S).set; rw [Rect.set_whole]; exact Finset.mem_univ y⟩), View.canon_cons_unit_zero h]

/-- A load of the whole block reads the buffer's contents. -/
theorem readAt_whole {S : Shape} {e : EltTy} {sp : Space} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld]; exact View.ld_unit_zero h inb _

/-- A load of the whole block after stores whose last is of the whole block reads that store's payload. -/
theorem readCov_head_whole {S : Shape} {e : EltTy} {sp : Space} (v : View sig .tc sp S e)
    {off : Fin S.rank → Nat} (h : off = fun _ => 0) (inb inb' : ∀ a, off a + S.size a ≤ S.size a) (w : S.Idx → Elt F e)
    (L : List (View.Piece (Elt F) S e)) :
    v.readCov ((⟨Rect.unit off S.size inb, w⟩ : View.Piece (Elt F) S e) :: L) (Rect.unit off S.size inb').toLoadRect = w := by
  rw [View.readCov_eq_canon']; funext j; rw [View.canon_cons_unit_zero h]; exact congrFun (View.ld_unit_zero h inb' w) j

/-! ## The body's triple -/

set_option maxHeartbeats 4000000 in
/-- The body on whole staging memrefs: the three input blocks at read contents `xq xk xv`, the output's buffer at `xo`, the
    scratch arrays at the state `s`, the tables at `xt0 xt1`. It runs to the continuation holding the inputs and the tables
    as they were, the scratch arrays at the next state, and the output's buffer at accumulator over normaliser if this is the
    query tile's last key tile, untouched otherwise. -/
theorem sound_kernel1 (c : Dev nD) (E : Set ℕ) (i : grid1.Coords)
    (arg4 : Memref sig .tc .vmem S1x1024x256 .bf16) (harg4 : arg4.IsWhole) (arg5 : Memref sig .tc .vmem S1x1024x256 .bf16) (harg5 : arg5.IsWhole)
    (arg6 : Memref sig .tc .vmem S1x1024x256 .bf16) (harg6 : arg6.IsWhole) (arg7 : Memref sig .tc .vmem S1x1024x256 .f32) (harg7 : arg7.IsWhole)
    (xq xk xv : Vec F S1x1024x256 .bf16) (xo : Vec F S1x1024x256 .f32) (xt0 : TbBuf (F := F) c tbM0) (xt1 : TbBuf (F := F) c tbM1)
    (s : Sc F) (K : PUnit → sProp 𝕄) :
    iprop(owns (c : Thread nD τ) arg4 fullShare xq ∗ owns (c : Thread nD τ) arg5 fullShare xk ∗ owns (c : Thread nD τ) arg6 fullShare xv
        ∗ owns (c : Thread nD τ) arg7 fullShare xo
        ∗ owns (c : Thread nD τ) scM fullShare s.m ∗ owns (c : Thread nD τ) scL fullShare s.l ∗ owns (c : Thread nD τ) scA fullShare s.a
        ∗ tbPt c tbM0 xt0 ∗ tbPt c tbM1 xt1
        ∗ (iprop(owns (c : Thread nD τ) arg4 fullShare xq ∗ owns (c : Thread nD τ) arg5 fullShare xk ∗ owns (c : Thread nD τ) arg6 fullShare xv
            ∗ owns (c : Thread nD τ) arg7 fullShare
                (if k1_cond2 (qiW c i xt0) (kiW c i xt1) = 1#1 then outOf (scStep (qiW c i xt0) (kiW c i xt1) xq xk xv s) else xo)
            ∗ owns (c : Thread nD τ) scM fullShare (scStep (qiW c i xt0) (kiW c i xt1) xq xk xv s).m
            ∗ owns (c : Thread nD τ) scL fullShare (scStep (qiW c i xt0) (kiW c i xt1) xq xk xv s).l
            ∗ owns (c : Thread nD τ) scA fullShare (scStep (qiW c i xt0) (kiW c i xt1) xq xk xv s).a
            ∗ tbPt c tbM0 xt0 ∗ tbPt c tbM1 xt1) -∗ K ⟨⟩))
      ⊢ wp frame (wpE (defs₀ (F := F)) Variants.none c none) E
          (cc1__attn_kernel i tbM0 (Memref.isWhole_whole _) tbM1 (Memref.isWhole_whole _) arg4 harg4 arg5 harg5 arg6 harg6 arg7 harg7 scM (Memref.isWhole_whole _) scL (Memref.isWhole_whole _) scA (Memref.isWhole_whole _)) K := by
  obtain ⟨sm, sl, sa⟩ := s
  simp only [cc1__attn_kernel_eq_skeleton]; unfold cc1__attn_kernel_skel
  simp only [k1_part1_eq_skeleton]
  unfold owns
  iintro ⟨⟨%f4, %hf4, H4⟩, ⟨%f5, %hf5, H5⟩, ⟨%f6, %hf6, H6⟩, ⟨%f7, %hf7, H7⟩, ⟨%fm, %hfm, Hm⟩, ⟨%fl, %hfl, Hl⟩, ⟨%fa, %hfa, Ha⟩, HT0, HT1, Hk⟩
  subst hf4 hf5 hf6 hf7 hfm hfl hfa
  by_cases h1 : isFirst (kiW c i xt1) = 1#1 <;> by_cases h2 : k1_cond2 (qiW c i xt0) (kiW c i xt1) = 1#1
  all_goals
    sl_exec (disch := first | sl_exact h1 | sl_exact h2)
    sl_step
    sl_unfold_run_names
    iapply Hk
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]
    · iexists _; isplitr
      swap; · iexact H7
      ipureintro
      first
        | (rw [if_pos h2, read_writes_whole (S := S1x1024x256) _ _ hz3]
           simp only [outOf, scStep, scPrev, scInit, h1, ↓reduceIte, readAt_whole (S := S1x1024x256) _ _ hz3, readAt_whole (S := S1x1024x1) _ _ hz3, readCov_head_whole (S := S1x1024x256) _ hz3, readCov_head_whole (S := S1x1024x1) _ hz3])
        | (rw [if_neg h2])
    isplitl [Hm]
    · iexists _; isplitr
      swap; · iexact Hm
      ipureintro
      first | rw [read_writes_whole (S := S1x1024x256) _ _ hz3] | rw [read_writes_whole (S := S1x1024x1) _ _ hz3]
      simp only [scStep, scPrev, scInit, h1, ↓reduceIte, readAt_whole (S := S1x1024x256) _ _ hz3, readAt_whole (S := S1x1024x1) _ _ hz3, readCov_head_whole (S := S1x1024x256) _ hz3, readCov_head_whole (S := S1x1024x1) _ hz3]
    isplitl [Hl]
    · iexists _; isplitr
      swap; · iexact Hl
      ipureintro
      first | rw [read_writes_whole (S := S1x1024x256) _ _ hz3] | rw [read_writes_whole (S := S1x1024x1) _ _ hz3]
      simp only [scStep, scPrev, scInit, h1, ↓reduceIte, readAt_whole (S := S1x1024x256) _ _ hz3, readAt_whole (S := S1x1024x1) _ _ hz3, readCov_head_whole (S := S1x1024x256) _ hz3, readCov_head_whole (S := S1x1024x1) _ hz3]
    isplitl [Ha]
    · iexists _; isplitr
      swap; · iexact Ha
      ipureintro
      first | rw [read_writes_whole (S := S1x1024x256) _ _ hz3] | rw [read_writes_whole (S := S1x1024x1) _ _ hz3]
      simp only [scStep, scPrev, scInit, h1, ↓reduceIte, readAt_whole (S := S1x1024x256) _ _ hz3, readAt_whole (S := S1x1024x1) _ _ hz3, readCov_head_whole (S := S1x1024x256) _ hz3, readCov_head_whole (S := S1x1024x1) _ hz3]
    isplitl [HT0]; · iexact HT0
    iexact HT1

/-- At a query tile's last key tile the output's buffer is left at accumulator over normaliser. -/
theorem sound_kernel1_last (c : Dev nD) (E : Set ℕ) (i : grid1.Coords)
    (arg4 : Memref sig .tc .vmem S1x1024x256 .bf16) (harg4 : arg4.IsWhole) (arg5 : Memref sig .tc .vmem S1x1024x256 .bf16) (harg5 : arg5.IsWhole)
    (arg6 : Memref sig .tc .vmem S1x1024x256 .bf16) (harg6 : arg6.IsWhole) (arg7 : Memref sig .tc .vmem S1x1024x256 .f32) (harg7 : arg7.IsWhole)
    (xq xk xv : Vec F S1x1024x256 .bf16) (xo : Vec F S1x1024x256 .f32) (xt0 : TbBuf (F := F) c tbM0) (xt1 : TbBuf (F := F) c tbM1)
    (s : Sc F) (K : PUnit → sProp 𝕄)
    (h2 : k1_cond2 (qiW c i xt0) (kiW c i xt1) = 1#1) :
    iprop(owns (c : Thread nD τ) arg4 fullShare xq ∗ owns (c : Thread nD τ) arg5 fullShare xk ∗ owns (c : Thread nD τ) arg6 fullShare xv
        ∗ owns (c : Thread nD τ) arg7 fullShare xo
        ∗ owns (c : Thread nD τ) scM fullShare s.m ∗ owns (c : Thread nD τ) scL fullShare s.l ∗ owns (c : Thread nD τ) scA fullShare s.a
        ∗ tbPt c tbM0 xt0 ∗ tbPt c tbM1 xt1
        ∗ (iprop(owns (c : Thread nD τ) arg4 fullShare xq ∗ owns (c : Thread nD τ) arg5 fullShare xk ∗ owns (c : Thread nD τ) arg6 fullShare xv
            ∗ owns (c : Thread nD τ) arg7 fullShare (outOf (scStep (qiW c i xt0) (kiW c i xt1) xq xk xv s))
            ∗ owns (c : Thread nD τ) scM fullShare (scStep (qiW c i xt0) (kiW c i xt1) xq xk xv s).m
            ∗ owns (c : Thread nD τ) scL fullShare (scStep (qiW c i xt0) (kiW c i xt1) xq xk xv s).l
            ∗ owns (c : Thread nD τ) scA fullShare (scStep (qiW c i xt0) (kiW c i xt1) xq xk xv s).a
            ∗ tbPt c tbM0 xt0 ∗ tbPt c tbM1 xt1) -∗ K ⟨⟩))
      ⊢ wp frame (wpE (defs₀ (F := F)) Variants.none c none) E
          (cc1__attn_kernel i tbM0 (Memref.isWhole_whole _) tbM1 (Memref.isWhole_whole _) arg4 harg4 arg5 harg5 arg6 harg6 arg7 harg7 scM (Memref.isWhole_whole _) scL (Memref.isWhole_whole _) scA (Memref.isWhole_whole _)) K := by
  have h := sound_kernel1 c E i arg4 harg4 arg5 harg5 arg6 harg6 arg7 harg7 xq xk xv xo xt0 xt1 s K
  rw [if_pos h2] at h; exact h

/-- At any other step the output's buffer is left as found. -/
theorem sound_kernel1_idle (c : Dev nD) (E : Set ℕ) (i : grid1.Coords)
    (arg4 : Memref sig .tc .vmem S1x1024x256 .bf16) (harg4 : arg4.IsWhole) (arg5 : Memref sig .tc .vmem S1x1024x256 .bf16) (harg5 : arg5.IsWhole)
    (arg6 : Memref sig .tc .vmem S1x1024x256 .bf16) (harg6 : arg6.IsWhole) (arg7 : Memref sig .tc .vmem S1x1024x256 .f32) (harg7 : arg7.IsWhole)
    (xq xk xv : Vec F S1x1024x256 .bf16) (xo : Vec F S1x1024x256 .f32) (xt0 : TbBuf (F := F) c tbM0) (xt1 : TbBuf (F := F) c tbM1)
    (s : Sc F) (K : PUnit → sProp 𝕄)
    (h2 : ¬ (k1_cond2 (qiW c i xt0) (kiW c i xt1) = 1#1)) :
    iprop(owns (c : Thread nD τ) arg4 fullShare xq ∗ owns (c : Thread nD τ) arg5 fullShare xk ∗ owns (c : Thread nD τ) arg6 fullShare xv
        ∗ owns (c : Thread nD τ) arg7 fullShare xo
        ∗ owns (c : Thread nD τ) scM fullShare s.m ∗ owns (c : Thread nD τ) scL fullShare s.l ∗ owns (c : Thread nD τ) scA fullShare s.a
        ∗ tbPt c tbM0 xt0 ∗ tbPt c tbM1 xt1
        ∗ (iprop(owns (c : Thread nD τ) arg4 fullShare xq ∗ owns (c : Thread nD τ) arg5 fullShare xk ∗ owns (c : Thread nD τ) arg6 fullShare xv
            ∗ owns (c : Thread nD τ) arg7 fullShare xo
            ∗ owns (c : Thread nD τ) scM fullShare (scStep (qiW c i xt0) (kiW c i xt1) xq xk xv s).m
            ∗ owns (c : Thread nD τ) scL fullShare (scStep (qiW c i xt0) (kiW c i xt1) xq xk xv s).l
            ∗ owns (c : Thread nD τ) scA fullShare (scStep (qiW c i xt0) (kiW c i xt1) xq xk xv s).a
            ∗ tbPt c tbM0 xt0 ∗ tbPt c tbM1 xt1) -∗ K ⟨⟩))
      ⊢ wp frame (wpE (defs₀ (F := F)) Variants.none c none) E
          (cc1__attn_kernel i tbM0 (Memref.isWhole_whole _) tbM1 (Memref.isWhole_whole _) arg4 harg4 arg5 harg5 arg6 harg6 arg7 harg7 scM (Memref.isWhole_whole _) scL (Memref.isWhole_whole _) scA (Memref.isWhole_whole _)) K := by
  have h := sound_kernel1 c E i arg4 harg4 arg5 harg5 arg6 harg6 arg7 harg7 xq xk xv xo xt0 xt1 s K
  rw [if_neg h2] at h; exact h

end Cert.KernelIdeal.Hand

end
-- ==== Proof.KI.R1b.lean ====
/-
  Region 1, the proof data: the carried state point by point, what each window's staging buffer holds after the body, the
  invariant between points (the three scratch arrays at the carried state, the two tables, the core's other scoped buffers),
  and the body obligation at a generic point. Stated at a PARAMETER `V` (the buffer contents when the region is entered) and at
  ANY admissible contents `a` of the two tables; two facts about the tables are taken as hypotheses here and decided of the
  literal tables later: the first step's key tile is tile 0, and a step that is not a query tile's last does not write the
  output block back.
-/
import proofs.«168436_j23081154249219_2_alg».proof.Proof.Gen.KernelIdeal.Launch
import proofs.«168436_j23081154249219_2_alg».proof.Proof.Gen.KernelIdeal.Skeleton
import proofs.«168436_j23081154249219_2_alg».proof.Proof.Gen.KernelIdeal.Points
import proofs.«168436_j23081154249219_2_alg».proof.Proof.KI.R1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

/-! ## The windows' blocks and the body's call -/

/-- Window `w`'s block at point `t`, read off its array as the region finds it; the block's position is read off the tables. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 a) c) (hA : dat.A 2 = V c (Pipeline.arrRef spec1 2))
    (hafter : ∀ t, dat.after 2 t = iblk1 V a c 2 t) (t : Fin (cfg1 a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`. -/
abbrev st1_0 (t : Fin (cfg1 a).N) : Memref sig .tc .vmem S1x1024x256 .bf16 := spec1_0.stage ((cfg1 a).slots t 0)
abbrev st1_1 (t : Fin (cfg1 a).N) : Memref sig .tc .vmem S1x1024x256 .bf16 := spec1_1.stage ((cfg1 a).slots t 1)
abbrev st1_2 (t : Fin (cfg1 a).N) : Memref sig .tc .vmem S1x1024x256 .bf16 := spec1_2.stage ((cfg1 a).slots t 2)
abbrev st1_3 (t : Fin (cfg1 a).N) : Memref sig .tc .vmem S1x1024x256 .f32 := spec1_3.stage ((cfg1 a).slots t 3)

/-- The body at point `t`, on what the pipeline calls it with. -/
abbrev bodyAt1 (t : Fin (cfg1 a).N) : Prog (TpuEff nD τ sig (Elt F) Λ₀ .tc) PUnit :=
  cc1__attn_kernel (grid1.coords t) (Memref.whole main_c) (Memref.isWhole_whole _) (Memref.whole main_c_0) (Memref.isWhole_whole _)
    (spec1_0.stage ((cfg1 a).slots t 0)) (hstage1_0 (((cfg1 a).slots t 0).cast nbuf1_0)) (spec1_1.stage ((cfg1 a).slots t 1)) (hstage1_1 (((cfg1 a).slots t 1).cast nbuf1_1))
    (spec1_2.stage ((cfg1 a).slots t 2)) (hstage1_2 (((cfg1 a).slots t 2).cast nbuf1_2)) (spec1_3.stage ((cfg1 a).slots t 3)) (hstage1_3 (((cfg1 a).slots t 3).cast nbuf1_3))
    (Memref.whole cc1_scratch0) (Memref.isWhole_whole _) (Memref.whole cc1_scratch1) (Memref.isWhole_whole _) (Memref.whole cc1_scratch2) (Memref.isWhole_whole _)

/-! ## The tables' words at a point -/

/-- The query tile's number and the key tile's number at point `t`, as the body loads them. -/
abbrev w0At (c : Dev nD) (t : Fin (cfg1 a).N) : BitVec 32 := qiW (F := F) c (grid1.coords t) (a.1 0)
abbrev w1At (c : Dev nD) (t : Fin (cfg1 a).N) : BitVec 32 := kiW (F := F) c (grid1.coords t) (a.1 1)

/-! ## The carried state, point by point -/

/-- The scratch arrays' contents before point `t` (after point `t - 1`): each point's step of the one before; before the
    first point the reset state, which nobody reads (the first step resets anyway). -/
def scAt (c : Dev nD) : ℕ → Sc F
  | 0 => scInit
  | t + 1 => if h : t < (cfg1 a).N then
      scStep (w0At a c ⟨t, h⟩) (w1At a c ⟨t, h⟩) (iblk1 V a c 0 ⟨t, h⟩) (iblk1 V a c 1 ⟨t, h⟩) (iblk1 V a c 2 ⟨t, h⟩) (scAt c t)
    else scAt c t

theorem scAt_succ (c : Dev nD) (t : Fin (cfg1 a).N) :
    scAt V a c (t.val + 1) = scStep (w0At a c t) (w1At a c t) (iblk1 V a c 0 t) (iblk1 V a c 1 t) (iblk1 V a c 2 t) (scAt V a c t.val) := by
  rw [scAt, dif_pos t.isLt]

/-! ## The invariant between points -/

/-- The core's scoped buffers that are neither a staging buffer of this pipeline nor a scratch array: the projection
    pipeline's staging buffers, at some contents each. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f))

/-- Before point `t`: the scratch arrays at the carried state (before the first point at anything), the other scoped
    buffers, the generator register, the two tables. -/
def Phi1 (c : Dev nD) (t : Fin ((cfg1 a).N + 1)) : sProp 𝕄 :=
  iprop(∃ s : Sc F, ⌜t.val ≠ 0 → s = scAt V a c t.val⌝ ∗ owns (c : Thread nD τ) scM fullShare s.m ∗ owns (c : Thread nD τ) scL fullShare s.l
    ∗ owns (c : Thread nD τ) scA fullShare s.a ∗ rest1 (F := F) c ∗ (∃ r, prngReg c r) ∗ tbPt c tbM0 (a.1 0) ∗ tbPt c tbM1 (a.1 1))

/-! ## The pipeline's proof data -/

def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => outOf (scAt V a c (t.val + 1))
  Φ t := Phi1 V a c t
  q _ := fullShare
  owed _ := 0

theorem A_eq1 (c : Dev nD) (w : Fin (cfg1 a).W) : (dat1 V a c).A w = V c (Pipeline.arrRef spec1 w) := by
  dsimp only [dat1]
theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = iblk1 V a c 2 t := by dsimp only [dat1]; try rfl
theorem after1_3 (c : Dev nD) (t : Fin (cfg1 a).N) : (dat1 V a c).after 3 t = outOf (scAt V a c (t.val + 1)) := by dsimp only [dat1]; try rfl
theorem before1_0 (c : Dev nD) (t : Fin (cfg1 a).N) (d) : (dat1 V a c).before 0 t d = iblk1 V a c 0 t :=
  before1_0_of V a (dat1 V a c) (A_eq1 V a c 0) (after1_0 V a c) t d
theorem before1_1 (c : Dev nD) (t : Fin (cfg1 a).N) (d) : (dat1 V a c).before 1 t d = iblk1 V a c 1 t :=
  before1_1_of V a (dat1 V a c) (A_eq1 V a c 1) (after1_1 V a c) t d
theorem before1_2 (c : Dev nD) (t : Fin (cfg1 a).N) (d) : (dat1 V a c).before 2 t d = iblk1 V a c 2 t :=
  before1_2_of V a (dat1 V a c) (A_eq1 V a c 2) (after1_2 V a c) t d

/-! ## The output window is idle exactly off a query tile's last step -/

/-- Inside the table, the pipeline's reading of an element at given offsets is the table's entry there. -/
theorem atD_pos {pre : Pipeline.Prefetch sig} (pf : pre.Contents (Elt F)) (k : Fin pre.K) [Inhabited (Elt F (pre.ref k).ty.elt)]
    (off : Fin (pre.ref k).ty.shape.rank → Nat) (h : ∀ x, off x + 1 ≤ (pre.ref k).ty.shape.size x) :
    pf.atD k off = pf k (fun x => ⟨off x, h x⟩) := dif_pos h

/-- The table element the pipeline reads at a point's offset is the word the body loads there. -/
theorem atD0_eq (c : Dev nD) (i : grid1.Coords) : (a.1).atD 0 (k1_off1 i) = qiW (F := F) c i (a.1 0) := by
  have h : ∀ x, k1_off1 i x + 1 ≤ (pre1.ref 0).ty.shape.size x := fun x => by
    have h' := k1_off1_inb i x
    have e : S1.size x = 1 := by match x with | ⟨0, _⟩ => rfl
    rw [e] at h'; exact h'
  rw [atD_pos (a.1) 0 (k1_off1 i) h]
  refine congrArg (a.1 0) ?_
  funext x; apply Fin.ext
  match x with
  | ⟨0, _⟩ =>
    show k1_off1 i 0 = k1_off1 i 0 + 1 * (Shape.Idx.first (s := S1) (numel1_S1.symm ▸ Nat.one_pos) (0 : Fin 1)).val
    have : (Shape.Idx.first (s := S1) (numel1_S1.symm ▸ Nat.one_pos) (0 : Fin 1)).val = 0 := by
      have := (Shape.Idx.first (s := S1) (numel1_S1.symm ▸ Nat.one_pos) (0 : Fin 1)).isLt
      have e : S1.size (0 : Fin 1) = 1 := by decide
      omega
    omega
theorem atD1_eq (c : Dev nD) (i : grid1.Coords) : (a.1).atD 1 (k1_off1 i) = kiW (F := F) c i (a.1 1) := by
  have h : ∀ x, k1_off1 i x + 1 ≤ (pre1.ref 1).ty.shape.size x := fun x => by
    have h' := k1_off1_inb i x
    have e : S1.size x = 1 := by match x with | ⟨0, _⟩ => rfl
    rw [e] at h'; exact h'
  rw [atD_pos (a.1) 1 (k1_off1 i) h]
  refine congrArg (a.1 1) ?_
  funext x; apply Fin.ext
  match x with
  | ⟨0, _⟩ =>
    show k1_off1 i 0 = k1_off1 i 0 + 1 * (Shape.Idx.first (s := S1) (numel1_S1.symm ▸ Nat.one_pos) (0 : Fin 1)).val
    have : (Shape.Idx.first (s := S1) (numel1_S1.symm ▸ Nat.one_pos) (0 : Fin 1)).val = 0 := by
      have := (Shape.Idx.first (s := S1) (numel1_S1.symm ▸ Nat.one_pos) (0 : Fin 1)).isLt
      have e : S1.size (0 : Fin 1) = 1 := by decide
      omega
    omega

theorem idle3_eq (c : Dev nD) (t : Fin (cfg1 a).N) :
    (cfg1 a).idle 3 ((cfg1 a).grid.coords t) = !(k1_cond2 (w0At a c t) (w1At a c t) == 1#1) := by
  show (!(k1_cond2 ((a.1).atD 0 (k1_off1 (grid1.coords t))) ((a.1).atD 1 (k1_off1 (grid1.coords t))) == 1#1)) = _
  rw [atD0_eq a c, atD1_eq a c]

/-! ## The body obligation, at a generic point -/

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d))
    ∗ (∃ d, owns (c : Thread nD τ) (st1_3 a t) fullShare ((dat1 V a c).before 3 t d)))

/-- What the body leaves in the output's buffer at point `t`: the finished block at a query tile's last step; elsewhere the
    window is idle, and (the block not being written back there) the buffer is as found. -/
def outClause (c : Dev nD) (t : Fin (cfg1 a).N) : sProp 𝕄 :=
  match (cfg1 a).idle 3 ((cfg1 a).grid.coords t) with
  | true =>
    match ((cfg1 a).win 3).flush t with
    | false => iprop(∃ d, owns (c : Thread nD τ) (st1_3 a t) fullShare ((dat1 V a c).before 3 t d))
    | true => owns (c : Thread nD τ) (st1_3 a t) fullShare ((dat1 V a c).after 3 t)
  | false => owns (c : Thread nD τ) (st1_3 a t) fullShare ((dat1 V a c).after 3 t)

theorem outClause_last (c : Dev nD) (t : Fin (cfg1 a).N) (h2 : k1_cond2 (w0At a c t) (w1At a c t) = 1#1) :
    outClause V a c t = owns (c : Thread nD τ) (st1_3 a t) fullShare (outOf (scAt V a c (t.val + 1))) := by
  unfold outClause; rw [idle3_eq a c t, h2, after1_3]; rfl

theorem outClause_idle (c : Dev nD) (t : Fin (cfg1 a).N) (h2 : ¬ (k1_cond2 (w0At a c t) (w1At a c t) = 1#1))
    (hfl : ((cfg1 a).win 3).flush t = false) :
    outClause V a c t = iprop(∃ d, owns (c : Thread nD τ) (st1_3 a t) fullShare ((dat1 V a c).before 3 t d)) := by
  have hb : (k1_cond2 (w0At a c t) (w1At a c t) == 1#1) = false := by
    cases hb : (k1_cond2 (w0At a c t) (w1At a c t) == 1#1)
    · rfl
    · exact absurd (by simpa using hb) h2
  unfold outClause; rw [idle3_eq a c t, hb, hfl]; rfl

/-- and what it returns. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t)
    ∗ outClause V a c t)

set_option maxHeartbeats 1000000 in
/-- The body at any point. The inputs' memrefs hold their blocks; the scratch arrays hold the carried state (at the first
    point anything: its step resets); the body's triple applies; at a query tile's last step the output's buffer is left at
    the finished block, elsewhere as found (and such a step does not write it back). -/
theorem sound_body1 (c : Dev nD) (hfirst : ∀ t : Fin (cfg1 a).N, t.val = 0 → isFirst (w1At a c t) = 1#1)
    (hflush : ∀ t : Fin (cfg1 a).N, ¬ (k1_cond2 (w0At a c t) (w1At a c t) = 1#1) → ((cfg1 a).win 3).flush t = false)
    (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).owesAt () t.succ = (dat1 V a c).owesAt () t.castSucc from rfl, after1_0, after1_1, after1_2,
    show (dat1 V a c).Φ t.castSucc = Phi1 V a c t.castSucc from rfl, show (dat1 V a c).Φ t.succ = Phi1 V a c t.succ from rfl]
  unfold Phi1
  by_cases h2 : k1_cond2 (w0At a c t) (w1At a c t) = 1#1
  · rw [outClause_last V a c t h2]
    iintro ⟨⟨%s, %hs, Hm, Hl, Ha, Hrest, Hp, HT0, HT1⟩, Ho, ⟨%d0, H0⟩, ⟨%d1, H1⟩, ⟨%d2, H2⟩, ⟨%d3, H3⟩⟩
    have hstep : scStep (w0At a c t) (w1At a c t) (iblk1 V a c 0 t) (iblk1 V a c 1 t) (iblk1 V a c 2 t) s = scAt V a c (t.val + 1) := by
      rw [scAt_succ]
      by_cases h0 : t.val = 0
      · rw [h0]; exact scStep_first _ _ _ _ _ _ _ (hfirst t h0)
      · rw [hs h0]; rfl
    iapply (sound_kernel1_last c Set.univ (grid1.coords t) _ _ _ _ _ _ _ _ (iblk1 V a c 0 t) (iblk1 V a c 1 t) (iblk1 V a c 2 t) ((dat1 V a c).before 3 t d3) (a.1 0) (a.1 1) s _ h2)
    isplitl [H0]; · iexact H0
    isplitl [H1]; · iexact H1
    isplitl [H2]; · iexact H2
    isplitl [H3]; · iexact H3
    isplitl [Hm]; · iexact Hm
    isplitl [Hl]; · iexact Hl
    isplitl [Ha]; · iexact Ha
    isplitl [HT0]; · iexact HT0
    isplitl [HT1]; · iexact HT1
    iintro ⟨H0, H1, H2, H3, Hm, Hl, Ha, HT0, HT1⟩
    isplitl [Hm Hl Ha Hrest Hp HT0 HT1]
    · iexists (scStep (w0At a c t) (w1At a c t) (iblk1 V a c 0 t) (iblk1 V a c 1 t) (iblk1 V a c 2 t) s)
      isplitr; · ipureintro; exact fun _ => hstep
      isplitl [Hm]; · iexact Hm
      isplitl [Hl]; · iexact Hl
      isplitl [Ha]; · iexact Ha
      isplitl [Hrest]; · iexact Hrest
      isplitl [Hp]; · iexact Hp
      isplitl [HT0]; · iexact HT0
      iexact HT1
    isplitl [Ho]; · iexact Ho
    isplitl [H0]; · iexact H0
    isplitl [H1]; · iexact H1
    isplitl [H2]; · iexact H2
    rw [← hstep]; iexact H3
  · rw [outClause_idle V a c t h2 (hflush t h2)]
    iintro ⟨⟨%s, %hs, Hm, Hl, Ha, Hrest, Hp, HT0, HT1⟩, Ho, ⟨%d0, H0⟩, ⟨%d1, H1⟩, ⟨%d2, H2⟩, ⟨%d3, H3⟩⟩
    have hstep : scStep (w0At a c t) (w1At a c t) (iblk1 V a c 0 t) (iblk1 V a c 1 t) (iblk1 V a c 2 t) s = scAt V a c (t.val + 1) := by
      rw [scAt_succ]
      by_cases h0 : t.val = 0
      · rw [h0]; exact scStep_first _ _ _ _ _ _ _ (hfirst t h0)
      · rw [hs h0]; rfl
    iapply (sound_kernel1_idle c Set.univ (grid1.coords t) _ _ _ _ _ _ _ _ (iblk1 V a c 0 t) (iblk1 V a c 1 t) (iblk1 V a c 2 t) ((dat1 V a c).before 3 t d3) (a.1 0) (a.1 1) s _ h2)
    isplitl [H0]; · iexact H0
    isplitl [H1]; · iexact H1
    isplitl [H2]; · iexact H2
    isplitl [H3]; · iexact H3
    isplitl [Hm]; · iexact Hm
    isplitl [Hl]; · iexact Hl
    isplitl [Ha]; · iexact Ha
    isplitl [HT0]; · iexact HT0
    isplitl [HT1]; · iexact HT1
    iintro ⟨H0, H1, H2, H3, Hm, Hl, Ha, HT0, HT1⟩
    isplitl [Hm Hl Ha Hrest Hp HT0 HT1]
    · iexists (scStep (w0At a c t) (w1At a c t) (iblk1 V a c 0 t) (iblk1 V a c 1 t) (iblk1 V a c 2 t) s)
      isplitr; · ipureintro; exact fun _ => hstep
      isplitl [Hm]; · iexact Hm
      isplitl [Hl]; · iexact Hl
      isplitl [Ha]; · iexact Ha
      isplitl [Hrest]; · iexact Hrest
      isplitl [Hp]; · iexact Hp
      isplitl [HT0]; · iexact HT0
      iexact HT1
    isplitl [Ho]; · iexact Ho
    isplitl [H0]; · iexact H0
    isplitl [H1]; · iexact H1
    isplitl [H2]; · iexact H2
    iexists d3; iexact H3

/-- The library's body obligation, at every point. -/
theorem body_obligation1 (c : Dev nD) (hfirst : ∀ t : Fin (cfg1 a).N, t.val = 0 → isFirst (w1At a c t) = 1#1)
    (hflush : ∀ t : Fin (cfg1 a).N, ¬ (k1_cond2 (w0At a c t) (w1At a c t) = 1#1) → ((cfg1 a).win 3).flush t = false) :
    BodyObligation (dat1 (F := F) V a c) (defs₀ (F := F)) Variants.none () Set.univ := fun t => by
  rw [bigSep_W1, bigSep_W1]
  exact sound_body1 V a c hfirst hflush t

end Cert.KernelIdeal.Hand

end
-- ==== Proof.KI.R1c.lean ====
/-
  Region 1 at the program's two tables. The host writes them as literals before the first region: per batch the ten
  (query tile, key tile) pairs of the lower triangle of a 4 x 4 tiling, query tiles 0,1,1,2,2,2,3,3,3,3 against key tiles
  0,0,1,0,1,2,0,1,2,3. Here: the contents are admissible (every block they name lies inside its array), the two words at
  each of the 40 points in closed form, and the two facts the body obligation uses: the first step's key tile is tile 0,
  and a step whose key tile is not its query tile does not write the output block back.
-/
import proofs.«168436_j23081154249219_2_alg».proof.Proof.Gen.KernelIdeal.Launch
import proofs.«168436_j23081154249219_2_alg».proof.Proof.Gen.KernelIdeal.Skeleton
import proofs.«168436_j23081154249219_2_alg».proof.Proof.Gen.KernelIdeal.Points
import proofs.«168436_j23081154249219_2_alg».proof.Proof.KI.R1b
import Idealize.ShloMosaic.Lib.Affine
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The two tables' contents, as the host's constants write them. -/
def tblc : pre1.Contents (Elt F) := fun k => match k with
  | ⟨0, _⟩ => fun i => lit0 (S10.rowMajor i)
  | ⟨1, _⟩ => fun i => lit1 (S10.rowMajor i)

/-- Every entry of either table is a tile number below 4. -/
theorem tbl_lt0 (x : S10.Idx) : ((tblc (F := F) 0 x : BitVec 32)).toNat < 4 := (by decide : ∀ j : Fin 10, (lit0 j).toNat < 4) _
theorem tbl_lt1 (x : S10.Idx) : ((tblc (F := F) 1 x : BitVec 32)).toNat < 4 := (by decide : ∀ j : Fin 10, (lit1 j).toNat < 4) _

/-- The batch coordinate of a grid point is below 4. -/
theorem coord0_lt (i : grid1.Coords) : (BitVec.ofNat 32 (i 0).val).toNat < 4 := by
  have h : (i 0).val < 4 := (i 0).isLt
  rw [BitVec.toNat_ofNat, Nat.mod_eq_of_lt (by omega)]; exact h

/-- The tables are admissible: at every point each window's block (batch, tile, 0) lies inside its [4, 4096, 256] array. -/
theorem ok_tblc : ok1 (F := F) tblc := by
  refine ⟨fun i => ?_, fun i => ?_, fun i => ?_, fun i => ?_⟩
  · obtain ⟨w, hw, e⟩ : ∃ w : BitVec 32, w.toNat < 4 ∧ cc1_transform_0 k1_off1_inb numel1_S1 (tblc (F := F)) i = ![(BitVec.ofNat 32 (i 0).val).toNat, w.toNat, 0] :=
      ⟨_, tbl_lt0 (F := F) _, rfl⟩
    refine ⟨fun x => ?_, Or.inr (Affine.block_words_dvd (of_decide_eq_true rfl) (by decide))⟩
    rw [e]
    have hb := coord0_lt i
    fin_cases x <;> simp [S1x1024x256, S4x4096x256] <;> omega
  · obtain ⟨w, hw, e⟩ : ∃ w : BitVec 32, w.toNat < 4 ∧ cc1_transform_1 k1_off1_inb numel1_S1 (tblc (F := F)) i = ![(BitVec.ofNat 32 (i 0).val).toNat, w.toNat, 0] :=
      ⟨_, tbl_lt1 (F := F) _, rfl⟩
    refine ⟨fun x => ?_, Or.inr (Affine.block_words_dvd (of_decide_eq_true rfl) (by decide))⟩
    rw [e]
    have hb := coord0_lt i
    fin_cases x <;> simp [S1x1024x256, S4x4096x256] <;> omega
  · obtain ⟨w, hw, e⟩ : ∃ w : BitVec 32, w.toNat < 4 ∧ cc1_transform_2 k1_off1_inb numel1_S1 (tblc (F := F)) i = ![(BitVec.ofNat 32 (i 0).val).toNat, w.toNat, 0] :=
      ⟨_, tbl_lt1 (F := F) _, rfl⟩
    refine ⟨fun x => ?_, Or.inr (Affine.block_words_dvd (of_decide_eq_true rfl) (by decide))⟩
    rw [e]
    have hb := coord0_lt i
    fin_cases x <;> simp [S1x1024x256, S4x4096x256] <;> omega
  · obtain ⟨w, hw, e⟩ : ∃ w : BitVec 32, w.toNat < 4 ∧ cc1_transform_3 k1_off1_inb numel1_S1 (tblc (F := F)) i = ![(BitVec.ofNat 32 (i 0).val).toNat, w.toNat, 0] :=
      ⟨_, tbl_lt0 (F := F) _, rfl⟩
    refine ⟨fun x => ?_, Or.inl rfl⟩
    rw [e]
    have hb := coord0_lt i
    fin_cases x <;> simp [S1x1024x256, S4x4096x256] <;> omega

/-- The tables as admissible contents, and the pipeline at them. -/
abbrev adm1 : (pcfg1 (F := F)).Adm := ⟨tblc, ok_tblc⟩

/-- The literal tables by position. -/
def qiOf (j : Fin 10) : BitVec 32 := lit0 j
def kiOf (j : Fin 10) : BitVec 32 := lit1 j

/-- The offset at which a point reads the tables is its second coordinate, `t mod 10`. -/
theorem off_val : ∀ t : Fin grid1.N, k1_off1 (grid1.coords t) 0 = t.val % 10 := by decide +kernel

/-- The words at point `t`: entries `t mod 10` of the tables. -/
theorem w0At_eq (c : Dev nD) (t : Fin (cfg1 (adm1 (F := F))).N) : w0At (adm1 (F := F)) c t = qiOf ⟨t.val % 10, Nat.mod_lt _ (by decide)⟩ := by
  have h : ∀ x, k1_off1 (grid1.coords t) x + 1 ≤ (pre1.ref 0).ty.shape.size x := fun x => by
    have h' := k1_off1_inb (grid1.coords t) x
    have e : S1.size x = 1 := by match x with | ⟨0, _⟩ => rfl
    rw [e] at h'; exact h'
  rw [show w0At (adm1 (F := F)) c t = ((adm1 (F := F)).1).atD 0 (k1_off1 (grid1.coords t)) from (atD0_eq (adm1 (F := F)) c (grid1.coords t)).symm, atD_pos ((adm1 (F := F)).1) 0 _ h]
  show lit0 (S10.rowMajor _) = lit0 _
  refine congrArg lit0 (Fin.ext ?_)
  exact (Shape.rowMajor_val_one (d := ![10]) _).trans (off_val t)
theorem w1At_eq (c : Dev nD) (t : Fin (cfg1 (adm1 (F := F))).N) : w1At (adm1 (F := F)) c t = kiOf ⟨t.val % 10, Nat.mod_lt _ (by decide)⟩ := by
  have h : ∀ x, k1_off1 (grid1.coords t) x + 1 ≤ (pre1.ref 1).ty.shape.size x := fun x => by
    have h' := k1_off1_inb (grid1.coords t) x
    have e : S1.size x = 1 := by match x with | ⟨0, _⟩ => rfl
    rw [e] at h'; exact h'
  rw [show w1At (adm1 (F := F)) c t = ((adm1 (F := F)).1).atD 1 (k1_off1 (grid1.coords t)) from (atD1_eq (adm1 (F := F)) c (grid1.coords t)).symm, atD_pos ((adm1 (F := F)).1) 1 _ h]
  show lit1 (S10.rowMajor _) = lit1 _
  refine congrArg lit1 (Fin.ext ?_)
  exact (Shape.rowMajor_val_one (d := ![10]) _).trans (off_val t)

/-- The first step's key tile is tile 0: the step resets. -/
theorem hfirst1 (c : Dev nD) (t : Fin (cfg1 (adm1 (F := F))).N) (h0 : t.val = 0) : isFirst (w1At (adm1 (F := F)) c t) = 1#1 := by
  rw [w1At_eq]
  have : (⟨t.val % 10, Nat.mod_lt _ (by decide)⟩ : Fin 10) = 0 := by apply Fin.ext; simp [h0]
  rw [this]; decide

/-- The output window's block index at a point, with the tables' entries written out: (batch, query tile, 0). -/
def ixOut (i : grid1.Coords) : Fin 3 → Nat :=
  ![(BitVec.ofNat 32 (i 0).val).toNat,
    (lit0 (S10.rowMajor ((Rect.unit (s := S10) ![(Scalar.indexCast (BitVec.ofNat 32 (i 1).val)).toNat] S1.size (k1_off1_inb i)).emb
      (Shape.Idx.first (numel1_S1.symm ▸ Nat.one_pos))))).toNat, 0]
theorem ixOut_eq : cc1_transform_3 k1_off1_inb numel1_S1 (tblc (F := F)) = ixOut := by
  funext i; rfl

/-- A step whose key tile is not its query tile is followed by a step of the same query tile of the same batch: the output
    block's index does not move, and the block is not written back. -/
theorem hflush1 (c : Dev nD) (t : Fin (cfg1 (adm1 (F := F))).N) (h : ¬ (k1_cond2 (w0At (adm1 (F := F)) c t) (w1At (adm1 (F := F)) c t) = 1#1)) :
    ((cfg1 (adm1 (F := F))).win 3).flush t = false := by
  rw [w0At_eq, w1At_eq] at h
  show Pipeline.Window.flushOf grid1 true (cc1_transform_3 k1_off1_inb numel1_S1 (tblc (F := F))) t = false
  rw [ixOut_eq]
  exact (by decide +kernel : ∀ t : Fin grid1.N, ¬ (k1_cond2 (qiOf ⟨t.val % 10, Nat.mod_lt _ (by decide)⟩) (kiOf ⟨t.val % 10, Nat.mod_lt _ (by decide)⟩) = 1#1) →
    Pipeline.Window.flushOf grid1 true ixOut t = false) t h

end Cert.KernelIdeal.Hand

end
-- ==== Proof.KI.Run.lean ====
/-
  The whole run. @main is: the host writes the two tables and flattens the input to [16384, 256]; region 0 (the
  projections); the host reshapes the three results back to [4, 4096, 256]; region 1 (attention). Between the items every
  unscoped buffer is held whole at contents named by a fold from the launch memory: a host stretch applies its operations,
  a region leaves its arrays at what its write-backs make of them. Each region is entered from what the item before left;
  region 1 also takes the two tables (at the contents the host wrote) into its invariant and gives them back. The run ends
  with every unscoped buffer at the last fold's contents: the seven arguments as launched, the result at what region 1's
  write-backs leave.
-/
import proofs.«168436_j23081154249219_2_alg».proof.Proof.Gen.KernelIdeal.Launch
import proofs.«168436_j23081154249219_2_alg».proof.Proof.Gen.KernelIdeal.Skeleton
import proofs.«168436_j23081154249219_2_alg».proof.Proof.Gen.KernelIdeal.Points
import proofs.«168436_j23081154249219_2_alg».proof.Proof.KI.R0
import proofs.«168436_j23081154249219_2_alg».proof.Proof.KI.R1c
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (V3 m ρ) (adm1 (F := F)) c).arrAt w (cfg1 (adm1 (F := F))).N
theorem W4_arr (c : Dev nD) (w : Fin (cfg1 (adm1 (F := F))).W) :
    W4 m ρ c (Proc.devRef .tc (Pipeline.arrRef spec1 w)) = (dat1 (V3 m ρ) (adm1 (F := F)) c).arrAt w (cfg1 (adm1 (F := F))).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin (cfg1 (adm1 (F := F))).W) : (dat1 (V3 m ρ) (adm1 (F := F)) c).arrAt w (cfg1 (adm1 (F := F))).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ### The tables reach region 1 as the host wrote them -/

theorem W1_main_c (c : Dev nD) : W1 m ρ c (Proc.devRef .tc main_c) = (tblc 0 : Buf (Elt F) ((c : Thread nD τ).loc main_c)) := by
  dsimp only [W1, hostOps0]; after_results; rfl
theorem W1_main_c_0 (c : Dev nD) : W1 m ρ c (Proc.devRef .tc main_c_0) = (tblc 1 : Buf (Elt F) ((c : Thread nD τ).loc main_c_0)) := by
  dsimp only [W1, hostOps0]; after_results; rfl
theorem W3_main_c_W1 (c : Dev nD) : W3 m ρ c (Proc.devRef .tc main_c) = W1 m ρ c (Proc.devRef .tc main_c) :=
  (StableHlo.after_of_forall_not_mem (b := Proc.devRef .tc main_c) hostOps1 (W2 m ρ c) (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_c (by decide))
theorem V3_main_c (c : Dev nD) : V3 m ρ c main_c = (tblc 0 : Buf (Elt F) ((c : Thread nD τ).loc main_c)) :=
  (W3_main_c_W1 m ρ c).trans (W1_main_c m ρ c)
theorem W3_main_c_0_W1 (c : Dev nD) : W3 m ρ c (Proc.devRef .tc main_c_0) = W1 m ρ c (Proc.devRef .tc main_c_0) :=
  (StableHlo.after_of_forall_not_mem (b := Proc.devRef .tc main_c_0) hostOps1 (W2 m ρ c) (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m ρ c main_c_0 (by decide))
theorem V3_main_c_0 (c : Dev nD) : V3 m ρ c main_c_0 = (tblc 1 : Buf (Elt F) ((c : Thread nD τ).loc main_c_0)) :=
  (W3_main_c_0_W1 m ρ c).trans (W1_main_c_0 m ρ c)

/-! ## The proof data family and the thread state -/

abbrev adm : (p : Fin 2) → (pcfgs (F := F) p).Adm
  | ⟨0, _⟩ => cfg0.toPCfg_adm
  | ⟨1, _⟩ => (adm1 (F := F))
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) (adm1 (F := F)) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-- Region 1's unscoped buffers that are no window's array, one by one (the two tables last). -/
theorem unscopedRest1_eq (c : Dev nD) (V : (b : Ref sig .tc) → Buf (Elt F) ((c : Thread nD τ).loc b)) :
    (Pipeline.unscopedRest (Ix := Unit) (Name := ℕ) (U := UR sig nD τ) (Lvl := ℕ) spec1 c V : sProp 𝕄)
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_arg4) ↦{fullShare} V main_arg4) ∗ (((c : Thread nD τ).loc main_arg5) ↦{fullShare} V main_arg5) ∗ (((c : Thread nD τ).loc main_arg6) ↦{fullShare} V main_arg6) ∗ (((c : Thread nD τ).loc main_v0) ↦{fullShare} V main_v0) ∗ (((c : Thread nD τ).loc main_v1_0) ↦{fullShare} V main_v1_0) ∗ (((c : Thread nD τ).loc main_v1_1) ↦{fullShare} V main_v1_1) ∗ (((c : Thread nD τ).loc main_v1_2) ↦{fullShare} V main_v1_2) ∗ (((c : Thread nD τ).loc main_c) ↦{fullShare} V main_c) ∗ (((c : Thread nD τ).loc main_c_0) ↦{fullShare} V main_c_0)) :=
  Pipeline.unscopedRest_eq_of_list spec1 c V [main_arg0, main_arg1, main_arg2, main_arg3, main_arg4, main_arg5, main_arg6, main_v0, main_v1_0, main_v1_1, main_v1_2, main_c, main_c_0] (by decide) (by decide)

/-- The buffers that bypass region 1: neither an array of it nor a table. -/
def Z1 (c : Dev nD) (V : (b : Ref sig .tc) → Buf (Elt F) ((c : Thread nD τ).loc b)) : sProp 𝕄 :=
  iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_arg4) ↦{fullShare} V main_arg4) ∗ (((c : Thread nD τ).loc main_arg5) ↦{fullShare} V main_arg5) ∗ (((c : Thread nD τ).loc main_arg6) ↦{fullShare} V main_arg6) ∗ (((c : Thread nD τ).loc main_v0) ↦{fullShare} V main_v0) ∗ (((c : Thread nD τ).loc main_v1_0) ↦{fullShare} V main_v1_0) ∗ (((c : Thread nD τ).loc main_v1_1) ↦{fullShare} V main_v1_1) ∗ (((c : Thread nD τ).loc main_v1_2) ↦{fullShare} V main_v1_2))

/-- The two tables held whole are the tables as the pipeline holds them. -/
theorem prefHeld1_eq (c : Dev nD) :
    (Pipeline.prefHeld (Ix := Unit) (Name := ℕ) (U := UR sig nD τ) (Lvl := ℕ) pre1 c (fun _ => fullShare) (tblc (F := F)) : sProp 𝕄)
      = iprop(tbPt c tbM0 (tblc (F := F) 0) ∗ tbPt c tbM1 (tblc (F := F) 1)) := by
  unfold Pipeline.prefHeld
  rw [show (Finset.univ : Finset (Fin 2)) = insert (0 : Fin 2) {(1 : Fin 2)} from by decide,
    bigSep_insert (by decide), bigSep_singleton]
  rfl

/-! ## The regions as segments -/

set_option backward.isDefEq.respectTransparency.types false in
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
set_option maxHeartbeats 1000000 in
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) (adm1 (F := F)) c (hfirst1 c) (hflush1 c)).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop((∃ r, prngReg c r) ∗ tbPt c tbM0 (tblc (F := F) 0) ∗ tbPt c tbM1 (tblc (F := F) 1))
  Z c := Z1 c (V3 m ρ c)
  hentry c := by
    rw [Pipeline.ownSems0_none]
    have hsplit := Pipeline.arrays_of_unscopedBufs (p := 1) (pcfgs (F := F)) adm (pdats m ρ) (launch1 (F := F)).win (launch1 (F := F)).arr_whole c
      ((pdats m ρ 1 c).share_full fun _ => rfl) (V3 m ρ c) fun _ => rfl
    rw [Pipeline.unscopedBufs_held] at hsplit
    replace hsplit : StableHlo.held (c : Thread nD τ) (Pipeline.ucRefs τ sig) (W3 m ρ c)
        ⊢ (iprop((pdats m ρ 1 c).arrays ((pdats m ρ 1 c).arrAt · 0)
          ∗ Pipeline.unscopedRest (Ix := Unit) (Name := ℕ) (U := UR sig nD τ) (Lvl := ℕ) spec1 c (V3 m ρ c)) : sProp 𝕄) := hsplit
    rw [unscopedRest1_eq, V3_main_c, V3_main_c_0] at hsplit
    have hpref : (iprop(tbPt c tbM0 (tblc (F := F) 0) ∗ tbPt c tbM1 (tblc (F := F) 1)) : sProp 𝕄)
        ⊢ Pipeline.prefHeld (Ix := Unit) (Name := ℕ) (U := UR sig nD τ) (Lvl := ℕ) pre1 c (fun _ => fullShare) (tblc (F := F)) := by
      rw [prefHeld1_eq]
    iintro ⟨⟨Hub, Hp, HO⟩, -, -⟩
    ihave H := hsplit $$ Hub
    icases H with ⟨Ha, A0, A1, A2, A3, A4, A5, A6, A7, A8, A9, A10, Hc, Hc0⟩
    imodintro
    isplitl [Ha]; · iexact Ha
    isplitl [Hc Hc0]
    · iapply hpref
      isplitl [Hc]; · iexact Hc
      iexact Hc0
    isplitl [HO]
    · unfold Pipeline.Dat.owesAt Pipeline.owesWithin
      icases HO with ⟨%W, HO⟩; iexists W; isplitr; · ipureintro; exact fun _ _ => Or.inl trivial
      iexact HO
    isplitl [Hp]; · iexact Hp
    unfold Z1
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  hin c := by
    show iprop((∃ r, prngReg c r) ∗ Pipeline.prefHeld (Ix := Unit) (Name := ℕ) (U := UR sig nD τ) (Lvl := ℕ) pre1 c (fun _ => fullShare) (tblc (F := F)) ∗ Pipeline.scopedRest (Ix := Unit) (Name := ℕ) (U := UR sig nD τ) (Lvl := ℕ) (Val := Elt F) spec1 c) ⊢ Phi1 (V3 m ρ) (adm1 (F := F)) c 0
    rw [prefHeld1_eq, scopedRest1_eq]
    unfold Phi1 rest1
    iintro ⟨Hp, ⟨HT0, HT1⟩, S0, S1, S2, S3, S4, S5, S6, S7, S8, S9, S10, S11, S12, S13, ⟨%fm, Hm⟩, ⟨%fl, Hl⟩, ⟨%fa, Ha⟩⟩
    iexists (⟨fm, fl, fa⟩ : Sc F)
    isplitr; · ipureintro; intro h; exact absurd rfl h
    isplitl [Hm]; · rw [owns_whole_eq]; iexists fm; isplitr; · ipureintro; rfl
                    iexact Hm
    isplitl [Hl]; · rw [owns_whole_eq]; iexists fl; isplitr; · ipureintro; rfl
                    iexact Hl
    isplitl [Ha]; · rw [owns_whole_eq]; iexists fa; isplitr; · ipureintro; rfl
                    iexact Ha
    isplitl [S0 S1 S2 S3 S4 S5 S6 S7 S8 S9 S10 S11 S12 S13]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      iexact S13
    isplitl [Hp]; · iexact Hp
    isplitl [HT0]; · iexact HT0
    iexact HT1
  hout c := by
    rw [Pipeline.ownSems0_none]
    show Phi1 (V3 m ρ) (adm1 (F := F)) c (Fin.last _) ⊢ iprop(((∃ r, prngReg c r) ∗ tbPt c tbM0 (tblc (F := F) 0) ∗ tbPt c tbM1 (tblc (F := F) 1)) ∗ BI.emp ∗ Pipeline.scopedRest (Ix := Unit) (Name := ℕ) (U := UR sig nD τ) (Lvl := ℕ) (Val := Elt F) spec1 c)
    rw [scopedRest1_eq]
    unfold Phi1 rest1
    simp only [owns_whole_eq]
    iintro ⟨%s, -, ⟨%fm, -, Hm⟩, ⟨%fl, -, Hl⟩, ⟨%fa, -, Ha⟩, ⟨S0, S1, S2, S3, S4, S5, S6, S7, S8, S9, S10, S11, S12, S13⟩, Hp, HT0, HT1⟩
    isplitl [Hp HT0 HT1]
    · isplitl [Hp]; · iexact Hp
      isplitl [HT0]; · iexact HT0
      iexact HT1
    isplitr; · iempintro
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [Hm]; · iexists fm; iexact Hm
    isplitl [Hl]; · iexists fl; iexact Hl
    iexists fa; iexact Ha
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · (cfg1 (adm1 (F := F))).N) (hF1 m ρ c) (hrest1 m ρ c)
    rw [Pipeline.unscopedBufs_held] at hjoin
    replace hjoin : (iprop((pdats m ρ 1 c).arrays ((pdats m ρ 1 c).arrAt · (cfg1 (adm1 (F := F))).N)
          ∗ Pipeline.unscopedRest (Ix := Unit) (Name := ℕ) (U := UR sig nD τ) (Lvl := ℕ) spec1 c (V3 m ρ c)) : sProp 𝕄)
        ⊢ StableHlo.held (c : Thread nD τ) (Pipeline.ucRefs τ sig) (W4 m ρ c) := hjoin
    rw [unscopedRest1_eq, V3_main_c, V3_main_c_0] at hjoin
    unfold Z1
    iintro ⟨Ha, HO, ⟨Hp, Hc, Hc0⟩, A0, A1, A2, A3, A4, A5, A6, A7, A8, A9, A10⟩
    imodintro
    isplitl [Ha A0 A1 A2 A3 A4 A5 A6 A7 A8 A9 A10 Hc Hc0 Hp]
    · isplitl [Ha A0 A1 A2 A3 A4 A5 A6 A7 A8 A9 A10 Hc Hc0]
      · iapply hjoin
        isplitl [Ha]; · iexact Ha
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [Hc]; · iexact Hc
        iexact Hc0
      iexact Hp
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c)⟩) (run_main m ρ)

end Cert.KernelIdeal.Hand

end
-- ==== Proof.KI.Geo.lean ====
/-
  Region 1, where the blocks sit. At point t (batch t / 10, step t mod 10 of the batch's ten (query tile, key tile) pairs) the
  query window stages rows [1024 qi, 1024 qi + 1024) of the batch's queries, the key and value windows rows
  [1024 ki, 1024 ki + 1024) of its keys and values, and the output window covers rows [1024 qi, 1024 qi + 1024) of the
  batch's result. Here: those positions, decided once over the 40 points from the literal tables, and each block read at an
  index as an entry of its array.
-/
import proofs.«168436_j23081154249219_2_alg».proof.Proof.Gen.KernelIdeal.Launch
import proofs.«168436_j23081154249219_2_alg».proof.Proof.Gen.KernelIdeal.Skeleton
import proofs.«168436_j23081154249219_2_alg».proof.Proof.Gen.KernelIdeal.Points
import proofs.«168436_j23081154249219_2_alg».proof.Proof.KI.R1c
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The tables at the ideal instance, as admissible contents. -/
abbrev aI : (pcfg1 (F := Ideal)).Adm := adm1 (F := Ideal)

/-- Batch, query tile and key tile of point `t`, as numbers. -/
def bN (t : Fin grid1.N) : Nat := t.val / 10
def qiN (t : Fin grid1.N) : Nat := (qiOf ⟨t.val % 10, Nat.mod_lt _ (by decide)⟩).toNat
def kiN (t : Fin grid1.N) : Nat := (kiOf ⟨t.val % 10, Nat.mod_lt _ (by decide)⟩).toNat

theorem bN_lt : ∀ t : Fin grid1.N, bN t < 4 := by decide
theorem qiN_lt : ∀ t : Fin grid1.N, qiN t < 4 := by decide
theorem kiN_le : ∀ t : Fin grid1.N, kiN t ≤ qiN t := by decide

/-- The key and value windows' block index at a point, with the tables' entries written out: (batch, key tile, 0). -/
def ixKey (i : grid1.Coords) : Fin 3 → Nat :=
  ![(BitVec.ofNat 32 (i 0).val).toNat,
    (lit1 (S10.rowMajor ((Rect.unit (s := S10) ![(Scalar.indexCast (BitVec.ofNat 32 (i 1).val)).toNat] S1.size (k1_off1_inb i)).emb
      (Shape.Idx.first (numel1_S1.symm ▸ Nat.one_pos))))).toNat, 0]
theorem ixQ_eq : cc1_transform_0 k1_off1_inb numel1_S1 (tblc (F := Ideal)) = ixOut := by funext i; rfl
theorem ixK_eq : cc1_transform_1 k1_off1_inb numel1_S1 (tblc (F := Ideal)) = ixKey := by funext i; rfl
theorem ixV_eq : cc1_transform_2 k1_off1_inb numel1_S1 (tblc (F := Ideal)) = ixKey := by funext i; rfl

theorem ixOut_at : ∀ t : Fin grid1.N, ixOut (grid1.coords t) = ![bN t, qiN t, 0] := by decide +kernel
theorem ixKey_at : ∀ t : Fin grid1.N, ixKey (grid1.coords t) = ![bN t, kiN t, 0] := by decide +kernel

/-- The windows' block indices at a point. -/
theorem index_q (t : Fin (cfg1 aI).N) : ((cfg1 aI).win 0).index t = ![bN t, qiN t, 0] := by
  show cc1_transform_0 k1_off1_inb numel1_S1 (tblc (F := Ideal)) (grid1.coords t) = _
  rw [ixQ_eq]; exact ixOut_at t
theorem index_k (t : Fin (cfg1 aI).N) : ((cfg1 aI).win 1).index t = ![bN t, kiN t, 0] := by
  show cc1_transform_1 k1_off1_inb numel1_S1 (tblc (F := Ideal)) (grid1.coords t) = _
  rw [ixK_eq]; exact ixKey_at t
theorem index_v (t : Fin (cfg1 aI).N) : ((cfg1 aI).win 2).index t = ![bN t, kiN t, 0] := by
  show cc1_transform_2 k1_off1_inb numel1_S1 (tblc (F := Ideal)) (grid1.coords t) = _
  rw [ixV_eq]; exact ixKey_at t
theorem index_o (t : Fin (cfg1 aI).N) : ((cfg1 aI).win 3).index t = ![bN t, qiN t, 0] := by
  show cc1_transform_3 k1_off1_inb numel1_S1 (tblc (F := Ideal)) (grid1.coords t) = _
  rw [ixOut_eq]; exact ixOut_at t

/-- Each input block read at (0, r, e) is an entry of its array: the batch's row 1024 · tile + r. -/
theorem iblk1_q (c : Dev nD) (t : Fin (cfg1 aI).N) (r : Fin 1024) (e : Fin 256) (hb : bN t < 4) (hn : 1024 * qiN t + r.val < 4096) :
    iblk1 V aI c 0 t (ix3 0 r e) = V c main_v2 (ix3 ⟨bN t, hb⟩ ⟨1024 * qiN t + r.val, hn⟩ e) := by
  unfold iblk1
  show V c main_v2 ((((cfg1 aI).win 0).blk t).view.emb (ix3 0 r e)) = V c main_v2 _
  refine congrArg (V c main_v2) (funext fun x => Fin.ext ?_)
  have hi := index_q t
  match x with
  | ⟨0, _⟩ =>
    show ((cfg1 aI).win 0).index t 0 * 1 + 1 * 0 = bN t
    rw [hi]; show bN t * 1 + 1 * 0 = bN t; omega
  | ⟨1, _⟩ =>
    show ((cfg1 aI).win 0).index t 1 * 1024 + 1 * r.val = 1024 * qiN t + r.val
    rw [hi]; show qiN t * 1024 + 1 * r.val = _; omega
  | ⟨2, _⟩ =>
    show ((cfg1 aI).win 0).index t 2 * 256 + 1 * e.val = e.val
    rw [hi]; show 0 * 256 + 1 * e.val = e.val; omega

theorem iblk1_k (c : Dev nD) (t : Fin (cfg1 aI).N) (r : Fin 1024) (e : Fin 256) (hb : bN t < 4) (hn : 1024 * kiN t + r.val < 4096) :
    iblk1 V aI c 1 t (ix3 0 r e) = V c main_v3 (ix3 ⟨bN t, hb⟩ ⟨1024 * kiN t + r.val, hn⟩ e) := by
  unfold iblk1
  show V c main_v3 ((((cfg1 aI).win 1).blk t).view.emb (ix3 0 r e)) = V c main_v3 _
  refine congrArg (V c main_v3) (funext fun x => Fin.ext ?_)
  have hi := index_k t
  match x with
  | ⟨0, _⟩ =>
    show ((cfg1 aI).win 1).index t 0 * 1 + 1 * 0 = bN t
    rw [hi]; show bN t * 1 + 1 * 0 = bN t; omega
  | ⟨1, _⟩ =>
    show ((cfg1 aI).win 1).index t 1 * 1024 + 1 * r.val = 1024 * kiN t + r.val
    rw [hi]; show kiN t * 1024 + 1 * r.val = _; omega
  | ⟨2, _⟩ =>
    show ((cfg1 aI).win 1).index t 2 * 256 + 1 * e.val = e.val
    rw [hi]; show 0 * 256 + 1 * e.val = e.val; omega

theorem iblk1_v (c : Dev nD) (t : Fin (cfg1 aI).N) (r : Fin 1024) (e : Fin 256) (hb : bN t < 4) (hn : 1024 * kiN t + r.val < 4096) :
    iblk1 V aI c 2 t (ix3 0 r e) = V c main_v4 (ix3 ⟨bN t, hb⟩ ⟨1024 * kiN t + r.val, hn⟩ e) := by
  unfold iblk1
  show V c main_v4 ((((cfg1 aI).win 2).blk t).view.emb (ix3 0 r e)) = V c main_v4 _
  refine congrArg (V c main_v4) (funext fun x => Fin.ext ?_)
  have hi := index_v t
  match x with
  | ⟨0, _⟩ =>
    show ((cfg1 aI).win 2).index t 0 * 1 + 1 * 0 = bN t
    rw [hi]; show bN t * 1 + 1 * 0 = bN t; omega
  | ⟨1, _⟩ =>
    show ((cfg1 aI).win 2).index t 1 * 1024 + 1 * r.val = 1024 * kiN t + r.val
    rw [hi]; show kiN t * 1024 + 1 * r.val = _; omega
  | ⟨2, _⟩ =>
    show ((cfg1 aI).win 2).index t 2 * 256 + 1 * e.val = e.val
    rw [hi]; show 0 * 256 + 1 * e.val = e.val; omega

/-- The output block's entry (0, r, d) sits at entry (batch, 1024 qi + r, d) of the result. -/
theorem emb_o (c : Dev nD) (t : Fin (cfg1 aI).N) (r : Fin 1024) (d : Fin 256) (hb : bN t < 4) (hn : 1024 * qiN t + r.val < 4096) :
    (((cfg1 aI).win 3).blk t).view.emb (ix3 0 r d) = (ix3 ⟨bN t, hb⟩ ⟨1024 * qiN t + r.val, hn⟩ d : S4x4096x256.Idx) := by
  refine funext fun x => Fin.ext ?_
  have hi := index_o t
  match x with
  | ⟨0, _⟩ =>
    show ((cfg1 aI).win 3).index t 0 * 1 + 1 * 0 = bN t
    rw [hi]; show bN t * 1 + 1 * 0 = bN t; omega
  | ⟨1, _⟩ =>
    show ((cfg1 aI).win 3).index t 1 * 1024 + 1 * r.val = 1024 * qiN t + r.val
    rw [hi]; show qiN t * 1024 + 1 * r.val = _; omega
  | ⟨2, _⟩ =>
    show ((cfg1 aI).win 3).index t 2 * 256 + 1 * d.val = d.val
    rw [hi]; show 0 * 256 + 1 * d.val = d.val; omega

end Cert.KernelIdeal.Hand

end
-- ==== Proof.LibOnlineSoftmax.lean ====
import Idealize.ShloMosaic.PureOps.Ideal

/-!
# Online softmax over the extended reals

A row of attention scores is consumed tile by tile. The running state keeps the maximum seen
so far, a normaliser and an accumulator, both taken against that maximum; each new tile
rescales the old normaliser and accumulator by exp(old maximum − new maximum) and adds its own
exp(score − new maximum) terms. This module proves that after any positive number of tiles the
state holds the exp-weighted sums taken against the global maximum, so that accumulator over
normaliser is the softmax-weighted mean of the values (`run_out`), and that a sum of
(weight over total) · value is (sum of weight · value) over total (`weighted_div`). Its last section
reads a row of length `T * B` as `T` tiles of width `B` (sums and maxima by tiles) and joins the two:
the tile-by-tile run of a row equals the whole row's softmax-weighted quotient (`run_out_row`).

Scores are reals or −∞ (a masked position), values are reals, and some score of the first
tile is real, so every maximum after the first tile is a real. All arithmetic is then carried
out on real witnesses and pushed back through the coercion `ℝ → EReal`.
-/

noncomputable section

namespace Cert.Lib.OnlineSoftmax

open Idealize.ShloMosaic

variable {C D : Type} [Fintype C]

/-- The running state of a row after some tiles: the running maximum, the normaliser, the
    accumulator. -/
structure St (D : Type) where
  /-- The maximum of the scores seen so far. -/
  m : EReal
  /-- The sum of the weights seen so far, taken against `m`. -/
  l : EReal
  /-- The sum of weight times value seen so far, taken against `m`. -/
  acc : D → EReal

/-- Before any tile: maximum −∞, normaliser 0, accumulator 0. -/
def init : St D := ⟨⊥, 0, fun _ => 0⟩

/-- One tile with (masked) scores `s` and values `v`: the new maximum is the old one against
    the tile's row maximum; the old normaliser and accumulator are rescaled by exp(old − new)
    and the tile's exp(s − new) terms added. -/
def step (s : C → EReal) (v : C → D → EReal) (σ : St D) : St D :=
  { m := max σ.m (Finset.univ.fold max ⊥ s)
    l := Ideal.exp (σ.m - max σ.m (Finset.univ.fold max ⊥ s)) * σ.l
          + ∑ c, Ideal.exp (s c - max σ.m (Finset.univ.fold max ⊥ s))
    acc := fun d => Ideal.exp (σ.m - max σ.m (Finset.univ.fold max ⊥ s)) * σ.acc d
          + ∑ c, Ideal.exp (s c - max σ.m (Finset.univ.fold max ⊥ s)) * v c d }

/-- The state after the first `j` tiles. -/
def run (s : ℕ → C → EReal) (v : ℕ → C → D → EReal) : ℕ → St D
  | 0 => init
  | j + 1 => step (s j) (v j) (run s v j)

/-- The maximum of all scores of the first `J` tiles. -/
def gmax (s : ℕ → C → EReal) (J : ℕ) : EReal :=
  (Finset.range J).fold max ⊥ (fun j => Finset.univ.fold max ⊥ (s j))

/-! ### Coercion of finite real sums -/

/-- The coercion of a finite sum of reals is the sum of the coercions. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ### The weight of a score against a real maximum -/

/-- The weight of a score `x` (a real or −∞) against a real maximum `g`: exp(x − g) for a real
    `x`, and 0 at −∞. -/
def wt (x : EReal) (g : ℝ) : ℝ := if x = ⊥ then 0 else Real.exp (x.toReal - g)

/-- A masked score weighs nothing. -/
theorem wt_bot (g : ℝ) : wt ⊥ g = 0 := if_pos rfl

/-- A real score `r` weighs exp(r − g). -/
theorem wt_coe (r g : ℝ) : wt (r : EReal) g = Real.exp (r - g) := by
  rw [wt, if_neg (EReal.coe_ne_bot r), EReal.toReal_coe]

/-- Weights are nonnegative. -/
theorem wt_nonneg (x : EReal) (g : ℝ) : 0 ≤ wt x g := by
  unfold wt
  split
  · exact le_rfl
  · exact (Real.exp_pos _).le

/-- A real score has a positive weight. -/
theorem wt_coe_pos (r g : ℝ) : 0 < wt (r : EReal) g := by
  rw [wt_coe]
  exact Real.exp_pos _

/-- For a score that is a real or −∞ and a real `g`, the extended exponential of `x − g` is the
    coercion of the weight. -/
theorem exp_sub_coe {x : EReal} (hx : x = ⊥ ∨ ∃ r : ℝ, x = (r : EReal)) (g : ℝ) :
    Ideal.exp (x - (g : EReal)) = ((wt x g : ℝ) : EReal) := by
  rcases hx with rfl | ⟨r, rfl⟩
  · rw [EReal.bot_sub, Ideal.exp_bot, wt_bot, EReal.coe_zero]
  · rw [← EReal.coe_sub, Ideal.exp_coe, wt_coe]

/-- Changing the maximum from `g` to `g'` multiplies every weight by exp(g − g'):
    exp(g − g') · exp(x − g) = exp(x − g'), and both sides vanish at −∞. -/
theorem wt_rescale (x : EReal) (g g' : ℝ) : wt (g : EReal) g' * wt x g = wt x g' := by
  rw [wt_coe]
  unfold wt
  split
  · rw [mul_zero]
  · rw [← Real.exp_add]
    congr 1
    ring

/-! ### The global maximum -/

/-- The maximum over no tiles is −∞. -/
theorem gmax_zero (s : ℕ → C → EReal) : gmax s 0 = ⊥ := rfl

/-- One more tile: the new global maximum is the old one against the tile's row maximum. -/
theorem gmax_succ (s : ℕ → C → EReal) (J : ℕ) :
    gmax s (J + 1) = max (gmax s J) (Finset.univ.fold max ⊥ (s J)) := by
  rw [gmax, Finset.range_add_one, Finset.fold_insert (by simp), max_comm]
  rfl

/-- The running maximum after `J` tiles is the global maximum of those tiles. -/
theorem run_m (s : ℕ → C → EReal) (v : ℕ → C → D → EReal) (J : ℕ) :
    (run s v J).m = gmax s J := by
  induction J with
  | zero => rfl
  | succ J ih =>
    show max (run s v J).m (Finset.univ.fold max ⊥ (s J)) = gmax s (J + 1)
    rw [ih, gmax_succ]

/-- Every score of the first `J` tiles is at most their global maximum. -/
theorem le_gmax (s : ℕ → C → EReal) {i J : ℕ} (h : i < J) (c : C) : s i c ≤ gmax s J :=
  le_trans (Finset.le_sup (f := s i) (Finset.mem_univ c))
    (Finset.le_sup (f := fun j => Finset.univ.sup (s j)) (Finset.mem_range.2 h))

/-- If no score of the first `J` tiles is +∞, neither is their global maximum. -/
theorem gmax_ne_top (s : ℕ → C → EReal) (J : ℕ) (hs : ∀ j, j < J → ∀ c, s j c ≠ ⊤) :
    gmax s J ≠ ⊤ := by
  refine ne_of_lt ?_
  refine (Finset.sup_lt_iff (f := fun j => Finset.univ.sup (s j)) bot_lt_top).2 fun j hj => ?_
  refine (Finset.sup_lt_iff (f := s j) bot_lt_top).2 fun c _ => ?_
  exact lt_top_iff_ne_top.2 (hs j (Finset.mem_range.1 hj) c)

/-- A score that is a real or −∞ is not +∞. -/
theorem ne_top_of_bot_or_coe {x : EReal} (hx : x = ⊥ ∨ ∃ r : ℝ, x = (r : EReal)) : x ≠ ⊤ := by
  rcases hx with rfl | ⟨r, rfl⟩
  · exact bot_ne_top
  · exact EReal.coe_ne_top r

/-- An extended real other than +∞ is a real or −∞. -/
theorem bot_or_coe_of_ne_top {x : EReal} (hx : x ≠ ⊤) : x = ⊥ ∨ ∃ r : ℝ, x = (r : EReal) := by
  by_cases hb : x = ⊥
  · exact Or.inl hb
  · exact Or.inr ⟨x.toReal, (EReal.coe_toReal hx hb).symm⟩

/-- With scores that are reals or −∞, the global maximum of the first `J` tiles is a real
    or −∞. -/
theorem gmax_bot_or_coe (s : ℕ → C → EReal) (J : ℕ)
    (hs : ∀ j, j < J → ∀ c, s j c = ⊥ ∨ ∃ r : ℝ, s j c = (r : EReal)) :
    gmax s J = ⊥ ∨ ∃ r : ℝ, gmax s J = (r : EReal) :=
  bot_or_coe_of_ne_top (gmax_ne_top s J fun j hj c => ne_top_of_bot_or_coe (hs j hj c))

/-- GLOBAL MAXIMUM IS REAL. With scores that are reals or −∞ and a real score in tile 0, the
    global maximum of the first `J + 1` tiles is a real. -/
theorem gmax_real (s : ℕ → C → EReal) (J : ℕ)
    (hs : ∀ j, j < J + 1 → ∀ c, s j c = ⊥ ∨ ∃ r : ℝ, s j c = (r : EReal))
    (h0 : ∃ c, ∃ r : ℝ, s 0 c = (r : EReal)) :
    ∃ G : ℝ, gmax s (J + 1) = (G : EReal) := by
  rcases gmax_bot_or_coe s (J + 1) hs with hb | hr
  · obtain ⟨c, r, hr⟩ := h0
    have h := le_gmax s (Nat.succ_pos J) c
    rw [hb, hr] at h
    exact absurd (le_bot_iff.1 h) (EReal.coe_ne_bot r)
  · exact hr

/-! ### One tile, on real witnesses -/

/-- One tile from a state whose maximum is a real or −∞ and whose normaliser and accumulator
    are reals, when the new maximum is the real `g'`: the new normaliser and accumulator are the
    reals obtained by rescaling the old ones by the weight of the old maximum against `g'` and
    adding the tile's weights. -/
theorem step_coe (s : C → EReal) (v : C → D → EReal) (σ : St D) (L : ℝ) (A : D → ℝ) (g' : ℝ)
    (hm : σ.m = ⊥ ∨ ∃ r : ℝ, σ.m = (r : EReal))
    (hl : σ.l = (L : EReal)) (ha : ∀ d, σ.acc d = (A d : EReal))
    (hs : ∀ c, s c = ⊥ ∨ ∃ r : ℝ, s c = (r : EReal))
    (hv : ∀ c d, ∃ r : ℝ, v c d = (r : EReal))
    (hg' : max σ.m (Finset.univ.fold max ⊥ s) = (g' : EReal)) :
    (step s v σ).l = ((wt σ.m g' * L + ∑ c, wt (s c) g' : ℝ) : EReal) ∧
    ∀ d, (step s v σ).acc d
      = ((wt σ.m g' * A d + ∑ c, wt (s c) g' * (v c d).toReal : ℝ) : EReal) := by
  constructor
  · show Ideal.exp (σ.m - max σ.m (Finset.univ.fold max ⊥ s)) * σ.l
        + ∑ c, Ideal.exp (s c - max σ.m (Finset.univ.fold max ⊥ s)) = _
    rw [hg', exp_sub_coe hm, hl, EReal.coe_add, EReal.coe_mul, coe_sum]
    congr 1
    exact Finset.sum_congr rfl fun c _ => exp_sub_coe (hs c) g'
  · intro d
    show Ideal.exp (σ.m - max σ.m (Finset.univ.fold max ⊥ s)) * σ.acc d
        + ∑ c, Ideal.exp (s c - max σ.m (Finset.univ.fold max ⊥ s)) * v c d = _
    rw [hg', exp_sub_coe hm, ha d, EReal.coe_add, EReal.coe_mul, coe_sum]
    congr 1
    refine Finset.sum_congr rfl fun c _ => ?_
    obtain ⟨r, hr⟩ := hv c d
    rw [exp_sub_coe (hs c), hr, EReal.toReal_coe, EReal.coe_mul]

/-- Rescaling a double sum of weighted terms from an old maximum `M` (a real or −∞ that bounds
    every score in the sum) to a real `g'`: multiplying by the weight of `M` against `g'` turns
    each weight against `M` into the weight against `g'`. At `M = −∞` every score is −∞ and both
    sides are 0. -/
theorem rescale_sum {ι : Type} (t : Finset ι) (x : ι → C → EReal) (a : ι → C → ℝ) (M : EReal)
    (g' : ℝ) (hM : M = ⊥ ∨ ∃ r : ℝ, M = (r : EReal)) (hx : ∀ i ∈ t, ∀ c, x i c ≤ M) :
    wt M g' * ∑ i ∈ t, ∑ c, wt (x i c) M.toReal * a i c = ∑ i ∈ t, ∑ c, wt (x i c) g' * a i c := by
  rcases hM with rfl | ⟨r, rfl⟩
  · rw [wt_bot, zero_mul]
    symm
    refine Finset.sum_eq_zero fun i hi => Finset.sum_eq_zero fun c _ => ?_
    rw [le_bot_iff.1 (hx i hi c), wt_bot, zero_mul]
  · rw [EReal.toReal_coe, Finset.mul_sum]
    refine Finset.sum_congr rfl fun i _ => ?_
    rw [Finset.mul_sum]
    refine Finset.sum_congr rfl fun c _ => ?_
    rw [← mul_assoc, wt_rescale]

/-! ### The invariant -/

/-- THE INVARIANT. With scores that are reals or −∞, real values and a real score in tile 0,
    after any `j ≤ N` tiles the normaliser is the sum over the tiles seen of the weights against
    the global maximum so far, and the accumulator is the same sum with each weight multiplied
    by its value. (For `j = 0` both sums are empty.) -/
theorem run_coe (s : ℕ → C → EReal) (v : ℕ → C → D → EReal) (N : ℕ)
    (hs : ∀ j, j < N → ∀ c, s j c = ⊥ ∨ ∃ r : ℝ, s j c = (r : EReal))
    (hv : ∀ j, j < N → ∀ c d, ∃ r : ℝ, v j c d = (r : EReal))
    (h0 : ∃ c, ∃ r : ℝ, s 0 c = (r : EReal)) (j : ℕ) (hj : j ≤ N) :
    (run s v j).l
      = ((∑ i ∈ Finset.range j, ∑ c, wt (s i c) (gmax s j).toReal : ℝ) : EReal) ∧
    ∀ d, (run s v j).acc d
      = ((∑ i ∈ Finset.range j, ∑ c, wt (s i c) (gmax s j).toReal * (v i c d).toReal : ℝ)
          : EReal) := by
  induction j with
  | zero =>
    refine ⟨?_, fun d => ?_⟩
    · show (0 : EReal) = _
      rw [Finset.range_zero, Finset.sum_empty, EReal.coe_zero]
    · show (0 : EReal) = _
      rw [Finset.range_zero, Finset.sum_empty, EReal.coe_zero]
  | succ j ih =>
    obtain ⟨ihl, iha⟩ := ih (Nat.le_of_succ_le hj)
    have hsj : ∀ i, i < j + 1 → ∀ c, s i c = ⊥ ∨ ∃ r : ℝ, s i c = (r : EReal) :=
      fun i hi => hs i (lt_of_lt_of_le hi hj)
    obtain ⟨G, hG⟩ := gmax_real s j hsj h0
    have hM : gmax s j = ⊥ ∨ ∃ r : ℝ, gmax s j = (r : EReal) :=
      gmax_bot_or_coe s j fun i hi => hsj i (Nat.lt_succ_of_lt hi)
    have hm : (run s v j).m = ⊥ ∨ ∃ r : ℝ, (run s v j).m = (r : EReal) := by
      rw [run_m]; exact hM
    have hg' : max (run s v j).m (Finset.univ.fold max ⊥ (s j)) = (G : EReal) := by
      rw [run_m, ← gmax_succ, hG]
    obtain ⟨hl, ha⟩ := step_coe (s j) (v j) (run s v j) _ _ G hm ihl iha
      (hs j (Nat.lt_of_succ_le hj)) (hv j (Nat.lt_of_succ_le hj)) hg'
    have hle : ∀ i ∈ Finset.range j, ∀ c, s i c ≤ gmax s j :=
      fun i hi c => le_gmax s (Finset.mem_range.1 hi) c
    refine ⟨?_, fun d => ?_⟩
    · show (step (s j) (v j) (run s v j)).l = _
      rw [hl, hG, EReal.toReal_coe, Finset.sum_range_succ, run_m]
      congr 2
      have h := rescale_sum (Finset.range j) s (fun _ _ => (1 : ℝ)) (gmax s j) G hM hle
      simpa only [mul_one] using h
    · show (step (s j) (v j) (run s v j)).acc d = _
      rw [ha d, hG, EReal.toReal_coe, Finset.sum_range_succ, run_m]
      congr 2
      exact rescale_sum (Finset.range j) s (fun i c => (v i c d).toReal) (gmax s j) G hM hle

/-- THE STATE AFTER `J + 1` TILES. With scores that are reals or −∞, real values and a real score
    in tile 0, there is a real `G` with: the global maximum is `G`; the running maximum is `G`;
    the normaliser is the (positive) real sum of the weights against `G`; the accumulator is the
    real sum of weight times value. -/
theorem run_succ_real (s : ℕ → C → EReal) (v : ℕ → C → D → EReal) (J : ℕ)
    (hs : ∀ j, j < J + 1 → ∀ c, s j c = ⊥ ∨ ∃ r : ℝ, s j c = (r : EReal))
    (hv : ∀ j, j < J + 1 → ∀ c d, ∃ r : ℝ, v j c d = (r : EReal))
    (h0 : ∃ c, ∃ r : ℝ, s 0 c = (r : EReal)) :
    ∃ G : ℝ, gmax s (J + 1) = (G : EReal) ∧ (run s v (J + 1)).m = (G : EReal) ∧
      0 < ∑ i ∈ Finset.range (J + 1), ∑ c, wt (s i c) G ∧
      (run s v (J + 1)).l = ((∑ i ∈ Finset.range (J + 1), ∑ c, wt (s i c) G : ℝ) : EReal) ∧
      ∀ d, (run s v (J + 1)).acc d
        = ((∑ i ∈ Finset.range (J + 1), ∑ c, wt (s i c) G * (v i c d).toReal : ℝ) : EReal) := by
  obtain ⟨G, hG⟩ := gmax_real s J hs h0
  obtain ⟨hl, ha⟩ := run_coe s v (J + 1) hs hv h0 (J + 1) le_rfl
  rw [hG, EReal.toReal_coe] at hl
  refine ⟨G, hG, by rw [run_m, hG], ?_, hl, fun d => ?_⟩
  · obtain ⟨c0, r, hr⟩ := h0
    refine Finset.sum_pos' (fun i _ => Finset.sum_nonneg fun c _ => wt_nonneg _ _)
      ⟨0, Finset.mem_range.2 (Nat.succ_pos J), ?_⟩
    refine Finset.sum_pos' (fun c _ => wt_nonneg _ _) ⟨c0, Finset.mem_univ c0, ?_⟩
    rw [hr]
    exact wt_coe_pos r G
  · have h := ha d
    rw [hG, EReal.toReal_coe] at h
    exact h

/-- The sums of the reference side, against a real global maximum `G`: the sum of the extended
    exponentials of `score − G` is the coercion of the real sum of the weights. -/
theorem ref_den_coe (s : ℕ → C → EReal) (N : ℕ) (G : ℝ)
    (hs : ∀ j, j < N → ∀ c, s j c = ⊥ ∨ ∃ r : ℝ, s j c = (r : EReal)) :
    ∑ j ∈ Finset.range N, ∑ c, Ideal.exp (s j c - (G : EReal))
      = ((∑ j ∈ Finset.range N, ∑ c, wt (s j c) G : ℝ) : EReal) := by
  rw [coe_sum]
  refine Finset.sum_congr rfl fun j hj => ?_
  rw [coe_sum]
  exact Finset.sum_congr rfl fun c _ => exp_sub_coe (hs j (Finset.mem_range.1 hj) c) G

/-- The same with values: the sum of the extended exponentials of `score − G` times the (real)
    values is the coercion of the real sum of weight times value. -/
theorem ref_num_coe (s : ℕ → C → EReal) (v : ℕ → C → D → EReal) (N : ℕ) (G : ℝ)
    (hs : ∀ j, j < N → ∀ c, s j c = ⊥ ∨ ∃ r : ℝ, s j c = (r : EReal))
    (hv : ∀ j, j < N → ∀ c d, ∃ r : ℝ, v j c d = (r : EReal)) (d : D) :
    ∑ j ∈ Finset.range N, ∑ c, Ideal.exp (s j c - (G : EReal)) * v j c d
      = ((∑ j ∈ Finset.range N, ∑ c, wt (s j c) G * (v j c d).toReal : ℝ) : EReal) := by
  rw [coe_sum]
  refine Finset.sum_congr rfl fun j hj => ?_
  rw [coe_sum]
  refine Finset.sum_congr rfl fun c _ => ?_
  obtain ⟨r, hr⟩ := hv j (Finset.mem_range.1 hj) c d
  rw [exp_sub_coe (hs j (Finset.mem_range.1 hj) c), hr, EReal.toReal_coe, EReal.coe_mul]

/-- THE DENOMINATOR IS A POSITIVE REAL. With scores that are reals or −∞, real values and a real
    score in tile 0, one positive real is both the normaliser after `J + 1` tiles and the sum of the
    extended exponentials of `score − global maximum` over those tiles. -/
theorem den_pos_real (s : ℕ → C → EReal) (v : ℕ → C → D → EReal) (J : ℕ)
    (hs : ∀ j, j < J + 1 → ∀ c, s j c = ⊥ ∨ ∃ r : ℝ, s j c = (r : EReal))
    (hv : ∀ j, j < J + 1 → ∀ c d, ∃ r : ℝ, v j c d = (r : EReal))
    (h0 : ∃ c, ∃ r : ℝ, s 0 c = (r : EReal)) :
    ∃ L : ℝ, 0 < L ∧ (run s v (J + 1)).l = (L : EReal) ∧
      ∑ j ∈ Finset.range (J + 1), ∑ c, Ideal.exp (s j c - gmax s (J + 1)) = (L : EReal) := by
  obtain ⟨G, hG, _, hpos, hl, _⟩ := run_succ_real s v J hs hv h0
  exact ⟨_, hpos, hl, by rw [hG, ref_den_coe s (J + 1) G hs]⟩

/-- ONLINE SOFTMAX. Scores are reals or −∞, tile 0 has a real score, values are reals: after
    `J + 1` tiles, accumulator over normaliser is the exp-weighted sum of the values over the sum
    of the weights, both taken against the global maximum. -/
theorem run_out (s : ℕ → C → EReal) (v : ℕ → C → D → EReal) (J : ℕ)
    (hs : ∀ j, j < J + 1 → ∀ c, s j c = ⊥ ∨ ∃ r : ℝ, s j c = (r : EReal))
    (hv : ∀ j, j < J + 1 → ∀ c d, ∃ r : ℝ, v j c d = (r : EReal))
    (h0 : ∃ c, ∃ r : ℝ, s 0 c = (r : EReal)) (d : D) :
    Ideal.div ((run s v (J + 1)).acc d) ((run s v (J + 1)).l)
      = Ideal.div (∑ j ∈ Finset.range (J + 1), ∑ c, Ideal.exp (s j c - gmax s (J + 1)) * v j c d)
                  (∑ j ∈ Finset.range (J + 1), ∑ c, Ideal.exp (s j c - gmax s (J + 1))) := by
  obtain ⟨G, hG, _, _, hl, ha⟩ := run_succ_real s v J hs hv h0
  rw [hG, ref_den_coe s (J + 1) G hs, ref_num_coe s v (J + 1) G hs hv d, hl, ha d]

/-! ### Softmax weights -/

/-- SOFTMAX WEIGHTS. For nonnegative real weights with a positive one and real values: the sum
    of (weight over total) times value is (sum of weight times value) over total. -/
theorem weighted_div {K : Type} [Fintype K] (e v : K → EReal)
    (he : ∀ k, ∃ r : ℝ, 0 ≤ r ∧ e k = (r : EReal)) (hv : ∀ k, ∃ r : ℝ, v k = (r : EReal))
    (hpos : ∃ k, ∃ r : ℝ, 0 < r ∧ e k = (r : EReal)) :
    ∑ k, Ideal.div (e k) (∑ k', e k') * v k = Ideal.div (∑ k, e k * v k) (∑ k', e k') := by
  choose a ha0 ha using he
  choose b hb using hv
  have hT : ∑ k', e k' = ((∑ k', a k' : ℝ) : EReal) := by
    rw [coe_sum]
    exact Finset.sum_congr rfl fun k _ => ha k
  have hpos' : 0 < ∑ k', a k' := by
    obtain ⟨k, r, hr, hk⟩ := hpos
    refine Finset.sum_pos' (fun i _ => ha0 i) ⟨k, Finset.mem_univ k, ?_⟩
    have hak : a k = r := EReal.coe_eq_coe_iff.1 ((ha k).symm.trans hk)
    rw [hak]
    exact hr
  have hne : (∑ k', a k') ≠ 0 := hpos'.ne'
  have hterm : ∀ k, Ideal.div (e k) ((∑ k', a k' : ℝ) : EReal) * v k
      = ((a k * (1 / ∑ k', a k') * b k : ℝ) : EReal) := by
    intro k
    rw [Ideal.div_coe hne, ha k, hb k, ← EReal.coe_mul, ← EReal.coe_mul]
  have hnum : ∑ k, e k * v k = ((∑ k, a k * b k : ℝ) : EReal) := by
    rw [coe_sum]
    exact Finset.sum_congr rfl fun k _ => by rw [ha k, hb k, EReal.coe_mul]
  rw [hT, Finset.sum_congr rfl fun k _ => hterm k, ← coe_sum, hnum, Ideal.div_coe hne,
    ← EReal.coe_mul]
  congr 1
  rw [Finset.sum_mul]
  exact Finset.sum_congr rfl fun k _ => by ring

/-! ### Tiles: a row of length `T * B` read as `T` tiles of width `B`

Position `k` of the row is offset `c` of tile `j` when `k = j * B + c`. A sum over the row is the
sum over the tiles of the sums inside each tile, and likewise a maximum; when the row is trivial
(0 for a sum, −∞ for a maximum) from tile `P` on, only the first `P` tiles are needed. -/

/-- Tile `j` of a row `f` of length `N`, at offset `c` inside the tile: the row at position
    `j * B + c`, and a default value when that position is outside the row. -/
def tile {α : Type} (N B : ℕ) (dflt : α) (f : Fin N → α) (j : ℕ) (c : Fin B) : α :=
  if h : j * B + c.val < N then f ⟨j * B + c.val, h⟩ else dflt

/-- A tile element inside the row is the row's element. -/
theorem tile_eq {α : Type} {N B : ℕ} (dflt : α) (f : Fin N → α) {j : ℕ} {c : Fin B}
    (h : j * B + c.val < N) : tile N B dflt f j c = f ⟨j * B + c.val, h⟩ := dif_pos h

/-- The same element with the position written `B * j + c`. -/
theorem tile_comm {α : Type} (N B : ℕ) (dflt : α) (f : Fin N → α) (j : ℕ) (c : Fin B) :
    tile N B dflt f j c = if h : B * j + c.val < N then f ⟨B * j + c.val, h⟩ else dflt := by
  unfold tile
  by_cases h : j * B + c.val < N
  · have h' : B * j + c.val < N := by rw [Nat.mul_comm]; exact h
    rw [dif_pos h, dif_pos h']
    congr 1
    exact Fin.ext (show j * B + c.val = B * j + c.val by rw [Nat.mul_comm])
  · have h' : ¬ B * j + c.val < N := by rw [Nat.mul_comm]; exact h
    rw [dif_neg h, dif_neg h']

/-- Offset `c` of tile `j < T` is a position of a row of length `T * B`. -/
theorem tile_idx_lt {T B N : ℕ} (hN : N = T * B) {j : ℕ} (hj : j < T) (c : Fin B) :
    j * B + c.val < N := by
  rw [hN]
  calc j * B + c.val < j * B + B := Nat.add_lt_add_left c.isLt _
    _ = (j + 1) * B := (Nat.succ_mul j B).symm
    _ ≤ T * B := Nat.mul_le_mul_right B hj

/-- Every position below `P * B` is an offset of one of the first `P` tiles. -/
theorem exists_tile_of_lt {P B k : ℕ} (hk : k < P * B) :
    ∃ j, j < P ∧ ∃ c : Fin B, j * B + c.val = k := by
  have hB : 0 < B := by
    rcases Nat.eq_zero_or_pos B with h | h
    · rw [h, Nat.mul_zero] at hk
      exact absurd hk (Nat.not_lt_zero _)
    · exact h
  refine ⟨k / B, ?_, ⟨k % B, Nat.mod_lt _ hB⟩, ?_⟩
  · refine Nat.div_lt_of_lt_mul ?_
    rw [Nat.mul_comm]
    exact hk
  · exact Nat.div_add_mod' k B

/-- Every tile element is the default or an element of the row. -/
theorem tile_mem {α : Type} (N B : ℕ) (dflt : α) (f : Fin N → α) (j : ℕ) (c : Fin B) :
    tile N B dflt f j c = dflt ∨ ∃ k, tile N B dflt f j c = f k := by
  unfold tile
  by_cases h : j * B + c.val < N
  · rw [dif_pos h]
    exact Or.inr ⟨_, rfl⟩
  · rw [dif_neg h]
    exact Or.inl rfl

/-- Tiles (with default −∞) of a row of reals or −∞ are reals or −∞. -/
theorem tile_bot_or_coe {N B : ℕ} (f : Fin N → EReal)
    (hf : ∀ k, f k = ⊥ ∨ ∃ r : ℝ, f k = (r : EReal)) (j : ℕ) (c : Fin B) :
    tile N B ⊥ f j c = ⊥ ∨ ∃ r : ℝ, tile N B ⊥ f j c = (r : EReal) := by
  rcases tile_mem N B ⊥ f j c with h | ⟨k, h⟩
  · exact Or.inl h
  · rw [h]
    exact hf k

/-- Tiles of a row of reals, with a real default, are reals. -/
theorem tile_coe {N B : ℕ} (dflt : EReal) (f : Fin N → EReal) (hd : ∃ r : ℝ, dflt = (r : EReal))
    (hf : ∀ k, ∃ r : ℝ, f k = (r : EReal)) (j : ℕ) (c : Fin B) :
    ∃ r : ℝ, tile N B dflt f j c = (r : EReal) := by
  rcases tile_mem N B dflt f j c with h | ⟨k, h⟩
  · rw [h]
    exact hd
  · rw [h]
    exact hf k

/-- SUM BY TILES. The sum over a row of length `T * B` is the sum over the `T` tiles of the sums
    over the `B` offsets (whatever the default, which no tile `j < T` reaches). -/
theorem sum_tiles {M : Type} [AddCommMonoid M] (T B N : ℕ) (hN : N = T * B) (dflt : M)
    (f : Fin N → M) :
    ∑ k : Fin N, f k = ∑ j ∈ Finset.range T, ∑ c : Fin B, tile N B dflt f j c := by
  subst hN
  rw [← Fin.sum_univ_eq_sum_range (fun j => ∑ c : Fin B, tile (T * B) B dflt f j c) T,
    ← finProdFinEquiv.sum_comp, Fintype.sum_prod_type]
  refine Finset.sum_congr rfl fun j _ => Finset.sum_congr rfl fun c _ => ?_
  have h : j.val * B + c.val < T * B := tile_idx_lt rfl j.isLt c
  rw [tile_eq dflt f h]
  congr 1
  apply Fin.ext
  show c.val + B * j.val = j.val * B + c.val
  rw [Nat.add_comm, Nat.mul_comm]

/-- SUM BY THE FIRST TILES. If the row vanishes from position `P * B` on (`P ≤ T`), its sum is the sum
    over the first `P` tiles. -/
theorem sum_tiles_prefix {M : Type} [AddCommMonoid M] (T B N : ℕ) (hN : N = T * B) (P : ℕ)
    (hP : P ≤ T) (dflt : M) (f : Fin N → M) (hf : ∀ k : Fin N, P * B ≤ k.val → f k = 0) :
    ∑ k : Fin N, f k = ∑ j ∈ Finset.range P, ∑ c : Fin B, tile N B dflt f j c := by
  rw [sum_tiles T B N hN dflt f]
  symm
  refine Finset.sum_subset (Finset.range_mono hP) fun j hj hjP => ?_
  refine Finset.sum_eq_zero fun c _ => ?_
  have h : j * B + c.val < N := tile_idx_lt hN (Finset.mem_range.1 hj) c
  rw [tile_eq dflt f h]
  refine hf _ ?_
  have hPj : P ≤ j := Nat.le_of_not_lt fun hlt => hjP (Finset.mem_range.2 hlt)
  exact le_trans (Nat.mul_le_mul_right B hPj) (Nat.le_add_right _ _)

/-- MAXIMUM BY THE FIRST TILES. If the row is −∞ from position `P * B` on (`P ≤ T`), its maximum
    from −∞ is the global maximum of the first `P` tiles. -/
theorem fold_max_tiles_prefix (T B N : ℕ) (hN : N = T * B) (P : ℕ) (hP : P ≤ T) (dflt : EReal)
    (f : Fin N → EReal) (hf : ∀ k : Fin N, P * B ≤ k.val → f k = ⊥) :
    Finset.univ.fold max ⊥ f = gmax (tile N B dflt f) P := by
  show Finset.univ.sup f = (Finset.range P).sup (fun j => Finset.univ.sup (tile N B dflt f j))
  apply le_antisymm
  · refine Finset.sup_le fun k _ => ?_
    by_cases hk : k.val < P * B
    · obtain ⟨j, hj, c, hc⟩ := exists_tile_of_lt hk
      have h : j * B + c.val < N := by rw [hc]; exact k.isLt
      have e : tile N B dflt f j c = f k := by
        rw [tile_eq dflt f h]
        congr 1
        exact Fin.ext hc
      rw [← e]
      exact le_gmax (tile N B dflt f) hj c
    · rw [hf k (Nat.le_of_not_lt hk)]
      exact bot_le
  · refine Finset.sup_le fun j hj => Finset.sup_le fun c _ => ?_
    have h : j * B + c.val < N :=
      tile_idx_lt hN (lt_of_lt_of_le (Finset.mem_range.1 hj) hP) c
    rw [tile_eq dflt f h]
    exact Finset.le_sup (f := f) (Finset.mem_univ _)

/-- MAXIMUM BY TILES. The maximum from −∞ over a row of length `T * B` is the global maximum of its
    `T` tiles. -/
theorem fold_max_tiles (T B N : ℕ) (hN : N = T * B) (dflt : EReal) (f : Fin N → EReal) :
    Finset.univ.fold max ⊥ f = gmax (tile N B dflt f) T :=
  fold_max_tiles_prefix T B N hN T le_rfl dflt f fun k hk =>
    absurd (lt_of_lt_of_le k.isLt (le_of_eq hN)) (Nat.not_lt.2 hk)

/-- WEIGHTED EXPONENTIAL SUM BY THE FIRST TILES. If the scores `s'` are −∞ from position `P * B` on
    (`P ≤ T`), the sum over the row of exp(score − G) times `w` is the sum over the first `P` tiles of
    the same terms of the tiles (the terms beyond are exp(−∞) · w = 0 · w = 0). -/
theorem sum_exp_mul_tiles_prefix (T B N : ℕ) (hN : N = T * B) (P : ℕ) (hP : P ≤ T)
    (s' : Fin N → EReal) (hs' : ∀ k : Fin N, P * B ≤ k.val → s' k = ⊥) (G : EReal)
    (w : Fin N → EReal) (dflt : EReal) :
    ∑ k : Fin N, Ideal.exp (s' k - G) * w k
      = ∑ j ∈ Finset.range P, ∑ c : Fin B,
          Ideal.exp (tile N B ⊥ s' j c - G) * tile N B dflt w j c := by
  have hz : ∀ k : Fin N, P * B ≤ k.val → Ideal.exp (s' k - G) * w k = 0 := fun k hk => by
    rw [hs' k hk, EReal.bot_sub, Ideal.exp_bot, zero_mul]
  rw [sum_tiles_prefix T B N hN P hP 0 (fun k => Ideal.exp (s' k - G) * w k) hz]
  refine Finset.sum_congr rfl fun j hj => Finset.sum_congr rfl fun c _ => ?_
  have h : j * B + c.val < N :=
    tile_idx_lt hN (lt_of_lt_of_le (Finset.mem_range.1 hj) hP) c
  rw [tile_eq _ _ h, tile_eq _ _ h, tile_eq _ _ h]

/-- EXPONENTIAL SUM BY THE FIRST TILES. If the scores `s'` are −∞ from position `P * B` on (`P ≤ T`),
    the sum over the row of exp(score − G) is the sum over the first `P` tiles. -/
theorem sum_exp_tiles_prefix (T B N : ℕ) (hN : N = T * B) (P : ℕ) (hP : P ≤ T)
    (s' : Fin N → EReal) (hs' : ∀ k : Fin N, P * B ≤ k.val → s' k = ⊥) (G : EReal) :
    ∑ k : Fin N, Ideal.exp (s' k - G)
      = ∑ j ∈ Finset.range P, ∑ c : Fin B, Ideal.exp (tile N B ⊥ s' j c - G) := by
  have hz : ∀ k : Fin N, P * B ≤ k.val → Ideal.exp (s' k - G) = 0 := fun k hk => by
    rw [hs' k hk, EReal.bot_sub, Ideal.exp_bot]
  rw [sum_tiles_prefix T B N hN P hP 0 (fun k => Ideal.exp (s' k - G)) hz]
  refine Finset.sum_congr rfl fun j hj => Finset.sum_congr rfl fun c _ => ?_
  have h : j * B + c.val < N :=
    tile_idx_lt hN (lt_of_lt_of_le (Finset.mem_range.1 hj) hP) c
  rw [tile_eq _ _ h, tile_eq _ _ h]

/-! #### A row of length 4096 as 4 tiles of width 1024, position `1024 * j + c` -/

/-- The sum over a row of length 4096 by 4 tiles of width 1024. -/
theorem sum_tiles_4x1024 (g : Fin 4096 → EReal) :
    ∑ k : Fin 4096, g k
      = ∑ j ∈ Finset.range 4, ∑ c : Fin 1024,
          if h : 1024 * j + c.val < 4096 then g ⟨1024 * j + c.val, h⟩ else 0 := by
  rw [sum_tiles 4 1024 4096 (by norm_num) 0 g]
  exact Finset.sum_congr rfl fun j _ => Finset.sum_congr rfl fun c _ => tile_comm 4096 1024 0 g j c

/-- The maximum from −∞ over a row of length 4096 by 4 tiles of width 1024. -/
theorem fold_max_tiles_4x1024 (g : Fin 4096 → EReal) :
    Finset.univ.fold max ⊥ g
      = (Finset.range 4).fold max ⊥ fun j => Finset.univ.fold max ⊥ fun c : Fin 1024 =>
          if h : 1024 * j + c.val < 4096 then g ⟨1024 * j + c.val, h⟩ else ⊥ := by
  rw [fold_max_tiles 4 1024 4096 (by norm_num) ⊥ g]
  show (Finset.range 4).fold max ⊥ (fun j => Finset.univ.fold max ⊥ (tile 4096 1024 ⊥ g j)) = _
  have e : (fun j => Finset.univ.fold max ⊥ (tile 4096 1024 ⊥ g j))
      = fun j => Finset.univ.fold max ⊥ fun c : Fin 1024 =>
          if h : 1024 * j + c.val < 4096 then g ⟨1024 * j + c.val, h⟩ else ⊥ :=
    funext fun j => congrArg (fun f => Finset.fold max ⊥ f (Finset.univ : Finset (Fin 1024)))
      (funext fun c => tile_comm 4096 1024 ⊥ g j c)
  rw [e]

/-! #### The whole row against the tile-by-tile run -/

/-- ONLINE SOFTMAX OF A ROW. A row of `T * B` scores that are reals or −∞, −∞ from position
    `(J + 1) * B` on (`J < T`), with a real score at some position of tile 0, and real values:
    running the first `J + 1` tiles of width `B` gives, as accumulator over normaliser, the sum over
    the whole row of exp(score − row maximum) times value over the sum of exp(score − row maximum). -/
theorem run_out_row {D : Type} (T B N : ℕ) (hN : N = T * B) (J : ℕ) (hJ : J < T)
    (s' : Fin N → EReal) (w : Fin N → D → EReal)
    (hs : ∀ k, s' k = ⊥ ∨ ∃ r : ℝ, s' k = (r : EReal))
    (hbot : ∀ k : Fin N, (J + 1) * B ≤ k.val → s' k = ⊥)
    (k0 : Fin N) (hk0 : k0.val < B) (h0 : ∃ r : ℝ, s' k0 = (r : EReal))
    (hw : ∀ k d, ∃ r : ℝ, w k d = (r : EReal)) (d : D) :
    Ideal.div
        ((run (tile N B ⊥ s') (fun j c d => tile N B 0 (fun k => w k d) j c) (J + 1)).acc d)
        ((run (tile N B ⊥ s') (fun j c d => tile N B 0 (fun k => w k d) j c) (J + 1)).l)
      = Ideal.div (∑ k : Fin N, Ideal.exp (s' k - Finset.univ.fold max ⊥ s') * w k d)
          (∑ k : Fin N, Ideal.exp (s' k - Finset.univ.fold max ⊥ s')) := by
  have hs_t : ∀ j, j < J + 1 → ∀ c : Fin B,
      tile N B ⊥ s' j c = ⊥ ∨ ∃ r : ℝ, tile N B ⊥ s' j c = (r : EReal) :=
    fun j _ c => tile_bot_or_coe s' hs j c
  have hv_t : ∀ j, j < J + 1 → ∀ (c : Fin B) (d : D),
      ∃ r : ℝ, tile N B 0 (fun k => w k d) j c = (r : EReal) :=
    fun j _ c d => tile_coe 0 (fun k => w k d) ⟨0, EReal.coe_zero.symm⟩ (fun k => hw k d) j c
  have h0_t : ∃ c : Fin B, ∃ r : ℝ, tile N B ⊥ s' 0 c = (r : EReal) := by
    obtain ⟨r, hr⟩ := h0
    have h : 0 * B + (⟨k0.val, hk0⟩ : Fin B).val < N := by
      rw [Nat.zero_mul, Nat.zero_add]
      exact k0.isLt
    refine ⟨⟨k0.val, hk0⟩, r, ?_⟩
    rw [tile_eq ⊥ s' h, ← hr]
    congr 1
    exact Fin.ext (by show 0 * B + k0.val = k0.val; rw [Nat.zero_mul, Nat.zero_add])
  rw [run_out (tile N B ⊥ s') (fun j c d => tile N B 0 (fun k => w k d) j c) J hs_t hv_t h0_t d,
    fold_max_tiles_prefix T B N hN (J + 1) hJ ⊥ s' hbot,
    sum_exp_mul_tiles_prefix T B N hN (J + 1) hJ s' hbot _ (fun k => w k d) 0,
    sum_exp_tiles_prefix T B N hN (J + 1) hJ s' hbot _]

end Cert.Lib.OnlineSoftmax
-- ==== Proof.KI.Pay.lean ====
import proofs.«168436_j23081154249219_2_alg».proof.Proof.KI.R1a
import proofs.«168436_j23081154249219_2_alg».proof.Proof.LibOnlineSoftmax
import Idealize.ShloMosaic.Lib.ValueIdx
import Idealize.ShloMosaic.Lib.Pipeline.Value
import Idealize.ShloMosaic.Lib.ValueLayout
import Idealize.ShloMosaic.PureOps.Ideal.Laws

/-!
# The kernel's payloads read at an index

The attention body's pure values, at the extended reals, element by element: a tile's masked scores
are the inner products of query and key rows where the key's global position is at most the
query's and −∞ elsewhere (`tileScore_eq`); one grid point takes row r of the carried state (running
maximum, normaliser, accumulator) to the online-softmax step of that row with the tile's scores and
values (`rowSt_scStep`); the reset state is the initial state (`rowSt_scInit`); the output block is
accumulator over normaliser (`outOf_apply`). The projection body's payloads are the linear layers
(`k0_pay2_apply` and its two siblings). Each non-pointwise operation is read by one small lemma at
coordinates of literal extents: the three contractions, the column broadcasts and casts, the row
maximum and row sum, the causal bit as a comparison of natural numbers, the named minus infinity.
-/

noncomputable section

namespace Cert.KernelIdeal.Hand

open Cert.KernelIdeal Cert.KernelIdeal.Gen Idealize.ShloMosaic Idealize.ShloMosaic.ValueIdx
  Cert.Lib.OnlineSoftmax

/-! ### The three contractions read at an index -/

/-- Scores contraction, left operand, batch axis: the output's batch coordinate. -/
theorem qk_lhs_0 (i : S1x1024x1024.Idx) (q : dot_S1x1024x256_S1x1024x256_S1x1024x1024_2_2_1_1_0_0.contr.Idx) :
    (dot_S1x1024x256_S1x1024x256_S1x1024x1024_2_2_1_1_0_0.lhsIdx i q 0).val = (i 0).val := by
  unfold DotDims.lhsIdx
  rw [dif_pos (show (0 : Fin S1x1024x256.rank) ∈ dot_S1x1024x256_S1x1024x256_S1x1024x1024_2_2_1_1_0_0.lhsBatch by decide)]
  rfl
/-- Scores contraction, left operand, row axis: the output's row coordinate. -/
theorem qk_lhs_1 (i : S1x1024x1024.Idx) (q : dot_S1x1024x256_S1x1024x256_S1x1024x1024_2_2_1_1_0_0.contr.Idx) :
    (dot_S1x1024x256_S1x1024x256_S1x1024x1024_2_2_1_1_0_0.lhsIdx i q 1).val = (i 1).val := by
  unfold DotDims.lhsIdx
  rw [dif_neg (show ¬(1 : Fin S1x1024x256.rank) ∈ dot_S1x1024x256_S1x1024x256_S1x1024x1024_2_2_1_1_0_0.lhsBatch by decide), dif_pos (show (1 : Fin S1x1024x256.rank) ∈ dot_S1x1024x256_S1x1024x256_S1x1024x1024_2_2_1_1_0_0.lhsNonContracting by decide)]
  rfl
/-- Scores contraction, left operand, contracted axis: the contraction coordinate. -/
theorem qk_lhs_2 (i : S1x1024x1024.Idx) (q : dot_S1x1024x256_S1x1024x256_S1x1024x1024_2_2_1_1_0_0.contr.Idx) :
    (dot_S1x1024x256_S1x1024x256_S1x1024x1024_2_2_1_1_0_0.lhsIdx i q 2).val = (q ⟨0, by decide⟩).val :=
  dot_S1x1024x256_S1x1024x256_S1x1024x1024_2_2_1_1_0_0.lhsIdx_val_of_single rfl i q
/-- Scores contraction, right operand, batch axis: the output's batch coordinate. -/
theorem qk_rhs_0 (i : S1x1024x1024.Idx) (q : dot_S1x1024x256_S1x1024x256_S1x1024x1024_2_2_1_1_0_0.contr.Idx) :
    (dot_S1x1024x256_S1x1024x256_S1x1024x1024_2_2_1_1_0_0.rhsIdx i q 0).val = (i 0).val := by
  unfold DotDims.rhsIdx
  rw [dif_pos (show (0 : Fin S1x1024x256.rank) ∈ dot_S1x1024x256_S1x1024x256_S1x1024x1024_2_2_1_1_0_0.rhsBatch by decide)]
  rfl
/-- Scores contraction, right operand, row axis: the output's column coordinate. -/
theorem qk_rhs_1 (i : S1x1024x1024.Idx) (q : dot_S1x1024x256_S1x1024x256_S1x1024x1024_2_2_1_1_0_0.contr.Idx) :
    (dot_S1x1024x256_S1x1024x256_S1x1024x1024_2_2_1_1_0_0.rhsIdx i q 1).val = (i 2).val := by
  unfold DotDims.rhsIdx
  rw [dif_neg (show ¬(1 : Fin S1x1024x256.rank) ∈ dot_S1x1024x256_S1x1024x256_S1x1024x1024_2_2_1_1_0_0.rhsBatch by decide), dif_pos (show (1 : Fin S1x1024x256.rank) ∈ dot_S1x1024x256_S1x1024x256_S1x1024x1024_2_2_1_1_0_0.rhsNonContracting by decide)]
  rfl
/-- Scores contraction, right operand, contracted axis: the contraction coordinate. -/
theorem qk_rhs_2 (i : S1x1024x1024.Idx) (q : dot_S1x1024x256_S1x1024x256_S1x1024x1024_2_2_1_1_0_0.contr.Idx) :
    (dot_S1x1024x256_S1x1024x256_S1x1024x1024_2_2_1_1_0_0.rhsIdx i q 2).val = (q ⟨0, by decide⟩).val :=
  dot_S1x1024x256_S1x1024x256_S1x1024x1024_2_2_1_1_0_0.rhsIdx_val_of_single rfl i q

/-- The scores contraction into the zero splat, at (0, r, c): the inner product of row r of the left
    operand and row c of the right operand. -/
theorem qk_apply {φ₁ φ₂ : FTy} (l : FVec Ideal S1x1024x256 φ₁) (r : FVec Ideal S1x1024x256 φ₂) (rr c : Fin 1024) :
    matmul dot_S1x1024x256_S1x1024x256_S1x1024x1024_2_2_1_1_0_0 none l r (constant (F := Ideal) S1x1024x1024 .f32 0x00000000#32) (ix3 0 rr c)
      = ∑ e : Fin 256, l (ix3 0 rr e) * r (ix3 0 c e) := by
  simp only [matmul]
  rw [Ideal.matmul_constant_zero_apply, ← Equiv.sum_comp (contrEquiv1 dot_S1x1024x256_S1x1024x256_S1x1024x1024_2_2_1_1_0_0 256 rfl rfl).symm]
  refine Finset.sum_congr rfl fun k _ => ?_
  have hk := contrEquiv1_symm_val dot_S1x1024x256_S1x1024x256_S1x1024x1024_2_2_1_1_0_0 256 rfl rfl k
  have el : dot_S1x1024x256_S1x1024x256_S1x1024x1024_2_2_1_1_0_0.lhsIdx (ix3 0 rr c) ((contrEquiv1 dot_S1x1024x256_S1x1024x256_S1x1024x1024_2_2_1_1_0_0 256 rfl rfl).symm k) = ix3 0 rr k := funext fun a => Fin.ext (by
    match a with
    | ⟨0, _⟩ => exact qk_lhs_0 _ _
    | ⟨1, _⟩ => exact qk_lhs_1 _ _
    | ⟨2, _⟩ => exact (qk_lhs_2 _ _).trans hk)
  have er : dot_S1x1024x256_S1x1024x256_S1x1024x1024_2_2_1_1_0_0.rhsIdx (ix3 0 rr c) ((contrEquiv1 dot_S1x1024x256_S1x1024x256_S1x1024x1024_2_2_1_1_0_0 256 rfl rfl).symm k) = ix3 0 c k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-- Values contraction, left operand, batch axis. -/
theorem pv_lhs_0 (i : S1x1024x256.Idx) (q : dot_S1x1024x1024_S1x1024x256_S1x1024x256_2_1_1_2_0_0.contr.Idx) :
    (dot_S1x1024x1024_S1x1024x256_S1x1024x256_2_1_1_2_0_0.lhsIdx i q 0).val = (i 0).val := by
  unfold DotDims.lhsIdx
  rw [dif_pos (show (0 : Fin S1x1024x1024.rank) ∈ dot_S1x1024x1024_S1x1024x256_S1x1024x256_2_1_1_2_0_0.lhsBatch by decide)]
  rfl
/-- Values contraction, left operand, row axis. -/
theorem pv_lhs_1 (i : S1x1024x256.Idx) (q : dot_S1x1024x1024_S1x1024x256_S1x1024x256_2_1_1_2_0_0.contr.Idx) :
    (dot_S1x1024x1024_S1x1024x256_S1x1024x256_2_1_1_2_0_0.lhsIdx i q 1).val = (i 1).val := by
  unfold DotDims.lhsIdx
  rw [dif_neg (show ¬(1 : Fin S1x1024x1024.rank) ∈ dot_S1x1024x1024_S1x1024x256_S1x1024x256_2_1_1_2_0_0.lhsBatch by decide), dif_pos (show (1 : Fin S1x1024x1024.rank) ∈ dot_S1x1024x1024_S1x1024x256_S1x1024x256_2_1_1_2_0_0.lhsNonContracting by decide)]
  rfl
/-- Values contraction, left operand, contracted axis. -/
theorem pv_lhs_2 (i : S1x1024x256.Idx) (q : dot_S1x1024x1024_S1x1024x256_S1x1024x256_2_1_1_2_0_0.contr.Idx) :
    (dot_S1x1024x1024_S1x1024x256_S1x1024x256_2_1_1_2_0_0.lhsIdx i q 2).val = (q ⟨0, by decide⟩).val :=
  dot_S1x1024x1024_S1x1024x256_S1x1024x256_2_1_1_2_0_0.lhsIdx_val_of_single rfl i q
/-- Values contraction, right operand, batch axis. -/
theorem pv_rhs_0 (i : S1x1024x256.Idx) (q : dot_S1x1024x1024_S1x1024x256_S1x1024x256_2_1_1_2_0_0.contr.Idx) :
    (dot_S1x1024x1024_S1x1024x256_S1x1024x256_2_1_1_2_0_0.rhsIdx i q 0).val = (i 0).val := by
  unfold DotDims.rhsIdx
  rw [dif_pos (show (0 : Fin S1x1024x256.rank) ∈ dot_S1x1024x1024_S1x1024x256_S1x1024x256_2_1_1_2_0_0.rhsBatch by decide)]
  rfl
/-- Values contraction, right operand, contracted axis. -/
theorem pv_rhs_1 (i : S1x1024x256.Idx) (q : dot_S1x1024x1024_S1x1024x256_S1x1024x256_2_1_1_2_0_0.contr.Idx) :
    (dot_S1x1024x1024_S1x1024x256_S1x1024x256_2_1_1_2_0_0.rhsIdx i q 1).val = (q ⟨0, by decide⟩).val :=
  dot_S1x1024x1024_S1x1024x256_S1x1024x256_2_1_1_2_0_0.rhsIdx_val_of_single rfl i q
/-- Values contraction, right operand, column axis. -/
theorem pv_rhs_2 (i : S1x1024x256.Idx) (q : dot_S1x1024x1024_S1x1024x256_S1x1024x256_2_1_1_2_0_0.contr.Idx) :
    (dot_S1x1024x1024_S1x1024x256_S1x1024x256_2_1_1_2_0_0.rhsIdx i q 2).val = (i 2).val := by
  unfold DotDims.rhsIdx
  rw [dif_neg (show ¬(2 : Fin S1x1024x256.rank) ∈ dot_S1x1024x1024_S1x1024x256_S1x1024x256_2_1_1_2_0_0.rhsBatch by decide), dif_pos (show (2 : Fin S1x1024x256.rank) ∈ dot_S1x1024x1024_S1x1024x256_S1x1024x256_2_1_1_2_0_0.rhsNonContracting by decide)]
  rfl

/-- The values contraction into the zero splat, at (0, r, d): the sum over c of the left operand at
    (0, r, c) times the right operand at (0, c, d). -/
theorem pv_apply {φ₁ φ₂ : FTy} (l : FVec Ideal S1x1024x1024 φ₁) (r : FVec Ideal S1x1024x256 φ₂) (rr : Fin 1024) (d : Fin 256) :
    matmul dot_S1x1024x1024_S1x1024x256_S1x1024x256_2_1_1_2_0_0 none l r (constant (F := Ideal) S1x1024x256 .f32 0x00000000#32) (ix3 0 rr d)
      = ∑ c : Fin 1024, l (ix3 0 rr c) * r (ix3 0 c d) := by
  simp only [matmul]
  rw [Ideal.matmul_constant_zero_apply, ← Equiv.sum_comp (contrEquiv1 dot_S1x1024x1024_S1x1024x256_S1x1024x256_2_1_1_2_0_0 1024 rfl rfl).symm]
  refine Finset.sum_congr rfl fun k _ => ?_
  have hk := contrEquiv1_symm_val dot_S1x1024x1024_S1x1024x256_S1x1024x256_2_1_1_2_0_0 1024 rfl rfl k
  have el : dot_S1x1024x1024_S1x1024x256_S1x1024x256_2_1_1_2_0_0.lhsIdx (ix3 0 rr d) ((contrEquiv1 dot_S1x1024x1024_S1x1024x256_S1x1024x256_2_1_1_2_0_0 1024 rfl rfl).symm k) = ix3 0 rr k := funext fun a => Fin.ext (by
    match a with
    | ⟨0, _⟩ => exact pv_lhs_0 _ _
    | ⟨1, _⟩ => exact pv_lhs_1 _ _
    | ⟨2, _⟩ => exact (pv_lhs_2 _ _).trans hk)
  have er : dot_S1x1024x1024_S1x1024x256_S1x1024x256_2_1_1_2_0_0.rhsIdx (ix3 0 rr d) ((contrEquiv1 dot_S1x1024x1024_S1x1024x256_S1x1024x256_2_1_1_2_0_0 1024 rfl rfl).symm k) = ix3 0 k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-- Linear-layer contraction, left operand, row axis. -/
theorem lin_lhs_0 (i : S2048x256.Idx) (q : dot_S2048x256_S256x256_S2048x256_1_1_0_0_n_n.contr.Idx) :
    (dot_S2048x256_S256x256_S2048x256_1_1_0_0_n_n.lhsIdx i q 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
/-- Linear-layer contraction, left operand, contracted axis. -/
theorem lin_lhs_1 (i : S2048x256.Idx) (q : dot_S2048x256_S256x256_S2048x256_1_1_0_0_n_n.contr.Idx) :
    (dot_S2048x256_S256x256_S2048x256_1_1_0_0_n_n.lhsIdx i q 1).val = (q ⟨0, by decide⟩).val :=
  dot_S2048x256_S256x256_S2048x256_1_1_0_0_n_n.lhsIdx_val_of_single rfl i q
/-- Linear-layer contraction, right operand, row axis: the output's column coordinate. -/
theorem lin_rhs_0 (i : S2048x256.Idx) (q : dot_S2048x256_S256x256_S2048x256_1_1_0_0_n_n.contr.Idx) :
    (dot_S2048x256_S256x256_S2048x256_1_1_0_0_n_n.rhsIdx i q 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
/-- Linear-layer contraction, right operand, contracted axis. -/
theorem lin_rhs_1 (i : S2048x256.Idx) (q : dot_S2048x256_S256x256_S2048x256_1_1_0_0_n_n.contr.Idx) :
    (dot_S2048x256_S256x256_S2048x256_1_1_0_0_n_n.rhsIdx i q 1).val = (q ⟨0, by decide⟩).val :=
  dot_S2048x256_S256x256_S2048x256_1_1_0_0_n_n.rhsIdx_val_of_single rfl i q

/-- The linear layer's contraction into the zero splat, at (p, e): row p of the left operand against
    row e of the right operand. -/
theorem lin_apply {φ₁ φ₂ : FTy} (l : FVec Ideal S2048x256 φ₁) (r : FVec Ideal S256x256 φ₂) (p : Fin 2048) (e : Fin 256) :
    matmul dot_S2048x256_S256x256_S2048x256_1_1_0_0_n_n none l r (constant (F := Ideal) S2048x256 .f32 0x00000000#32) (ix2 p e)
      = ∑ d : Fin 256, l (ix2 p d) * r (ix2 e d) := by
  simp only [matmul]
  rw [Ideal.matmul_constant_zero_apply, ← Equiv.sum_comp (contrEquiv1 dot_S2048x256_S256x256_S2048x256_1_1_0_0_n_n 256 rfl rfl).symm]
  refine Finset.sum_congr rfl fun k _ => ?_
  have hk := contrEquiv1_symm_val dot_S2048x256_S256x256_S2048x256_1_1_0_0_n_n 256 rfl rfl k
  have el : dot_S2048x256_S256x256_S2048x256_1_1_0_0_n_n.lhsIdx (ix2 p e) ((contrEquiv1 dot_S2048x256_S256x256_S2048x256_1_1_0_0_n_n 256 rfl rfl).symm k) = ix2 p k := funext fun a => Fin.ext (by
    match a with
    | ⟨0, _⟩ => exact lin_lhs_0 _ _
    | ⟨1, _⟩ => exact (lin_lhs_1 _ _).trans hk)
  have er : dot_S2048x256_S256x256_S2048x256_1_1_0_0_n_n.rhsIdx (ix2 p e) ((contrEquiv1 dot_S2048x256_S256x256_S2048x256_1_1_0_0_n_n 256 rfl rfl).symm k) = ix2 e k := funext fun a => Fin.ext (by
    match a with
    | ⟨0, _⟩ => exact lin_rhs_0 _ _
    | ⟨1, _⟩ => exact (lin_rhs_1 _ _).trans hk)
  rw [el, er]

/-! ### Layout operations, reductions, the mask bit and the named constant, at an index -/

/-- A column [1, 1024, 1] broadcast along a last axis of any extent reads, at (0, r, c), the column at row r. -/
theorem bcast_col_apply {α : Type} {n : ℕ} (x : S1x1024x1.Idx → α)
    (h : S1x1024x1.Broadcasts (⟨3, ![1, 1024, n]⟩ : Shape)) (r : Fin 1024) (c : Fin n) :
    broadcastTo (⟨3, ![1, 1024, n]⟩ : Shape) x h (ix3 0 r c) = x (ix3 0 r 0) := by
  refine broadcastTo_apply x h (ix3 0 r c) (ix3 0 r 0) fun a => ?_
  match a with
  | ⟨0, _⟩ => rfl
  | ⟨1, _⟩ => rfl
  | ⟨2, _⟩ => rfl

/-- A [1, 1024] array cast to a column [1, 1024, 1] reads, at (0, r, 0), the array at (0, r). -/
theorem cast_col_apply {α : Type} (x : S1x1024.Idx → α) (h : S1x1024.ShapeCasts S1x1024x1) (r : Fin 1024) :
    shapeCast S1x1024x1 x h (ix3 0 r 0) = x (ix2 0 r) :=
  shapeCast_apply x h _ _ (by
    rw [Shape.rowMajor_val_two, Shape.rowMajor_val_three]
    show 0 * 1024 + r.val = (0 * 1024 + r.val) * 1 + 0
    omega)

/-- A bias [256] cast to one row and broadcast over 2048 rows reads, at (p, e), the bias at e. -/
theorem bias_rows_apply {α : Type} (v : S256.Idx → α) (h1 : S256.ShapeCasts S1x256)
    (h2 : S1x256.Broadcasts S2048x256) (p : Fin 2048) (e : Fin 256) :
    broadcastTo S2048x256 (shapeCast S1x256 v h1) h2 (ix2 p e) = v (ValueIdx.ix1 e) := by
  rw [broadcastTo_1b_ab_apply, shapeCast_a_1a_apply]

/-- The reduced index (0, r) with column c put back on the last axis is (0, r, c). -/
theorem lift_row (h : S1x1024x1024.Reduces [2] S1x1024) (r c : Fin 1024) :
    h.lift (ix2 0 r) c = ix3 0 r c :=
  funext fun a => Fin.ext (by match a with | ⟨0, _⟩ => rfl | ⟨1, _⟩ => rfl | ⟨2, _⟩ => rfl)

/-- The maximum reduction along the last axis from −∞, at row r: the maximum from −∞ of the row. -/
theorem rowmax_apply (src : FVec Ideal S1x1024x1024 .f32) (h : S1x1024x1024.Reduces [2] S1x1024)
    (hφ : FKind.Formats .f32) (hacc : (0xFF800000#32 : BitVec 32) = 0xFF800000#32)
    (r : Fin 1024) :
    multiReduction .maximumf [2] S1x1024 src 0xFF800000#32 h hφ hacc (ix2 0 r)
      = Finset.univ.fold max ⊥ (fun c : Fin 1024 => src (ix3 0 r c)) := by
  refine (Ideal.multiReduction_maximumf_single src 0xFF800000#32 h hφ hacc (ix2 0 r)).trans ?_
  show (Finset.univ : Finset (Fin 1024)).fold max (Ideal.ofBits .f32 0xFF800000#32)
    (fun c => src (h.lift (ix2 0 r) c)) = _
  have hb : Ideal.ofBits .f32 0xFF800000#32 = ⊥ := by simp [Ideal.ofBits, Ideal.ieee]
  rw [hb]
  exact congrArg (fun f => Finset.fold max ⊥ f (Finset.univ : Finset (Fin 1024)))
    (funext fun (c : Fin 1024) => congrArg src (lift_row h r c))

/-- The sum reduction along the last axis from 0, at row r: the sum of the row. -/
theorem rowsum_apply (src : FVec Ideal S1x1024x1024 .f32) (h : S1x1024x1024.Reduces [2] S1x1024)
    (hφ : FKind.Formats .f32) (hacc : (0x00000000#32 : BitVec 32) = 0x00000000#32)
    (r : Fin 1024) :
    multiReduction .add [2] S1x1024 src 0x00000000#32 h hφ hacc (ix2 0 r)
      = ∑ c : Fin 1024, src (ix3 0 r c) := by
  refine (Ideal.multiReduction_add_single src 0x00000000#32 h hφ hacc (ix2 0 r)).trans ?_
  show ∑ c : Fin 1024, src (h.lift (ix2 0 r) c) = _
  exact Finset.sum_congr rfl fun (c : Fin 1024) _ => congrArg src (lift_row h r c)

/-- The named minus infinity is −∞ at the extended reals. -/
theorem neg_big : Named.named (F := Ideal) κ "neg_big" (φ := .f32) 0xFF333332#32 = ⊥ :=
  IdealRules.named_const.ideal_named_scalar _ _ _ _ rfl

/-- A tile word below 4 times 1024 plus an offset below 1024, as a 32-bit word, is that natural
    number, read signed. -/
theorem toInt_tile (w : BitVec 32) (hw : w.toNat < 4) (c : Fin 1024) :
    (Scalar.muli w 1024#32 + BitVec.ofNat 32 c.val).toInt = ((1024 * w.toNat + c.val : ℕ) : Int) := by
  have hc := c.isLt
  have hn : (Scalar.muli w 1024#32 + BitVec.ofNat 32 c.val).toNat = 1024 * w.toNat + c.val := by
    show (w * 1024#32 + BitVec.ofNat 32 c.val).toNat = _
    rw [BitVec.toNat_add, BitVec.toNat_mul, BitVec.toNat_ofNat]
    show (w.toNat * 1024 % 2 ^ 32 + c.val % 2 ^ 32) % 2 ^ 32 = _
    omega
  rw [BitVec.toInt_eq_toNat_of_lt (by rw [hn]; omega), hn]

/-- The causal bit of a tile pair: the signed comparison of the key's global position against the
    query's is 1 exactly when the natural numbers compare so. -/
theorem mask_bit (w0 w1 : BitVec 32) (hw0 : w0.toNat < 4) (hw1 : w1.toNat < 4) (r c : Fin 1024) :
    IntOp.cmpi .sle (Scalar.muli w1 1024#32 + BitVec.ofNat 32 c.val)
        (Scalar.muli w0 1024#32 + BitVec.ofNat 32 r.val)
      = if 1024 * w1.toNat + c.val ≤ 1024 * w0.toNat + r.val then 1#1 else 0#1 := by
  unfold IntOp.cmpi
  simp only [BitVec.sle]
  rw [toInt_tile w1 hw1 c, toInt_tile w0 hw0 r]
  by_cases h : 1024 * w1.toNat + c.val ≤ 1024 * w0.toNat + r.val
  · rw [if_pos h]
    have h' : ((1024 * w1.toNat + c.val : ℕ) : Int) ≤ ((1024 * w0.toNat + r.val : ℕ) : Int) := by
      exact_mod_cast h
    rw [decide_eq_true h']
    rfl
  · rw [if_neg h]
    have h' : ¬ ((1024 * w1.toNat + c.val : ℕ) : Int) ≤ ((1024 * w0.toNat + r.val : ℕ) : Int) := by
      exact_mod_cast h
    rw [decide_eq_false h']
    rfl

/-! ### The attention body's payloads at an index -/

/-- Row r of a carried state as the library's running state. -/
def rowSt (s : Sc Ideal) (r : Fin 1024) : St (Fin 256) :=
  ⟨s.m (ix3 0 r 0), s.l (ix3 0 r 0), fun d => s.a (ix3 0 r d)⟩

/-- The masked score of query row r against key row c of the tile pair (w0 the query tile, w1 the
    key tile). -/
def tileScore (w0 w1 : BitVec 32) (xq xk : Vec Ideal S1x1024x256 .bf16) (r c : Fin 1024) : EReal :=
  k1_pay9 w0 w1 xq xk (ix3 0 r c)

/-- The masked score: the inner product of query row r and key row c where the key's global position
    1024·w1 + c is at most the query's 1024·w0 + r, and −∞ elsewhere. -/
theorem tileScore_eq (w0 w1 : BitVec 32) (hw0 : w0.toNat < 4) (hw1 : w1.toNat < 4)
    (xq xk : Vec Ideal S1x1024x256 .bf16) (r c : Fin 1024) :
    tileScore w0 w1 xq xk r c
      = if 1024 * w1.toNat + c.val ≤ 1024 * w0.toNat + r.val
          then ∑ e : Fin 256, xq (ix3 0 r e) * xk (ix3 0 c e) else ⊥ := by
  unfold tileScore k1_pay9
  show Scalar.select
      (IntOp.cmpi .sle
        (Scalar.muli w1 1024#32 + iota .tc S1x1024x1024 32 [2] _ (ix3 0 r c))
        (Scalar.muli w0 1024#32 + iota .tc S1x1024x1024 32 [1] _ (ix3 0 r c)))
      (matmul dot_S1x1024x256_S1x1024x256_S1x1024x1024_2_2_1_1_0_0 none
        (shapeCast S1x1024x256 xq _) (shapeCast S1x1024x256 xk _)
        (constant (F := Ideal) S1x1024x1024 .f32 0x00000000#32) (ix3 0 r c))
      (Named.named (F := Ideal) κ "neg_big" (φ := .f32) 0xFF333332#32) = _
  have i2 : ∀ h, iota .tc S1x1024x1024 32 [2] h (ix3 0 r c) = BitVec.ofNat 32 c.val :=
    fun h => iota_single_apply .tc S1x1024x1024 32 2 h (ix3 0 r c)
  have i1 : ∀ h, iota .tc S1x1024x1024 32 [1] h (ix3 0 r c) = BitVec.ofNat 32 r.val :=
    fun h => iota_single_apply .tc S1x1024x1024 32 1 h (ix3 0 r c)
  rw [i2, i1, shapeCast_self, shapeCast_self, qk_apply, neg_big, mask_bit w0 w1 hw0 hw1 r c]
  by_cases h : 1024 * w1.toNat + c.val ≤ 1024 * w0.toNat + r.val
  · rw [if_pos h, if_pos h, select_one]
  · rw [if_neg h, if_neg h, select_zero]

/-- The vector exponential at an index, at the extended reals. -/
theorem exp_apply {s : Shape} {φ : FTy} (a : FVec Ideal s φ) (i : s.Idx) : exp a i = Ideal.exp (a i) := rfl

/-- The new maximum at row r: the old maximum against the maximum from −∞ of the row's masked scores. -/
theorem pay10_apply (w0 w1 : BitVec 32) (xq xk : Vec Ideal S1x1024x256 .bf16)
    (m : Vec Ideal S1x1024x1 .f32) (r : Fin 1024) :
    k1_pay10 w0 w1 xq xk m (ix3 0 r 0)
      = max (m (ix3 0 r 0)) (Finset.univ.fold max ⊥ (fun c : Fin 1024 => tileScore w0 w1 xq xk r c)) := by
  unfold k1_pay10
  show maximumf m
    (shapeCast S1x1024x1 (multiReduction .maximumf [2] S1x1024 (k1_pay9 w0 w1 xq xk) 0xFF800000#32 _ _ _) _)
      (ix3 0 r 0) = _
  rw [maximumf_apply, cast_col_apply, rowmax_apply]
  unfold tileScore
  rfl

/-- The rescaling factor at row r: exp(old maximum − new maximum). -/
theorem pay11_apply (w0 w1 : BitVec 32) (xq xk : Vec Ideal S1x1024x256 .bf16)
    (m : Vec Ideal S1x1024x1 .f32) (r : Fin 1024) :
    k1_pay11 w0 w1 xq xk m (ix3 0 r 0)
      = Ideal.exp (m (ix3 0 r 0) - k1_pay10 w0 w1 xq xk m (ix3 0 r 0)) := by
  unfold k1_pay11
  show exp (subf m (k1_pay10 w0 w1 xq xk m)) (ix3 0 r 0) = _
  rw [exp_apply, subf_apply]

/-- The tile's weight at (r, c): exp(masked score − new maximum of row r). -/
theorem pay12_apply (w0 w1 : BitVec 32) (xq xk : Vec Ideal S1x1024x256 .bf16)
    (m : Vec Ideal S1x1024x1 .f32) (r c : Fin 1024) :
    k1_pay12 w0 w1 xq xk m (ix3 0 r c)
      = Ideal.exp (tileScore w0 w1 xq xk r c - k1_pay10 w0 w1 xq xk m (ix3 0 r 0)) := by
  unfold k1_pay12 tileScore
  show exp (subf (k1_pay9 w0 w1 xq xk) (broadcastTo S1x1024x1024 (k1_pay10 w0 w1 xq xk m) _))
    (ix3 0 r c) = _
  rw [exp_apply, subf_apply, bcast_col_apply]

/-- The new normaliser at row r: factor times old normaliser plus the sum of the tile's weights. -/
theorem pay1_apply (v30 : FVec Ideal S1x1024x1 .f32) (v33 : FVec Ideal S1x1024x1024 .f32)
    (v34 : Vec Ideal S1x1024x1 .f32) (r : Fin 1024) :
    k1_pay1 v30 v33 v34 (ix3 0 r 0)
      = v30 (ix3 0 r 0) * v34 (ix3 0 r 0) + ∑ c : Fin 1024, v33 (ix3 0 r c) := by
  unfold k1_pay1
  show shapeCast S1x1024x1 (addf (mulf v30 v34)
    (shapeCast S1x1024x1 (multiReduction .add [2] S1x1024 v33 0x00000000#32 _ _ _) _)) _ (ix3 0 r 0) = _
  rw [shapeCast_self, addf_apply, mulf_apply, cast_col_apply, rowsum_apply]

/-- The new accumulator at (r, d): factor times old accumulator plus the sum over the tile of weight
    times value. -/
theorem pay2_apply (v12 : FVec Ideal S1x1024x256 .bf16) (v30 : FVec Ideal S1x1024x1 .f32)
    (v33 : FVec Ideal S1x1024x1024 .f32) (v42 : Vec Ideal S1x1024x256 .f32) (r : Fin 1024) (d : Fin 256) :
    k1_pay2 v12 v30 v33 v42 (ix3 0 r d)
      = v30 (ix3 0 r 0) * v42 (ix3 0 r d) + ∑ c : Fin 1024, v33 (ix3 0 r c) * v12 (ix3 0 c d) := by
  unfold k1_pay2
  show shapeCast S1x1024x256 (addf (mulf (broadcastTo S1x1024x256 v30 _) v42)
    (matmul dot_S1x1024x1024_S1x1024x256_S1x1024x256_2_1_1_2_0_0 none (truncf .bf16 v33 _) v12
      (constant (F := Ideal) S1x1024x256 .f32 0x00000000#32))) _ (ix3 0 r d) = _
  rw [shapeCast_self, addf_apply, mulf_apply, bcast_col_apply, pv_apply]
  simp only [truncf_apply]

/-- The stored maximum is the new maximum. -/
theorem pay3_eq (v : FVec Ideal S1x1024x1 .f32) : k1_pay3 v = v := by
  unfold k1_pay3
  exact shapeCast_self _ _

/-- The value block as the body passes it on is the block read. -/
theorem pay8_eq (v : Vec Ideal S1x1024x256 .bf16) : k1_pay8 v = v := by
  unfold k1_pay8
  exact shapeCast_self _ _

/-- The reset maximum is −∞ at every row. -/
theorem pay5_apply (j : S1x1024x1.Idx) : k1_pay5 (F := Ideal) j = ⊥ := by
  unfold k1_pay5
  show shapeCast S1x1024x1
    (broadcast S1x1024x1 (Named.named (F := Ideal) κ "neg_big" (φ := .f32) 0xFF333332#32)) _ j = _
  rw [shapeCast_self, broadcast_apply]
  exact neg_big

/-- The reset normaliser is 0 at every row. -/
theorem pay6_apply (j : S1x1024x1.Idx) : k1_pay6 (F := Ideal) j = 0 := by
  unfold k1_pay6
  show shapeCast S1x1024x1 (broadcast S1x1024x1 (Scalar.ofBits (F := Ideal) .f32 0x00000000#32)) _ j = _
  rw [shapeCast_self, broadcast_apply]
  exact Ideal.ofBits_zero_f32

/-- The reset accumulator is 0 everywhere. -/
theorem pay7_apply (j : S1x1024x256.Idx) : k1_pay7 (F := Ideal) j = 0 := by
  unfold k1_pay7
  show shapeCast S1x1024x256 (broadcast S1x1024x256 (Scalar.ofBits (F := Ideal) .f32 0x00000000#32)) _ j = _
  rw [shapeCast_self, broadcast_apply]
  exact Ideal.ofBits_zero_f32

/-- The reset state, row by row, is the library's initial state. -/
theorem rowSt_scInit (r : Fin 1024) : rowSt scInit r = init := by
  unfold rowSt scInit init
  rw [St.mk.injEq]
  exact ⟨pay5_apply (ix3 0 r 0), pay6_apply (ix3 0 r 0), funext fun d => pay7_apply (ix3 0 r d)⟩

/-- The output block at (r, d): accumulator over normaliser of row r. -/
theorem outOf_apply (s : Sc Ideal) (r : Fin 1024) (d : Fin 256) :
    outOf s (ix3 0 r d) = Ideal.div (s.a (ix3 0 r d)) (s.l (ix3 0 r 0)) := by
  unfold outOf k1_pay4
  show divf (F := Ideal) (φ := .f32) s.a (broadcastTo S1x1024x256 s.l _) (ix3 0 r d) = _
  rw [divf_apply, bcast_col_apply]

/-- ONE GRID POINT IS ONE TILE STEP. Row r of the state a point leaves is the library's step, with the
    tile's masked scores of row r and the value block's rows, from row r of the state the point
    computes from. -/
theorem rowSt_scStep (w0 w1 : BitVec 32) (xq xk xv : Vec Ideal S1x1024x256 .bf16) (s : Sc Ideal)
    (r : Fin 1024) :
    rowSt (scStep w0 w1 xq xk xv s) r
      = step (fun c : Fin 1024 => tileScore w0 w1 xq xk r c)
          (fun (c : Fin 1024) (d : Fin 256) => xv (ix3 0 c d)) (rowSt (scPrev w1 s) r) := by
  have hM := pay10_apply w0 w1 xq xk (scPrev w1 s).m r
  unfold rowSt step scStep
  rw [St.mk.injEq]
  refine ⟨?_, ?_, funext fun d => ?_⟩
  · show k1_pay3 (k1_pay10 w0 w1 xq xk (scPrev w1 s).m) (ix3 0 r 0)
      = max ((scPrev w1 s).m (ix3 0 r 0))
          (Finset.univ.fold max ⊥ fun c : Fin 1024 => tileScore w0 w1 xq xk r c)
    rw [pay3_eq, hM]
  · show k1_pay1 (k1_pay11 w0 w1 xq xk (scPrev w1 s).m) (k1_pay12 w0 w1 xq xk (scPrev w1 s).m)
        (scPrev w1 s).l (ix3 0 r 0)
      = Ideal.exp ((scPrev w1 s).m (ix3 0 r 0) - max ((scPrev w1 s).m (ix3 0 r 0))
            (Finset.univ.fold max ⊥ fun c : Fin 1024 => tileScore w0 w1 xq xk r c))
          * (scPrev w1 s).l (ix3 0 r 0)
        + ∑ c : Fin 1024, Ideal.exp (tileScore w0 w1 xq xk r c - max ((scPrev w1 s).m (ix3 0 r 0))
            (Finset.univ.fold max ⊥ fun c : Fin 1024 => tileScore w0 w1 xq xk r c))
    rw [pay1_apply, pay11_apply, hM]
    simp only [pay12_apply, hM]
  · show k1_pay2 (k1_pay8 xv) (k1_pay11 w0 w1 xq xk (scPrev w1 s).m)
        (k1_pay12 w0 w1 xq xk (scPrev w1 s).m) (scPrev w1 s).a (ix3 0 r d)
      = Ideal.exp ((scPrev w1 s).m (ix3 0 r 0) - max ((scPrev w1 s).m (ix3 0 r 0))
            (Finset.univ.fold max ⊥ fun c : Fin 1024 => tileScore w0 w1 xq xk r c))
          * (scPrev w1 s).a (ix3 0 r d)
        + ∑ c : Fin 1024, Ideal.exp (tileScore w0 w1 xq xk r c - max ((scPrev w1 s).m (ix3 0 r 0))
            (Finset.univ.fold max ⊥ fun c : Fin 1024 => tileScore w0 w1 xq xk r c)) * xv (ix3 0 c d)
    rw [pay2_apply, pay11_apply, pay8_eq, hM]
    simp only [pay12_apply, hM]

/-! ### The projection body's payloads at an index -/

/-- The input block as the contractions read it is the block loaded. -/
theorem pay01_apply (v0 : Vec Ideal S2048x256 .f32) (i : S2048x256.Idx) : k0_pay1 v0 i = v0 i := by
  unfold k0_pay1
  show truncf (F := Ideal) (φ := .f32) .bf16 (shapeCast S2048x256 v0 _) _ i = _
  rw [truncf_apply, shapeCast_self]

/-- The first linear layer at (p, e): row p of the input against row e of the weights, plus the bias
    at e. -/
theorem k0_pay2_apply (x0 : Vec Ideal S2048x256 .f32) (W : Vec Ideal S256x256 .f32)
    (bias : Vec Ideal S256 .f32) (p : Fin 2048) (e : Fin 256) :
    k0_pay2 x0 W bias (ix2 p e)
      = (∑ d : Fin 256, x0 (ix2 p d) * W (ix2 e d)) + bias (ValueIdx.ix1 e) := by
  unfold k0_pay2
  show truncf .bf16 (addf
    (matmul dot_S2048x256_S256x256_S2048x256_1_1_0_0_n_n none (k0_pay1 x0) (truncf .bf16 W _)
      (constant (F := Ideal) S2048x256 .f32 0x00000000#32))
    (broadcastTo S2048x256 (shapeCast S1x256 bias _) _)) _ (ix2 p e) = _
  rw [truncf_apply, addf_apply, lin_apply, bias_rows_apply]
  simp only [pay01_apply, truncf_apply]

/-- The second linear layer at (p, e). -/
theorem k0_pay3_apply (x0 : Vec Ideal S2048x256 .f32) (W : Vec Ideal S256x256 .f32)
    (bias : Vec Ideal S256 .f32) (p : Fin 2048) (e : Fin 256) :
    k0_pay3 x0 W bias (ix2 p e)
      = (∑ d : Fin 256, x0 (ix2 p d) * W (ix2 e d)) + bias (ValueIdx.ix1 e) := by
  unfold k0_pay3
  show truncf .bf16 (addf
    (matmul dot_S2048x256_S256x256_S2048x256_1_1_0_0_n_n none (k0_pay1 x0) (truncf .bf16 W _)
      (constant (F := Ideal) S2048x256 .f32 0x00000000#32))
    (broadcastTo S2048x256 (shapeCast S1x256 bias _) _)) _ (ix2 p e) = _
  rw [truncf_apply, addf_apply, lin_apply, bias_rows_apply]
  simp only [pay01_apply, truncf_apply]

/-- The third linear layer at (p, e). -/
theorem k0_pay4_apply (x0 : Vec Ideal S2048x256 .f32) (W : Vec Ideal S256x256 .f32)
    (bias : Vec Ideal S256 .f32) (p : Fin 2048) (e : Fin 256) :
    k0_pay4 x0 W bias (ix2 p e)
      = (∑ d : Fin 256, x0 (ix2 p d) * W (ix2 e d)) + bias (ValueIdx.ix1 e) := by
  unfold k0_pay4
  show truncf .bf16 (addf
    (matmul dot_S2048x256_S256x256_S2048x256_1_1_0_0_n_n none (k0_pay1 x0) (truncf .bf16 W _)
      (constant (F := Ideal) S2048x256 .f32 0x00000000#32))
    (broadcastTo S2048x256 (shapeCast S1x256 bias _) _)) _ (ix2 p e) = _
  rw [truncf_apply, addf_apply, lin_apply, bias_rows_apply]
  simp only [pay01_apply, truncf_apply]

/-! ### Every index of a block by its coordinates -/

/-- Every index of a [1, 1024, 256] block is (0, r, d). -/
theorem eq_ix3_block (j : S1x1024x256.Idx) : ∃ (r : Fin 1024) (d : Fin 256), j = ix3 0 r d :=
  ⟨j 1, j 2, funext fun a => by
    match a with
    | ⟨0, h⟩ => exact Fin.ext (Nat.lt_one_iff.1 (j ⟨0, h⟩).isLt)
    | ⟨1, _⟩ => rfl
    | ⟨2, _⟩ => rfl⟩

/-- Every index of a [1, 1024, 1] column is (0, r, 0). -/
theorem eq_ix3_col (j : S1x1024x1.Idx) : ∃ r : Fin 1024, j = ix3 0 r 0 :=
  ⟨j 1, funext fun a => by
    match a with
    | ⟨0, h⟩ => exact Fin.ext (Nat.lt_one_iff.1 (j ⟨0, h⟩).isLt)
    | ⟨1, _⟩ => rfl
    | ⟨2, h⟩ => exact Fin.ext (Nat.lt_one_iff.1 (j ⟨2, h⟩).isLt)⟩

/-- Every index of a [1, 1024, 1024] tile is (0, r, c). -/
theorem eq_ix3_tile (j : S1x1024x1024.Idx) : ∃ (r c : Fin 1024), j = ix3 0 r c :=
  ⟨j 1, j 2, funext fun a => by
    match a with
    | ⟨0, h⟩ => exact Fin.ext (Nat.lt_one_iff.1 (j ⟨0, h⟩).isLt)
    | ⟨1, _⟩ => rfl
    | ⟨2, _⟩ => rfl⟩

/-- Every index of a [2048, 256] block is (p, e). -/
theorem eq_ix2_rows (j : S2048x256.Idx) : ∃ (p : Fin 2048) (e : Fin 256), j = ix2 p e :=
  ⟨j 0, j 1, eq_ix2 j⟩

end Cert.KernelIdeal.Hand
-- ==== Proof.RefValue.lean ====
import proofs.«168436_j23081154249219_2_alg».proof.Proof.Gen.ReferenceIdeal.Read
import proofs.«168436_j23081154249219_2_alg».proof.Proof.LibOnlineSoftmax
import Idealize.ShloMosaic.Lib.ValueIdx
import Idealize.ShloMosaic.PureOps.Ideal.Laws

/-!
# The reference side: projections, causal softmax attention, index by index

The reference computes three linear layers q, k, v of the input (the input times the transposed
weights, plus a bias), the scores q·k without scaling, adds a causal mask (0 where the key position
is at most the query position, −∞ elsewhere), takes a softmax along key positions (subtract the row
maximum, exponentiate, divide by the row sum) and contracts the weights with v.

This module states that result as one function `refOut` of the seven argument arrays, read index by
index over literal extents (batch 4, sequence 4096, width 256), proves that the reference program's
result term is `refOut` (`ref_eq`), and, for real argument arrays, rewrites each element as one
quotient: the exp-weighted sum of the value projections over the sum of the weights (`refOut_div`).
-/

noncomputable section

namespace Cert.RefValue

open Idealize.ShloMosaic Idealize.ShloMosaic.ValueIdx Cert.ReferenceIdeal Cert.ReferenceIdeal.Gen
  Cert.ReferenceIdeal.Read Idealize.ShloMosaic.TcCoe Idealize.SL.Sem Idealize.ShloMosaic.StableHlo

/-! ### The specification: the reference's result, index by index -/

/-- A linear layer at (b, n, e): the row n of batch b of the input against row e of the weight
    matrix, plus the bias at e (the input times the transposed weights, plus the bias). -/
def proj (x : S4x4096x256.Idx → EReal) (W : S256x256.Idx → EReal) (bias : S256.Idx → EReal)
    (b : Fin 4) (n : Fin 4096) (e : Fin 256) : EReal :=
  (∑ d : Fin 256, x (ix3 b n d) * W (ix2 e d)) + bias (ix1 e)

/-- The attention score of query position n against key position k in batch b: the inner product
    of the query and key projections (no scaling). -/
def score (x : S4x4096x256.Idx → EReal) (Wq : S256x256.Idx → EReal) (bq : S256.Idx → EReal)
    (Wk : S256x256.Idx → EReal) (bk : S256.Idx → EReal) (b : Fin 4) (n k : Fin 4096) : EReal :=
  ∑ e : Fin 256, proj x Wq bq b n e * proj x Wk bk b k e

/-- The causally masked score: the score plus 0 on and below the diagonal (k ≤ n), plus −∞ above. -/
def mscore (x : S4x4096x256.Idx → EReal) (Wq : S256x256.Idx → EReal) (bq : S256.Idx → EReal)
    (Wk : S256x256.Idx → EReal) (bk : S256.Idx → EReal) (b : Fin 4) (n k : Fin 4096) : EReal :=
  score x Wq bq Wk bk b n k + (if k.val ≤ n.val then (0 : EReal) else ⊥)

/-- The maximum of the masked scores of row n of batch b, from −∞. -/
def rowmax (x : S4x4096x256.Idx → EReal) (Wq : S256x256.Idx → EReal) (bq : S256.Idx → EReal)
    (Wk : S256x256.Idx → EReal) (bk : S256.Idx → EReal) (b : Fin 4) (n : Fin 4096) : EReal :=
  Finset.univ.fold max ⊥ (fun k : Fin 4096 => mscore x Wq bq Wk bk b n k)

/-- The reference's result at (b, n, d): the sum over key positions k of the softmax weight
    exp(masked score − row maximum) / Σ exp(masked score − row maximum) times the value projection
    at (b, k, d). -/
def refAt (x : S4x4096x256.Idx → EReal) (Wq : S256x256.Idx → EReal) (bq : S256.Idx → EReal)
    (Wk : S256x256.Idx → EReal) (bk : S256.Idx → EReal) (Wv : S256x256.Idx → EReal)
    (bv : S256.Idx → EReal) (b : Fin 4) (n : Fin 4096) (d : Fin 256) : EReal :=
  ∑ k : Fin 4096,
    Ideal.div (Ideal.exp (mscore x Wq bq Wk bk b n k - rowmax x Wq bq Wk bk b n))
      (∑ k' : Fin 4096, Ideal.exp (mscore x Wq bq Wk bk b n k' - rowmax x Wq bq Wk bk b n))
      * proj x Wv bv b k d

/-- The reference's result as an array: `refAt` at the index's three coordinates. -/
def refOut (x : S4x4096x256.Idx → EReal) (Wq : S256x256.Idx → EReal) (bq : S256.Idx → EReal)
    (Wk : S256x256.Idx → EReal) (bk : S256.Idx → EReal) (Wv : S256x256.Idx → EReal)
    (bv : S256.Idx → EReal) : S4x4096x256.Idx → EReal :=
  fun i => refAt x Wq bq Wk bk Wv bv (i 0) (i 1) (i 2)

/-! ### The program's stages read at an index -/

/-- The linear layer's stage (a contraction plus a broadcast bias) at (b, n, e). -/
theorem v3_at (x0 : S4x4096x256.Idx → EReal) (x1 : S256x256.Idx → EReal) (x2 : S256.Idx → EReal)
    (b : Fin 4) (n : Fin 4096) (e : Fin 256) :
    val_main_v3 (F := Ideal) x0 x1 x2 (ix3 b n e) = proj x0 x1 x2 b n e := by
  rw [val_main_v3_apply, val_main_v0_apply, val_main_v2_apply, val_main_v1_apply]
  have e1 : ∀ d : Fin 256, lidx_main_v0 (ix3 b n e) d = ix3 b n d := fun d =>
    funext fun a => Fin.ext (by match a with | ⟨0, _⟩ => rfl | ⟨1, _⟩ => rfl | ⟨2, _⟩ => rfl)
  have e2 : ∀ d : Fin 256, ridx_main_v0 (ix3 b n e) d = ix2 e d := fun d =>
    funext fun a => Fin.ext (by match a with | ⟨0, _⟩ => rfl | ⟨1, _⟩ => rfl)
  have e3 : idx_main_v1 (idx_main_v2 (ix3 b n e)) = ix1 e :=
    funext fun a => Fin.ext (by match a with | ⟨0, _⟩ => rfl)
  simp only [e1, e2, e3, Ideal.addf_def]
  rfl

/-- The key projection is the same linear layer as the query projection, at other weights. -/
theorem v7_eq_v3 (x0 : S4x4096x256.Idx → EReal) (x3 : S256x256.Idx → EReal) (x4 : S256.Idx → EReal) :
    val_main_v7 (F := Ideal) x0 x3 x4 = val_main_v3 (F := Ideal) x0 x3 x4 := rfl

/-- The value projection is the same linear layer, at other weights. -/
theorem v11_eq_v3 (x0 : S4x4096x256.Idx → EReal) (x5 : S256x256.Idx → EReal) (x6 : S256.Idx → EReal) :
    val_main_v11 (F := Ideal) x0 x5 x6 = val_main_v3 (F := Ideal) x0 x5 x6 := rfl

/-- A natural number below 4096, as a 32-bit word read signed, is itself. -/
theorem toInt_small (k : Nat) (hk : k < 4096) : (BitVec.ofNat 32 k).toInt = (k : Int) := by
  rw [BitVec.toInt_ofNat']
  apply Int.bmod_eq_of_le <;> omega

/-- The lower-triangle bit: the signed comparison "row + 0 ≥ column" of two positions below 4096
    is 1 exactly when column ≤ row. -/
theorem tril_bit (n k : Fin 4096) :
    IntOp.cmpi .sge (IntOp.addi (BitVec.ofNat 32 n.val) 0#32) (BitVec.ofNat 32 k.val)
      = if k.val ≤ n.val then 1#1 else 0#1 := by
  unfold IntOp.cmpi IntOp.addi
  simp only [BitVec.add_zero, BitVec.sle]
  rw [toInt_small k.val k.isLt, toInt_small n.val n.isLt]
  by_cases h : k.val ≤ n.val
  · rw [if_pos h]; simp [h]
  · rw [if_neg h]; simp [h]

/-- The word 0xFF800000 denotes −∞. -/
theorem ofBits_neg_inf : Ideal.ofBits .f32 0xFF800000#32 = ⊥ := by simp [Ideal.ofBits, Ideal.ieee]

/-- The causal mask at (b, n, k): 0 when k ≤ n and −∞ otherwise. -/
theorem v18_at (b : Fin 4) (n k : Fin 4096) :
    val_main_v18 (F := Ideal) (ix3 b n k) = if k.val ≤ n.val then (0 : EReal) else ⊥ := by
  have e : idx_main_v17 (idx_main_v18 (ix3 b n k)) = ix2 n k :=
    funext fun a => Fin.ext (by match a with | ⟨0, _⟩ => rfl | ⟨1, _⟩ => rfl)
  rw [val_main_v18_apply, val_main_v17_apply, e, val_main_v15_apply, val_main_v14_apply,
    val_main_v13_apply, val_main_call0_v4_apply, val_main_call0_v2_apply, val_main_call0_v0_apply,
    val_main_call0_v1_apply, val_main_call0_c_apply, val_main_call0_v3_apply, val_main_v12_apply,
    val_main_c_apply, val_main_call0_v5_apply, val_main_call0_c_0_apply, val_main_call1_v0_apply,
    val_main_cst_apply, val_main_call1_v1_apply, val_main_cst_0_apply]
  show Scalar.select (Scalar.select (IntOp.cmpi .sge (IntOp.addi (BitVec.ofNat 32 n.val) 0#32)
      (BitVec.ofNat 32 k.val)) 1#1 0#1) (Ideal.ofBits .f32 0x00000000#32)
      (Ideal.ofBits .f32 0xFF800000#32) = _
  rw [tril_bit, Ideal.ofBits_zero_f32, ofBits_neg_inf]
  by_cases h : k.val ≤ n.val
  · rw [if_pos h, if_pos h, select_one, select_one]
  · rw [if_neg h, if_neg h, select_zero, select_zero]

/-- The score stage (the contraction of the query and key projections) at (b, n, k). -/
theorem v16_at (x0 : S4x4096x256.Idx → EReal) (x1 : S256x256.Idx → EReal) (x2 : S256.Idx → EReal)
    (x3 : S256x256.Idx → EReal) (x4 : S256.Idx → EReal) (b : Fin 4) (n k : Fin 4096) :
    val_main_v16 (F := Ideal) x0 x1 x2 x3 x4 (ix3 b n k) = score x0 x1 x2 x3 x4 b n k := by
  rw [val_main_v16_apply]
  have e1 : ∀ e : Fin 256, lidx_main_v16 (ix3 b n k) e = ix3 b n e := fun e =>
    funext fun a => Fin.ext (by match a with | ⟨0, _⟩ => rfl | ⟨1, _⟩ => rfl | ⟨2, _⟩ => rfl)
  have e2 : ∀ e : Fin 256, ridx_main_v16 (ix3 b n k) e = ix3 b k e := fun e =>
    funext fun a => Fin.ext (by match a with | ⟨0, _⟩ => rfl | ⟨1, _⟩ => rfl | ⟨2, _⟩ => rfl)
  simp only [e1, e2, v7_eq_v3, v3_at]
  rfl

/-- The masked score stage at (b, n, k). -/
theorem v19_at (x0 : S4x4096x256.Idx → EReal) (x1 : S256x256.Idx → EReal) (x2 : S256.Idx → EReal)
    (x3 : S256x256.Idx → EReal) (x4 : S256.Idx → EReal) (b : Fin 4) (n k : Fin 4096) :
    val_main_v19 (F := Ideal) x0 x1 x2 x3 x4 (ix3 b n k) = mscore x0 x1 x2 x3 x4 b n k := by
  rw [val_main_v19_apply, v16_at, v18_at, Ideal.addf_def]
  rfl

/-- The reduced index (b, n) with key position k put back on the last axis is (b, n, k). -/
theorem lift_at (hR : S4x4096x4096.Reduces [2] S4x4096) (b : Fin 4) (n k : Fin 4096) :
    hR.lift (ix2 b n) k = ix3 b n k :=
  funext fun c => Fin.ext (by match c with | ⟨0, _⟩ => rfl | ⟨1, _⟩ => rfl | ⟨2, _⟩ => rfl)

/-- The max-reduce stage over key positions, from −∞, at (b, n): the row maximum. -/
theorem v20_at (x0 : S4x4096x256.Idx → EReal) (x1 : S256x256.Idx → EReal) (x2 : S256.Idx → EReal)
    (x3 : S256x256.Idx → EReal) (x4 : S256.Idx → EReal) (b : Fin 4) (n : Fin 4096) :
    val_main_v20 (F := Ideal) x0 x1 x2 x3 x4 (ix2 b n) = rowmax x0 x1 x2 x3 x4 b n := by
  have hR : S4x4096x4096.Reduces [2] S4x4096 := by decide
  unfold val_main_v20
  refine (Host.reduce_eq_fold_single FloatOps.maximumf _ _ reducesTo_S4x4096x4096_S4x4096_d2 hR h_S_
    (ix2 b n)).trans ?_
  show (Finset.univ : Finset (Fin 4096)).fold max (Ideal.ofBits .f32 0xFF800000#32)
    (fun k => val_main_v19 (F := Ideal) x0 x1 x2 x3 x4 (hR.lift (ix2 b n) k)) = _
  rw [ofBits_neg_inf]
  unfold rowmax
  refine congrArg (fun f => Finset.fold max ⊥ f (Finset.univ : Finset (Fin 4096))) (funext fun (k : Fin 4096) => ?_)
  exact (congrArg (val_main_v19 (F := Ideal) x0 x1 x2 x3 x4) (lift_at hR b n k)).trans
    (v19_at x0 x1 x2 x3 x4 b n k)

/-- The maximum of −∞ and the max-reduce, at (b, n): the row maximum. -/
theorem v22_at (x0 : S4x4096x256.Idx → EReal) (x1 : S256x256.Idx → EReal) (x2 : S256.Idx → EReal)
    (x3 : S256x256.Idx → EReal) (x4 : S256.Idx → EReal) (b : Fin 4) (n : Fin 4096) :
    val_main_v22 (F := Ideal) x0 x1 x2 x3 x4 (ix2 b n) = rowmax x0 x1 x2 x3 x4 b n := by
  rw [val_main_v22_apply, val_main_v21_apply, val_main_cst_2_apply, v20_at]
  show max (Ideal.ofBits .f32 0xFF800000#32) (rowmax x0 x1 x2 x3 x4 b n) = _
  rw [ofBits_neg_inf]
  exact max_bot_left _

/-- The row maximum broadcast along key positions, at (b, n, k). -/
theorem v24_at (x0 : S4x4096x256.Idx → EReal) (x1 : S256x256.Idx → EReal) (x2 : S256.Idx → EReal)
    (x3 : S256x256.Idx → EReal) (x4 : S256.Idx → EReal) (b : Fin 4) (n k : Fin 4096) :
    val_main_v24 (F := Ideal) x0 x1 x2 x3 x4 (ix3 b n k) = rowmax x0 x1 x2 x3 x4 b n := by
  have e : idx_main_v23 (idx_main_v24 (ix3 b n k)) = ix2 b n :=
    funext fun a => Fin.ext (by match a with | ⟨0, _⟩ => rfl | ⟨1, _⟩ => rfl)
  rw [val_main_v24_apply, val_main_v23_apply, e, v22_at]

/-- The exponential stage at (b, n, k): exp(masked score − row maximum). -/
theorem v26_at (x0 : S4x4096x256.Idx → EReal) (x1 : S256x256.Idx → EReal) (x2 : S256.Idx → EReal)
    (x3 : S256x256.Idx → EReal) (x4 : S256.Idx → EReal) (b : Fin 4) (n k : Fin 4096) :
    val_main_v26 (F := Ideal) x0 x1 x2 x3 x4 (ix3 b n k)
      = Ideal.exp (mscore x0 x1 x2 x3 x4 b n k - rowmax x0 x1 x2 x3 x4 b n) := by
  rw [val_main_v26_apply, val_main_v25_apply, v19_at, v24_at]
  rfl

/-- The sum-reduce stage over key positions, from 0, at (b, n): the normaliser. -/
theorem v27_at (x0 : S4x4096x256.Idx → EReal) (x1 : S256x256.Idx → EReal) (x2 : S256.Idx → EReal)
    (x3 : S256x256.Idx → EReal) (x4 : S256.Idx → EReal) (b : Fin 4) (n : Fin 4096) :
    val_main_v27 (F := Ideal) x0 x1 x2 x3 x4 (ix2 b n)
      = ∑ k : Fin 4096, Ideal.exp (mscore x0 x1 x2 x3 x4 b n k - rowmax x0 x1 x2 x3 x4 b n) := by
  rw [val_main_v27_apply, val_main_cst_3_apply]
  have e : ∀ k : Fin 4096, idx_main_v27 (ix2 b n) k = ix3 b n k := fun k =>
    funext fun a => Fin.ext (by match a with | ⟨0, _⟩ => rfl | ⟨1, _⟩ => rfl | ⟨2, _⟩ => rfl)
  simp only [e, v26_at]
  show Ideal.ofBits .f32 0x00000000#32 + _ = _
  rw [Ideal.ofBits_zero_f32, zero_add]

/-- The normaliser broadcast along key positions, at (b, n, k). -/
theorem v29_at (x0 : S4x4096x256.Idx → EReal) (x1 : S256x256.Idx → EReal) (x2 : S256.Idx → EReal)
    (x3 : S256x256.Idx → EReal) (x4 : S256.Idx → EReal) (b : Fin 4) (n k : Fin 4096) :
    val_main_v29 (F := Ideal) x0 x1 x2 x3 x4 (ix3 b n k)
      = ∑ k' : Fin 4096, Ideal.exp (mscore x0 x1 x2 x3 x4 b n k' - rowmax x0 x1 x2 x3 x4 b n) := by
  have e : idx_main_v28 (idx_main_v29 (ix3 b n k)) = ix2 b n :=
    funext fun a => Fin.ext (by match a with | ⟨0, _⟩ => rfl | ⟨1, _⟩ => rfl)
  rw [val_main_v29_apply, val_main_v28_apply, e, v27_at]

/-- The softmax weight stage at (b, n, k): the exponential over the normaliser. -/
theorem v30_at (x0 : S4x4096x256.Idx → EReal) (x1 : S256x256.Idx → EReal) (x2 : S256.Idx → EReal)
    (x3 : S256x256.Idx → EReal) (x4 : S256.Idx → EReal) (b : Fin 4) (n k : Fin 4096) :
    val_main_v30 (F := Ideal) x0 x1 x2 x3 x4 (ix3 b n k)
      = Ideal.div (Ideal.exp (mscore x0 x1 x2 x3 x4 b n k - rowmax x0 x1 x2 x3 x4 b n))
          (∑ k' : Fin 4096, Ideal.exp (mscore x0 x1 x2 x3 x4 b n k' - rowmax x0 x1 x2 x3 x4 b n)) := by
  rw [val_main_v30_apply, v26_at, v29_at]
  rfl

/-- The last stage (weights against value projections) at (b, n, d). -/
theorem v31_at (x0 : S4x4096x256.Idx → EReal) (x1 : S256x256.Idx → EReal) (x2 : S256.Idx → EReal)
    (x3 : S256x256.Idx → EReal) (x4 : S256.Idx → EReal) (x5 : S256x256.Idx → EReal)
    (x6 : S256.Idx → EReal) (b : Fin 4) (n : Fin 4096) (d : Fin 256) :
    val_main_v31 (F := Ideal) x0 x1 x2 x3 x4 x5 x6 (ix3 b n d) = refAt x0 x1 x2 x3 x4 x5 x6 b n d := by
  rw [val_main_v31_apply]
  have e1 : ∀ k : Fin 4096, lidx_main_v31 (ix3 b n d) k = ix3 b n k := fun k =>
    funext fun a => Fin.ext (by match a with | ⟨0, _⟩ => rfl | ⟨1, _⟩ => rfl | ⟨2, _⟩ => rfl)
  have e2 : ∀ k : Fin 4096, ridx_main_v31 (ix3 b n d) k = ix3 b k d := fun k =>
    funext fun a => Fin.ext (by match a with | ⟨0, _⟩ => rfl | ⟨1, _⟩ => rfl | ⟨2, _⟩ => rfl)
  simp only [e1, e2, v11_eq_v3, v3_at, v30_at]
  rfl

/-! ### The reference is the specification -/

/-- The program's last stage, as a function of the seven argument arrays, is `refOut`. -/
theorem ref_val (x0 : S4x4096x256.Idx → EReal) (x1 : S256x256.Idx → EReal) (x2 : S256.Idx → EReal)
    (x3 : S256x256.Idx → EReal) (x4 : S256.Idx → EReal) (x5 : S256x256.Idx → EReal)
    (x6 : S256.Idx → EReal) :
    val_main_v31 (F := Ideal) x0 x1 x2 x3 x4 x5 x6 = refOut x0 x1 x2 x3 x4 x5 x6 := by
  funext i
  obtain ⟨b, n, d, rfl⟩ : ∃ (b : Fin 4) (n : Fin 4096) (d : Fin 256), i = ix3 b n d :=
    ⟨i 0, i 1, i 2, eq_ix3 i⟩
  exact v31_at x0 x1 x2 x3 x4 x5 x6 b n d

/-- THE REFERENCE'S RESULT. The term the reference's run states for its result buffer, at the
    extended reals, is `refOut` of the seven argument arrays as the launch memory holds them. -/
theorem ref_eq (m : (ℓ : Loc nD τ sig) → Buf (Elt Ideal) ℓ) (c : Dev nD) :
    Cert.ReferenceIdeal.Value.res_main_v31 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v31_eq (F := Ideal) m c).trans (ref_val _ _ _ _ _ _ _)

/-! ### Real arguments: every stage is a real (or −∞ under the mask), and each element is one quotient -/

open Cert.Lib.OnlineSoftmax in
/-- With real input, weights and bias, a linear layer's element is a real. -/
theorem proj_real (x : S4x4096x256.Idx → EReal) (W : S256x256.Idx → EReal) (bias : S256.Idx → EReal)
    (hx : ∀ i, ∃ r : ℝ, x i = (r : EReal)) (hW : ∀ i, ∃ r : ℝ, W i = (r : EReal))
    (hb : ∀ i, ∃ r : ℝ, bias i = (r : EReal)) (b : Fin 4) (n : Fin 4096) (e : Fin 256) :
    ∃ r : ℝ, proj x W bias b n e = (r : EReal) := by
  choose xr hxr using hx
  choose Wr hWr using hW
  choose br hbr using hb
  refine ⟨(∑ d : Fin 256, xr (ix3 b n d) * Wr (ix2 e d)) + br (ix1 e), ?_⟩
  unfold proj
  rw [EReal.coe_add, coe_sum, hbr]
  congr 1
  exact Finset.sum_congr rfl fun d _ => by rw [hxr, hWr, EReal.coe_mul]

open Cert.Lib.OnlineSoftmax in
/-- With real arguments a score is a real. -/
theorem score_real (x : S4x4096x256.Idx → EReal) (Wq : S256x256.Idx → EReal) (bq : S256.Idx → EReal)
    (Wk : S256x256.Idx → EReal) (bk : S256.Idx → EReal)
    (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (n k : Fin 4096) :
    ∃ r : ℝ, score x Wq bq Wk bk b n k = (r : EReal) := by
  choose qr hqr using fun e => proj_real x Wq bq hx hWq hbq b n e
  choose kr hkr using fun e => proj_real x Wk bk hx hWk hbk b k e
  refine ⟨∑ e : Fin 256, qr e * kr e, ?_⟩
  unfold score
  rw [coe_sum]
  exact Finset.sum_congr rfl fun e _ => by rw [hqr, hkr, EReal.coe_mul]

/-- On and below the diagonal the masked score is the score. -/
theorem mscore_of_le (x : S4x4096x256.Idx → EReal) (Wq : S256x256.Idx → EReal) (bq : S256.Idx → EReal)
    (Wk : S256x256.Idx → EReal) (bk : S256.Idx → EReal) (b : Fin 4) {n k : Fin 4096}
    (h : k.val ≤ n.val) : mscore x Wq bq Wk bk b n k = score x Wq bq Wk bk b n k := by
  unfold mscore
  rw [if_pos h, add_zero]

/-- Above the diagonal a masked real score is −∞. -/
theorem mscore_of_lt (x : S4x4096x256.Idx → EReal) (Wq : S256x256.Idx → EReal) (bq : S256.Idx → EReal)
    (Wk : S256x256.Idx → EReal) (bk : S256.Idx → EReal)
    (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) {n k : Fin 4096}
    (h : n.val < k.val) : mscore x Wq bq Wk bk b n k = ⊥ := by
  obtain ⟨r, hr⟩ := score_real x Wq bq Wk bk hx hWq hbq hWk hbk b n k
  unfold mscore
  rw [if_neg (Nat.not_le.2 h), hr, EReal.add_bot]

/-- With real arguments a masked score is a real or −∞. -/
theorem mscore_bot_or_real (x : S4x4096x256.Idx → EReal) (Wq : S256x256.Idx → EReal)
    (bq : S256.Idx → EReal) (Wk : S256x256.Idx → EReal) (bk : S256.Idx → EReal)
    (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (n k : Fin 4096) :
    mscore x Wq bq Wk bk b n k = ⊥ ∨ ∃ r : ℝ, mscore x Wq bq Wk bk b n k = (r : EReal) := by
  by_cases h : k.val ≤ n.val
  · rw [mscore_of_le x Wq bq Wk bk b h]
    exact Or.inr (score_real x Wq bq Wk bk hx hWq hbq hWk hbk b n k)
  · exact Or.inl (mscore_of_lt x Wq bq Wk bk hx hWq hbq hWk hbk b (Nat.not_le.1 h))

/-- With real arguments the masked score on or below the diagonal is a real. -/
theorem mscore_real_of_le (x : S4x4096x256.Idx → EReal) (Wq : S256x256.Idx → EReal)
    (bq : S256.Idx → EReal) (Wk : S256x256.Idx → EReal) (bk : S256.Idx → EReal)
    (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) {n k : Fin 4096} (h : k.val ≤ n.val) :
    ∃ r : ℝ, mscore x Wq bq Wk bk b n k = (r : EReal) := by
  rw [mscore_of_le x Wq bq Wk bk b h]
  exact score_real x Wq bq Wk bk hx hWq hbq hWk hbk b n k

/-- With real arguments the masked score at key position 0 is a real (0 ≤ n always). -/
theorem mscore_zero_real (x : S4x4096x256.Idx → EReal) (Wq : S256x256.Idx → EReal)
    (bq : S256.Idx → EReal) (Wk : S256x256.Idx → EReal) (bk : S256.Idx → EReal)
    (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (n : Fin 4096) :
    ∃ r : ℝ, mscore x Wq bq Wk bk b n 0 = (r : EReal) :=
  mscore_real_of_le x Wq bq Wk bk hx hWq hbq hWk hbk b (k := 0) (Nat.zero_le n.val)

open Cert.Lib.OnlineSoftmax in
/-- The maximum from −∞ of finitely many values that are reals or −∞, one of them a real, is a
    real. -/
theorem fold_max_real {K : Type} [Fintype K] (f : K → EReal)
    (hf : ∀ k, f k = ⊥ ∨ ∃ r : ℝ, f k = (r : EReal)) (k0 : K) (h0 : ∃ r : ℝ, f k0 = (r : EReal)) :
    ∃ G : ℝ, Finset.univ.fold max ⊥ f = (G : EReal) := by
  have hsup : Finset.univ.fold max ⊥ f = Finset.univ.sup f := rfl
  rw [hsup]
  have hne_top : Finset.univ.sup f ≠ ⊤ :=
    ne_of_lt ((Finset.sup_lt_iff (f := f) bot_lt_top).2 fun k _ =>
      lt_top_iff_ne_top.2 (ne_top_of_bot_or_coe (hf k)))
  rcases bot_or_coe_of_ne_top hne_top with hb | hr
  · obtain ⟨r, hr⟩ := h0
    have h := Finset.le_sup (f := f) (Finset.mem_univ k0)
    rw [hb, hr] at h
    exact absurd (le_bot_iff.1 h) (EReal.coe_ne_bot r)
  · exact hr

/-- With real arguments a row maximum is a real. -/
theorem rowmax_real (x : S4x4096x256.Idx → EReal) (Wq : S256x256.Idx → EReal)
    (bq : S256.Idx → EReal) (Wk : S256x256.Idx → EReal) (bk : S256.Idx → EReal)
    (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (n : Fin 4096) :
    ∃ G : ℝ, rowmax x Wq bq Wk bk b n = (G : EReal) :=
  fold_max_real (fun k : Fin 4096 => mscore x Wq bq Wk bk b n k)
    (fun k => mscore_bot_or_real x Wq bq Wk bk hx hWq hbq hWk hbk b n k) 0
    (mscore_zero_real x Wq bq Wk bk hx hWq hbq hWk hbk b n)

/-- Every masked score of a row is at most the row maximum. -/
theorem mscore_le_rowmax (x : S4x4096x256.Idx → EReal) (Wq : S256x256.Idx → EReal)
    (bq : S256.Idx → EReal) (Wk : S256x256.Idx → EReal) (bk : S256.Idx → EReal) (b : Fin 4)
    (n k : Fin 4096) : mscore x Wq bq Wk bk b n k ≤ rowmax x Wq bq Wk bk b n :=
  Finset.le_sup (f := fun k : Fin 4096 => mscore x Wq bq Wk bk b n k) (Finset.mem_univ k)

open Cert.Lib.OnlineSoftmax in
/-- THE REFERENCE'S ELEMENT AS ONE QUOTIENT. With real argument arrays, the reference's result at
    (b, n, d) is the sum over key positions of exp(masked score − row maximum) times the value
    projection, over the sum of exp(masked score − row maximum). -/
theorem refOut_div (x : S4x4096x256.Idx → EReal) (Wq : S256x256.Idx → EReal) (bq : S256.Idx → EReal)
    (Wk : S256x256.Idx → EReal) (bk : S256.Idx → EReal) (Wv : S256x256.Idx → EReal)
    (bv : S256.Idx → EReal)
    (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (hWv : ∀ i, ∃ r : ℝ, Wv i = (r : EReal))
    (hbv : ∀ i, ∃ r : ℝ, bv i = (r : EReal)) (b : Fin 4) (n : Fin 4096) (d : Fin 256) :
    refOut x Wq bq Wk bk Wv bv (ix3 b n d)
      = Ideal.div
          (∑ k : Fin 4096, Ideal.exp (mscore x Wq bq Wk bk b n k - rowmax x Wq bq Wk bk b n)
            * proj x Wv bv b k d)
          (∑ k : Fin 4096, Ideal.exp (mscore x Wq bq Wk bk b n k - rowmax x Wq bq Wk bk b n)) := by
  obtain ⟨G, hG⟩ := rowmax_real x Wq bq Wk bk hx hWq hbq hWk hbk b n
  show refAt x Wq bq Wk bk Wv bv b n d = _
  unfold refAt
  rw [hG]
  refine weighted_div (fun k : Fin 4096 => Ideal.exp (mscore x Wq bq Wk bk b n k - (G : EReal)))
    (fun k : Fin 4096 => proj x Wv bv b k d) ?_ ?_ ?_
  · intro k
    exact ⟨wt (mscore x Wq bq Wk bk b n k) G, wt_nonneg _ _,
      exp_sub_coe (mscore_bot_or_real x Wq bq Wk bk hx hWq hbq hWk hbk b n k) G⟩
  · intro k
    exact proj_real x Wv bv hx hWv hbv b k d
  · obtain ⟨r, hr⟩ := mscore_zero_real x Wq bq Wk bk hx hWq hbq hWk hbk b n
    refine ⟨0, wt (r : EReal) G, wt_coe_pos r G, ?_⟩
    show Ideal.exp (mscore x Wq bq Wk bk b n 0 - (G : EReal)) = _
    rw [hr]
    exact exp_sub_coe (Or.inr ⟨r, rfl⟩) G

end Cert.RefValue
-- ==== Proof.KI.Ind.lean ====
/-
  Region 1, the value. Fix a batch b and a query row n = 1024 qi + r. Over the steps (qi, 0), …, (qi, qi) of that query
  tile the scratch arrays' row r runs the online softmax of the row's masked scores tile by tile: by induction over the
  steps, after the step with key tile j the row's state is the library's `run` after j + 1 tiles (the first step resets; each
  later step continues the step before, which by the tables is the same batch's same query tile with key tile j - 1). At the
  last step accumulator over normaliser is therefore the softmax-weighted sum of the value rows (`run_out_row`), which is
  the reference's entry (b, n, ·); the output blocks written back at the last steps cover the result.
-/
import proofs.«168436_j23081154249219_2_alg».proof.Proof.Gen.KernelIdeal.Launch
import proofs.«168436_j23081154249219_2_alg».proof.Proof.Gen.KernelIdeal.Skeleton
import proofs.«168436_j23081154249219_2_alg».proof.Proof.Gen.KernelIdeal.Points
import proofs.«168436_j23081154249219_2_alg».proof.Proof.KI.Geo
import proofs.«168436_j23081154249219_2_alg».proof.Proof.KI.Pay
import proofs.«168436_j23081154249219_2_alg».proof.Proof.RefValue
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.OnlineSoftmax Cert.RefValue

variable (V : (c : Dev nD) → (b : Ref sig .tc) → Buf (Elt Ideal) ((c : Thread nD τ).loc b))
variable (x : S4x4096x256.Idx → EReal) (Wq : S256x256.Idx → EReal) (bq : S256.Idx → EReal) (Wk : S256x256.Idx → EReal) (bk : S256.Idx → EReal)
  (Wv : S256x256.Idx → EReal) (bv : S256.Idx → EReal)

/-- What region 1 is entered with: the three arrays it reads are the projections of real inputs. -/
structure Inputs : Prop where
  hQ : ∀ (c : Dev nD) (b : Fin 4) (n : Fin 4096) (e : Fin 256), V c main_v2 (ix3 b n e) = proj x Wq bq b n e
  hK : ∀ (c : Dev nD) (b : Fin 4) (n : Fin 4096) (e : Fin 256), V c main_v3 (ix3 b n e) = proj x Wk bk b n e
  hV : ∀ (c : Dev nD) (b : Fin 4) (n : Fin 4096) (e : Fin 256), V c main_v4 (ix3 b n e) = proj x Wv bv b n e
  hx : ∀ i, ∃ r : ℝ, x i = (r : EReal)
  hWq : ∀ i, ∃ r : ℝ, Wq i = (r : EReal)
  hbq : ∀ i, ∃ r : ℝ, bq i = (r : EReal)
  hWk : ∀ i, ∃ r : ℝ, Wk i = (r : EReal)
  hbk : ∀ i, ∃ r : ℝ, bk i = (r : EReal)
  hWv : ∀ i, ∃ r : ℝ, Wv i = (r : EReal)
  hbv : ∀ i, ∃ r : ℝ, bv i = (r : EReal)

/-- A query row's masked scores against all 4096 key rows, and the batch's value rows. -/
def sRow (b : Fin 4) (n : Fin 4096) : Fin 4096 → EReal := fun k => mscore x Wq bq Wk bk b n k
def wRow (b : Fin 4) : Fin 4096 → Fin 256 → EReal := fun k d => proj x Wv bv b k d
/-- Point t's batch, and the query row of row r of its query tile. -/
def bF (t : Fin grid1.N) : Fin 4 := ⟨bN t, bN_lt t⟩
def nF (t : Fin grid1.N) (r : Fin 1024) : Fin 4096 := ⟨1024 * qiN t + r.val, by have := qiN_lt t; have := r.isLt; omega⟩

theorem kiN_lt (t : Fin grid1.N) : kiN t < 4 := Nat.lt_of_le_of_lt (kiN_le t) (qiN_lt t)

variable {V x Wq bq Wk bk Wv bv}

/-- At point t the tile's masked scores of row r are tile ki of the row's masked scores. -/
theorem tile_score_at (H : Inputs V x Wq bq Wk bk Wv bv) (c : Dev nD) (t : Fin (cfg1 aI).N) (r cc : Fin 1024) :
    tileScore (w0At aI c t) (w1At aI c t) (iblk1 V aI c 0 t) (iblk1 V aI c 1 t) r cc
      = tile 4096 1024 ⊥ (sRow x Wq bq Wk bk (bF t) (nF t r)) (kiN t) cc := by
  have hq := qiN_lt t; have hk := kiN_lt t; have hr := r.isLt; have hc := cc.isLt
  have e0 : (qiOf ⟨t.val % 10, Nat.mod_lt _ (by decide)⟩).toNat = qiN t := rfl
  have e1 : (kiOf ⟨t.val % 10, Nat.mod_lt _ (by decide)⟩).toNat = kiN t := rfl
  rw [w0At_eq, w1At_eq, tileScore_eq _ _ (e0 ▸ hq) (e1 ▸ hk), e0, e1]
  rw [tile_eq _ _ (show kiN t * 1024 + cc.val < 4096 by omega)]
  simp only [iblk1_q V c t r _ (bN_lt t) (show 1024 * qiN t + r.val < 4096 by omega),
    iblk1_k V c t cc _ (bN_lt t) (show 1024 * kiN t + cc.val < 4096 by omega), H.hQ, H.hK]
  have ek : (⟨1024 * kiN t + cc.val, by omega⟩ : Fin 4096) = ⟨kiN t * 1024 + cc.val, by omega⟩ := by
    apply Fin.ext; show 1024 * kiN t + cc.val = kiN t * 1024 + cc.val; omega
  rw [ek]
  unfold sRow mscore score
  by_cases hle : kiN t * 1024 + cc.val ≤ 1024 * qiN t + r.val
  · rw [if_pos (show 1024 * kiN t + cc.val ≤ 1024 * qiN t + r.val by omega), if_pos (show kiN t * 1024 + cc.val ≤ (nF t r).val from hle), add_zero]
    rfl
  · rw [if_neg (show ¬ 1024 * kiN t + cc.val ≤ 1024 * qiN t + r.val by omega), if_neg (show ¬ kiN t * 1024 + cc.val ≤ (nF t r).val from hle), EReal.add_bot]

/-- At point t the value block's rows are tile ki of the batch's value rows. -/
theorem tile_val_at (H : Inputs V x Wq bq Wk bk Wv bv) (c : Dev nD) (t : Fin (cfg1 aI).N) (cc : Fin 1024) (d : Fin 256) :
    iblk1 V aI c 2 t (ix3 0 cc d) = tile 4096 1024 0 (fun k => wRow x Wv bv (bF t) k d) (kiN t) cc := by
  have hk := kiN_lt t; have hc := cc.isLt
  rw [tile_eq _ _ (show kiN t * 1024 + cc.val < 4096 by omega), iblk1_v V c t cc d (bN_lt t) (show 1024 * kiN t + cc.val < 4096 by omega), H.hV]
  have ek : (⟨1024 * kiN t + cc.val, by omega⟩ : Fin 4096) = ⟨kiN t * 1024 + cc.val, by omega⟩ := by
    apply Fin.ext; show 1024 * kiN t + cc.val = kiN t * 1024 + cc.val; omega
  rw [ek]; rfl

/-! ## The tables' order -/

/-- A step is a query tile's first, or the step before it is the same batch's same query tile with the key tile before. -/
theorem prev_fact : ∀ t : Fin grid1.N, kiN t = 0 ∨
    ∃ h : 0 < t.val, bN ⟨t.val - 1, by omega⟩ = bN t ∧ qiN ⟨t.val - 1, by omega⟩ = qiN t ∧ kiN ⟨t.val - 1, by omega⟩ + 1 = kiN t := by
  decide
theorem first_iff : ∀ j : Fin 10, isFirst (kiOf j) = 1#1 ↔ (kiOf j).toNat = 0 := by decide
theorem flush_last : ∀ t : Fin grid1.N, Pipeline.Window.flushOf grid1 true ixOut t = true → kiN t = qiN t := by decide +kernel
theorem onto_o : ∀ (b : Fin 4) (q : Fin 4), ∃ t : Fin grid1.N, Pipeline.Window.flushOf grid1 true ixOut t = true ∧ bN t = b.val ∧ qiN t = q.val := by
  decide +kernel

/-! ## The induction over a query tile's steps -/

theorem rowSt_scAt (H : Inputs V x Wq bq Wk bk Wv bv) (c : Dev nD) (n : ℕ) : ∀ (h : n < (cfg1 aI).N) (r : Fin 1024),
    rowSt (scAt V aI c (n + 1)) r
      = run (tile 4096 1024 ⊥ (sRow x Wq bq Wk bk (bF ⟨n, h⟩) (nF ⟨n, h⟩ r)))
          (fun j cc d => tile 4096 1024 0 (fun k => wRow x Wv bv (bF ⟨n, h⟩) k d) j cc) (kiN ⟨n, h⟩ + 1) := by
  induction n with
  | zero =>
    intro h r
    rw [scAt_succ V aI c ⟨0, h⟩, rowSt_scStep]
    rw [show (fun cc : Fin 1024 => tileScore (w0At aI c ⟨0, h⟩) (w1At aI c ⟨0, h⟩) (iblk1 V aI c 0 ⟨0, h⟩) (iblk1 V aI c 1 ⟨0, h⟩) r cc)
        = tile 4096 1024 ⊥ (sRow x Wq bq Wk bk (bF ⟨0, h⟩) (nF ⟨0, h⟩ r)) (kiN ⟨0, h⟩) from funext (tile_score_at H c ⟨0, h⟩ r),
      show (fun (cc : Fin 1024) (d : Fin 256) => iblk1 V aI c 2 ⟨0, h⟩ (ix3 0 cc d))
        = (fun cc d => tile 4096 1024 0 (fun k => wRow x Wv bv (bF ⟨0, h⟩) k d) (kiN ⟨0, h⟩) cc) from funext fun cc => funext fun d => tile_val_at H c ⟨0, h⟩ cc d]
    have h0 : kiN ⟨0, h⟩ = 0 := by
      rcases prev_fact ⟨0, h⟩ with h0 | ⟨hpos, _⟩
      · exact h0
      · exact absurd hpos (Nat.lt_irrefl 0)
    have hf : isFirst (w1At aI c ⟨0, h⟩) = 1#1 := by rw [w1At_eq]; exact (first_iff _).2 h0
    unfold scPrev; rw [if_pos hf, rowSt_scInit, h0]; rfl
  | succ n ih =>
    intro h r
    rw [scAt_succ V aI c ⟨n + 1, h⟩, rowSt_scStep]
    rw [show (fun cc : Fin 1024 => tileScore (w0At aI c ⟨n + 1, h⟩) (w1At aI c ⟨n + 1, h⟩) (iblk1 V aI c 0 ⟨n + 1, h⟩) (iblk1 V aI c 1 ⟨n + 1, h⟩) r cc)
        = tile 4096 1024 ⊥ (sRow x Wq bq Wk bk (bF ⟨n + 1, h⟩) (nF ⟨n + 1, h⟩ r)) (kiN ⟨n + 1, h⟩) from funext (tile_score_at H c ⟨n + 1, h⟩ r),
      show (fun (cc : Fin 1024) (d : Fin 256) => iblk1 V aI c 2 ⟨n + 1, h⟩ (ix3 0 cc d))
        = (fun cc d => tile 4096 1024 0 (fun k => wRow x Wv bv (bF ⟨n + 1, h⟩) k d) (kiN ⟨n + 1, h⟩) cc) from funext fun cc => funext fun d => tile_val_at H c ⟨n + 1, h⟩ cc d]
    rcases prev_fact ⟨n + 1, h⟩ with h0 | ⟨_hpos, hb, hq, hk⟩
    · have hf : isFirst (w1At aI c ⟨n + 1, h⟩) = 1#1 := by rw [w1At_eq]; exact (first_iff _).2 h0
      unfold scPrev; rw [if_pos hf, rowSt_scInit, h0]; rfl
    · have hnf : ¬ (isFirst (w1At aI c ⟨n + 1, h⟩) = 1#1) := by
        rw [w1At_eq, first_iff]; show ¬ kiN ⟨n + 1, h⟩ = 0; omega
      have hn : n < (cfg1 aI).N := Nat.lt_of_succ_lt h
      have hb' : bF ⟨n, hn⟩ = bF ⟨n + 1, h⟩ := Fin.ext hb
      have hn' : nF ⟨n, hn⟩ r = nF ⟨n + 1, h⟩ r := Fin.ext (by show 1024 * qiN ⟨n, hn⟩ + r.val = 1024 * qiN ⟨n + 1, h⟩ + r.val; rw [show qiN ⟨n, hn⟩ = qiN ⟨n + 1, h⟩ from hq])
      have hk' : kiN ⟨n + 1, h⟩ = kiN ⟨n, hn⟩ + 1 := hk.symm
      unfold scPrev; rw [if_neg hnf]
      show step _ _ (rowSt (scAt V aI c (n + 1)) r) = _
      rw [ih hn r, hb', hn', hk']; rfl

/-! ## The finished block -/

/-- At a query tile's last step, accumulator over normaliser of row r is the reference's row. -/
theorem out_at (H : Inputs V x Wq bq Wk bk Wv bv) (c : Dev nD) (t : Fin (cfg1 aI).N) (hlast : kiN t = qiN t) (r : Fin 1024) (d : Fin 256) :
    outOf (scAt V aI c (t.val + 1)) (ix3 0 r d) = refOut x Wq bq Wk bk Wv bv (ix3 (bF t) (nF t r) d) := by
  rw [outOf_apply]
  have hrow := rowSt_scAt H c t.val t.isLt r
  rw [show (scAt V aI c (t.val + 1)).a (ix3 0 r d) = (rowSt (scAt V aI c (t.val + 1)) r).acc d from rfl,
    show (scAt V aI c (t.val + 1)).l (ix3 0 r 0) = (rowSt (scAt V aI c (t.val + 1)) r).l from rfl, hrow, hlast,
    refOut_div x Wq bq Wk bk Wv bv H.hx H.hWq H.hbq H.hWk H.hbk H.hWv H.hbv (bF t) (nF t r) d]
  exact run_out_row 4 1024 4096 (by norm_num) (qiN t) (qiN_lt t) (sRow x Wq bq Wk bk (bF t) (nF t r)) (wRow x Wv bv (bF t))
    (fun k => mscore_bot_or_real x Wq bq Wk bk H.hx H.hWq H.hbq H.hWk H.hbk (bF t) (nF t r) k)
    (fun k hk => mscore_of_lt x Wq bq Wk bk H.hx H.hWq H.hbq H.hWk H.hbk (bF t) (by
      show (nF t r).val < k.val
      have := r.isLt; show 1024 * qiN t + r.val < k.val; omega))
    ⟨0, by norm_num⟩ (by norm_num) (mscore_zero_real x Wq bq Wk bk H.hx H.hWq H.hbq H.hWk H.hbk (bF t) (nF t r))
    (fun k d => proj_real x Wv bv H.hx H.hWv H.hbv (bF t) k d) d

end Cert.KernelIdeal.Hand

end
-- ==== Proof.KI.Fin1.lean ====
/-
  Region 1, from blocks to the result array. The output block written back at a query tile's last step is that tile's rows
  of the reference's result (the induction's conclusion, row by row); the sixteen such blocks (four batches, four query
  tiles) cover the [4, 4096, 256] result; so after the region the result array is the reference's.
-/
import proofs.«168436_j23081154249219_2_alg».proof.Proof.Gen.KernelIdeal.Launch
import proofs.«168436_j23081154249219_2_alg».proof.Proof.Gen.KernelIdeal.Skeleton
import proofs.«168436_j23081154249219_2_alg».proof.Proof.Gen.KernelIdeal.Points
import proofs.«168436_j23081154249219_2_alg».proof.Proof.KI.Ind
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.OnlineSoftmax Cert.RefValue

variable {V : (c : Dev nD) → (b : Ref sig .tc) → Buf (Elt Ideal) ((c : Thread nD τ).loc b)}
variable {x : S4x4096x256.Idx → EReal} {Wq : S256x256.Idx → EReal} {bq : S256.Idx → EReal} {Wk : S256x256.Idx → EReal} {bk : S256.Idx → EReal}
  {Wv : S256x256.Idx → EReal} {bv : S256.Idx → EReal}

/-- What a flushing point writes back is its block of the reference's result. -/
theorem flushed1_eq (H : Inputs V x Wq bq Wk bk Wv bv) (c : Dev nD) (t : Fin (cfg1 aI).N) (hf : ((cfg1 aI).win 3).flush t = true) :
    (dat1 V aI c).flushed 3 t = (((cfg1 aI).win 3).blk t).view.read (Elt Ideal) (refOut x Wq bq Wk bk Wv bv) := by
  show ((cfg1 aI).win 3).cut ((cfg1 aI).grid.coords t) ((dat1 V aI c).after 3 t) = _
  rw [after1_3]
  have hlast : kiN t = qiN t := flush_last t (by
    have e : Pipeline.Window.flushOf grid1 true (cc1_transform_3 k1_off1_inb numel1_S1 (tblc (F := Ideal))) t = true := hf
    rw [ixOut_eq] at e; exact e)
  funext y
  obtain ⟨r, d, rfl⟩ := eq_ix3_block y
  show outOf (scAt V aI c (t.val + 1)) (ix3 0 r d) = refOut x Wq bq Wk bk Wv bv ((((cfg1 aI).win 3).blk t).view.emb (ix3 0 r d))
  rw [emb_o c t r d (bN_lt t) (by have := qiN_lt t; have := r.isLt; omega)]
  exact out_at H c t hlast r d

/-- An index of the result is in point t's output block iff each coordinate is in the block's range. -/
theorem mem_blk_o (t : Fin (cfg1 aI).N) (i : S4x4096x256.Idx) :
    i ∈ (((cfg1 aI).win 3).blk t).view.set ↔ ∀ a : Fin 3, ((cfg1 aI).win 3).index t a * S1x1024x256.size a ≤ (i a).val
      ∧ (i a).val < ((cfg1 aI).win 3).index t a * S1x1024x256.size a + S1x1024x256.size a := by
  show i ∈ ((View.whole main_v5).slice (((cfg1 aI).win 3).rect t)).set ↔ _
  rw [View.set_slice_whole, Rect.mem_set_unit]
  exact Iff.rfl

/-- Every index of the result lies in the block some query tile's last step writes back. -/
theorem cover_o (i : S4x4096x256.Idx) :
    ∃ t : Fin (cfg1 aI).N, ((cfg1 aI).win 3).flush t = true ∧ i ∈ (((cfg1 aI).win 3).blk t).view.set := by
  have h0 : (i 0).val < 4 := (i 0).isLt
  have h1 : (i 1).val < 4096 := (i 1).isLt
  have h2 : (i 2).val < 256 := (i 2).isLt
  obtain ⟨t, hf, hb, hq⟩ := onto_o ⟨(i 0).val, h0⟩ ⟨(i 1).val / 1024, by omega⟩
  refine ⟨t, ?_, ?_⟩
  · show Pipeline.Window.flushOf grid1 true (cc1_transform_3 k1_off1_inb numel1_S1 (tblc (F := Ideal))) t = true
    rw [ixOut_eq]; exact hf
  · rw [mem_blk_o]
    have hi := index_o t
    intro a
    match a with
    | ⟨0, _⟩ =>
      show ((cfg1 aI).win 3).index t 0 * 1 ≤ (i 0).val ∧ (i 0).val < ((cfg1 aI).win 3).index t 0 * 1 + 1
      rw [hi]; show bN t * 1 ≤ (i 0).val ∧ (i 0).val < bN t * 1 + 1
      have : bN t = (i 0).val := hb
      omega
    | ⟨1, _⟩ =>
      show ((cfg1 aI).win 3).index t 1 * 1024 ≤ (i 1).val ∧ (i 1).val < ((cfg1 aI).win 3).index t 1 * 1024 + 1024
      rw [hi]; show qiN t * 1024 ≤ (i 1).val ∧ (i 1).val < qiN t * 1024 + 1024
      have : qiN t = (i 1).val / 1024 := hq
      omega
    | ⟨2, _⟩ =>
      show ((cfg1 aI).win 3).index t 2 * 256 ≤ (i 2).val ∧ (i 2).val < ((cfg1 aI).win 3).index t 2 * 256 + 256
      rw [hi]; show 0 * 256 ≤ (i 2).val ∧ (i 2).val < 0 * 256 + 256
      omega

/-- After region 1 the result array is the reference's result. -/
theorem final1 (H : Inputs V x Wq bq Wk bk Wv bv) (c : Dev nD) :
    (dat1 V aI c).arrAt 3 (cfg1 aI).N = refOut x Wq bq Wk bk Wv bv :=
  (dat1 V aI c).arrAt_eq_of_cover 3 _ (fun t hf => flushed1_eq H c t hf) cover_o

end Cert.KernelIdeal.Hand

end
-- ==== Proof.KI.R0Value.lean ====
import proofs.«168436_j23081154249219_2_alg».proof.Proof.KI.R0
import proofs.«168436_j23081154249219_2_alg».proof.Proof.KI.Pay
import Idealize.ShloMosaic.Lib.Pipeline.Value
import Idealize.ShloMosaic.Lib.ValueIdx

/-!
# The projection region: from blocks to arrays

The projection region has 8 grid points; point t stages rows [2048·t, 2048·t + 2048) of the flattened
[16384, 256] input beside the three weight matrices and bias vectors (whole), and writes back the
same rows of each of the three [16384, 256] results. Each written block is the linear layer of the
staged blocks; read through the windows' rectangles the blocks are restrictions of the arrays, so
each result array ends holding the linear layer of the whole arrays (`final0_7`, `final0_8`,
`final0_9`). Last, the two reshapes around the region read at an index (`flatten_apply`,
`unflatten_apply`).
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- A linear layer of the flattened input at (p, e): row p of the input against row e of the weights,
    plus the bias at e. -/
def linAt (X : S16384x256.Idx → EReal) (W : S256x256.Idx → EReal) (bias : S256.Idx → EReal)
    (p : Fin 16384) (e : Fin 256) : EReal :=
  (∑ d : Fin 256, X (ix2 p d) * W (ix2 e d)) + bias (ValueIdx.ix1 e)

/-- The linear layer as an array: linAt at the index's two coordinates. -/
def lin (X : S16384x256.Idx → EReal) (W : S256x256.Idx → EReal) (bias : S256.Idx → EReal) :
    S16384x256.Idx → EReal :=
  fun i => linAt X W bias (i 0) (i 1)

/-- The zero offset of a rank-2 block. -/
theorem hz2v : (![0, 0] : Fin 2 → Nat) = fun _ => 0 := funext fun a => by fin_cases a <;> rfl
/-- The zero offset of a rank-1 block. -/
theorem hz1v : (![0] : Fin 1 → Nat) = fun _ => 0 := funext fun a => by fin_cases a <;> rfl

/-- The printed index maps, decided over the grid. -/
theorem idx_facts0 : ∀ t : Fin cfg0.N,
    win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_2.index t (0 : Fin 1) = 0 ∧ win0_4.index t (0 : Fin 1) = 0 ∧ win0_6.index t (0 : Fin 1) = 0
    ∧ t.val < 8 :=
  (by decide +kernel : ∀ t : Fin grid0.N, _)

/-- What point t writes back of result window 7 is block t of the linear layer of the arrays as the
    region finds them. -/
theorem flushed0_7_eq (c : Dev nD) (t : Fin cfg0.N) :
    (dat0 V c).flushed 7 t
      = ((cfg0.win 7).blk t).view.read (Elt Ideal) (lin (V c main_v0) (V c main_arg1) (V c main_arg2)) := by
  show (cfg0.win 7).cut (grid0.coords t) ((dat0 V c).after 7 t) = _
  rw [after0_7]
  unfold out0_7
  rw [View.canon_unit_zero hz2v]
  simp only [View.ld_unit_zero (S := S2048x256) hz2v, View.ld_unit_zero (S := S256x256) hz2v,
    View.ld_unit_zero (S := S256) hz1v]
  funext j
  obtain ⟨p, e, rfl⟩ : ∃ (p : Fin 2048) (e : Fin 256), j = ix2 p e := ⟨j 0, j 1, eq_ix2 j⟩
  show k0_pay2 (iblk0 V c 0 t) (iblk0 V c 1 t) (iblk0 V c 2 t) (ix2 p e)
      = lin (V c main_v0) (V c main_arg1) (V c main_arg2) (((cfg0.win 7).blk t).view.emb (ix2 p e))
  refine (k0_pay2_apply (iblk0 V c 0 t) (iblk0 V c 1 t) (iblk0 V c 2 t) p e).trans ?_
  obtain ⟨f00, f01, f70, f71, f80, f81, f90, f91, f10, f11, f30, f31, f50, f51, f20, f40, f60, ht⟩ :=
    idx_facts0 t
  have hP : t.val * 2048 + p.val < 16384 := by have := p.isLt; omega
  have eo : ((cfg0.win 7).blk t).view.emb (ix2 p e)
      = ix2 (⟨t.val * 2048 + p.val, hP⟩ : Fin 16384) e := by
    funext a; apply Fin.ext
    match a with
    | ⟨0, _⟩ => show win0_7.index t (0 : Fin 2) * 2048 + 1 * p.val = t.val * 2048 + p.val; omega
    | ⟨1, _⟩ => show win0_7.index t (1 : Fin 2) * 256 + 1 * e.val = e.val; omega
  rw [eo]
  show _ = linAt (V c main_v0) (V c main_arg1) (V c main_arg2) ⟨t.val * 2048 + p.val, hP⟩ e
  unfold linAt
  have e0 : ∀ d : Fin 256, iblk0 V c 0 t (ix2 p d)
      = V c main_v0 (ix2 (⟨t.val * 2048 + p.val, hP⟩ : Fin 16384) d) := fun d => by
    show V c main_v0 (((cfg0.win 0).blk t).view.emb (ix2 p d)) = _
    refine congrArg (V c main_v0) (funext fun a => Fin.ext ?_)
    match a with
    | ⟨0, _⟩ => show win0_0.index t (0 : Fin 2) * 2048 + 1 * p.val = t.val * 2048 + p.val; omega
    | ⟨1, _⟩ => show win0_0.index t (1 : Fin 2) * 256 + 1 * d.val = d.val; omega
  have e1 : ∀ d : Fin 256, iblk0 V c 1 t (ix2 e d) = V c main_arg1 (ix2 e d) := fun d => by
    show V c main_arg1 (((cfg0.win 1).blk t).view.emb (ix2 e d)) = _
    refine congrArg (V c main_arg1) (funext fun a => Fin.ext ?_)
    match a with
    | ⟨0, _⟩ => show win0_1.index t (0 : Fin 2) * 256 + 1 * e.val = e.val; omega
    | ⟨1, _⟩ => show win0_1.index t (1 : Fin 2) * 256 + 1 * d.val = d.val; omega
  have e2 : iblk0 V c 2 t (ValueIdx.ix1 e) = V c main_arg2 (ValueIdx.ix1 e) := by
    show V c main_arg2 (((cfg0.win 2).blk t).view.emb (ValueIdx.ix1 e)) = _
    refine congrArg (V c main_arg2) (funext fun a => Fin.ext ?_)
    match a with
    | ⟨0, _⟩ => show win0_2.index t (0 : Fin 1) * 256 + 1 * e.val = e.val; omega
  simp only [e0, e1, e2]

/-- An index of the array is in point t's block of result window 7 iff each coordinate is in the
    block's range on its axis. -/
theorem mem_blk0_7 (t : Fin cfg0.N) (i : S16384x256.Idx) :
    i ∈ ((cfg0.win 7).blk t).view.set ↔ ∀ a : Fin 2,
      win0_7.index t a * S2048x256.size a ≤ (i a).val
        ∧ (i a).val < win0_7.index t a * S2048x256.size a + S2048x256.size a := by
  show i ∈ ((View.whole main_v1_0).slice (win0_7.rect t)).set ↔ _
  rw [View.set_slice_whole, Rect.mem_set_unit]
  exact Iff.rfl

/-- Every index of the result array is in some writing point's block: row p is in the block of point
    p / 2048. -/
theorem cover0_7 (i : S16384x256.Idx) :
    ∃ t : Fin cfg0.N, (cfg0.win 7).flush t = true ∧ i ∈ ((cfg0.win 7).blk t).view.set := by
  have hi0 : (i 0).val < 16384 := (i 0).isLt
  have hi1 : (i 1).val < 256 := (i 1).isLt
  have hN : cfg0.N = 8 := N_0
  have hlt : (i 0).val / 2048 < cfg0.N := by rw [hN]; omega
  refine ⟨⟨(i 0).val / 2048, hlt⟩, flush0_7 _, ?_⟩
  rw [mem_blk0_7]
  obtain ⟨f00, f01, f70, f71, f80, f81, f90, f91, f10, f11, f30, f31, f50, f51, f20, f40, f60, ht⟩ :=
    idx_facts0 ⟨(i 0).val / 2048, hlt⟩
  intro a
  match a with
  | ⟨0, _⟩ =>
    show win0_7.index ⟨(i 0).val / 2048, hlt⟩ (0 : Fin 2) * 2048 ≤ (i 0).val
      ∧ (i 0).val < win0_7.index ⟨(i 0).val / 2048, hlt⟩ (0 : Fin 2) * 2048 + 2048
    rw [f70]
    show (i 0).val / 2048 * 2048 ≤ (i 0).val ∧ (i 0).val < (i 0).val / 2048 * 2048 + 2048
    omega
  | ⟨1, _⟩ =>
    show win0_7.index ⟨(i 0).val / 2048, hlt⟩ (1 : Fin 2) * 256 ≤ (i 1).val
      ∧ (i 1).val < win0_7.index ⟨(i 0).val / 2048, hlt⟩ (1 : Fin 2) * 256 + 256
    rw [f71]
    omega

/-- THE ARRAY after the region: result window 7's array ends holding the linear layer of the arrays as
    the region finds them. -/
theorem final0_7 (c : Dev nD) :
    (dat0 V c).arrAt 7 cfg0.N = lin (V c main_v0) (V c main_arg1) (V c main_arg2) :=
  (dat0 V c).arrAt_eq_of_cover 7 (lin (V c main_v0) (V c main_arg1) (V c main_arg2))
    (fun t _ => flushed0_7_eq V c t) (cover0_7)

/-- What point t writes back of result window 8 is block t of the linear layer of the arrays as the
    region finds them. -/
theorem flushed0_8_eq (c : Dev nD) (t : Fin cfg0.N) :
    (dat0 V c).flushed 8 t
      = ((cfg0.win 8).blk t).view.read (Elt Ideal) (lin (V c main_v0) (V c main_arg3) (V c main_arg4)) := by
  show (cfg0.win 8).cut (grid0.coords t) ((dat0 V c).after 8 t) = _
  rw [after0_8]
  unfold out0_8
  rw [View.canon_unit_zero hz2v]
  simp only [View.ld_unit_zero (S := S2048x256) hz2v, View.ld_unit_zero (S := S256x256) hz2v,
    View.ld_unit_zero (S := S256) hz1v]
  funext j
  obtain ⟨p, e, rfl⟩ : ∃ (p : Fin 2048) (e : Fin 256), j = ix2 p e := ⟨j 0, j 1, eq_ix2 j⟩
  show k0_pay3 (iblk0 V c 0 t) (iblk0 V c 3 t) (iblk0 V c 4 t) (ix2 p e)
      = lin (V c main_v0) (V c main_arg3) (V c main_arg4) (((cfg0.win 8).blk t).view.emb (ix2 p e))
  refine (k0_pay3_apply (iblk0 V c 0 t) (iblk0 V c 3 t) (iblk0 V c 4 t) p e).trans ?_
  obtain ⟨f00, f01, f70, f71, f80, f81, f90, f91, f10, f11, f30, f31, f50, f51, f20, f40, f60, ht⟩ :=
    idx_facts0 t
  have hP : t.val * 2048 + p.val < 16384 := by have := p.isLt; omega
  have eo : ((cfg0.win 8).blk t).view.emb (ix2 p e)
      = ix2 (⟨t.val * 2048 + p.val, hP⟩ : Fin 16384) e := by
    funext a; apply Fin.ext
    match a with
    | ⟨0, _⟩ => show win0_8.index t (0 : Fin 2) * 2048 + 1 * p.val = t.val * 2048 + p.val; omega
    | ⟨1, _⟩ => show win0_8.index t (1 : Fin 2) * 256 + 1 * e.val = e.val; omega
  rw [eo]
  show _ = linAt (V c main_v0) (V c main_arg3) (V c main_arg4) ⟨t.val * 2048 + p.val, hP⟩ e
  unfold linAt
  have e0 : ∀ d : Fin 256, iblk0 V c 0 t (ix2 p d)
      = V c main_v0 (ix2 (⟨t.val * 2048 + p.val, hP⟩ : Fin 16384) d) := fun d => by
    show V c main_v0 (((cfg0.win 0).blk t).view.emb (ix2 p d)) = _
    refine congrArg (V c main_v0) (funext fun a => Fin.ext ?_)
    match a with
    | ⟨0, _⟩ => show win0_0.index t (0 : Fin 2) * 2048 + 1 * p.val = t.val * 2048 + p.val; omega
    | ⟨1, _⟩ => show win0_0.index t (1 : Fin 2) * 256 + 1 * d.val = d.val; omega
  have e1 : ∀ d : Fin 256, iblk0 V c 3 t (ix2 e d) = V c main_arg3 (ix2 e d) := fun d => by
    show V c main_arg3 (((cfg0.win 3).blk t).view.emb (ix2 e d)) = _
    refine congrArg (V c main_arg3) (funext fun a => Fin.ext ?_)
    match a with
    | ⟨0, _⟩ => show win0_3.index t (0 : Fin 2) * 256 + 1 * e.val = e.val; omega
    | ⟨1, _⟩ => show win0_3.index t (1 : Fin 2) * 256 + 1 * d.val = d.val; omega
  have e2 : iblk0 V c 4 t (ValueIdx.ix1 e) = V c main_arg4 (ValueIdx.ix1 e) := by
    show V c main_arg4 (((cfg0.win 4).blk t).view.emb (ValueIdx.ix1 e)) = _
    refine congrArg (V c main_arg4) (funext fun a => Fin.ext ?_)
    match a with
    | ⟨0, _⟩ => show win0_4.index t (0 : Fin 1) * 256 + 1 * e.val = e.val; omega
  simp only [e0, e1, e2]

/-- An index of the array is in point t's block of result window 8 iff each coordinate is in the
    block's range on its axis. -/
theorem mem_blk0_8 (t : Fin cfg0.N) (i : S16384x256.Idx) :
    i ∈ ((cfg0.win 8).blk t).view.set ↔ ∀ a : Fin 2,
      win0_8.index t a * S2048x256.size a ≤ (i a).val
        ∧ (i a).val < win0_8.index t a * S2048x256.size a + S2048x256.size a := by
  show i ∈ ((View.whole main_v1_1).slice (win0_8.rect t)).set ↔ _
  rw [View.set_slice_whole, Rect.mem_set_unit]
  exact Iff.rfl

/-- Every index of the result array is in some writing point's block: row p is in the block of point
    p / 2048. -/
theorem cover0_8 (i : S16384x256.Idx) :
    ∃ t : Fin cfg0.N, (cfg0.win 8).flush t = true ∧ i ∈ ((cfg0.win 8).blk t).view.set := by
  have hi0 : (i 0).val < 16384 := (i 0).isLt
  have hi1 : (i 1).val < 256 := (i 1).isLt
  have hN : cfg0.N = 8 := N_0
  have hlt : (i 0).val / 2048 < cfg0.N := by rw [hN]; omega
  refine ⟨⟨(i 0).val / 2048, hlt⟩, flush0_8 _, ?_⟩
  rw [mem_blk0_8]
  obtain ⟨f00, f01, f70, f71, f80, f81, f90, f91, f10, f11, f30, f31, f50, f51, f20, f40, f60, ht⟩ :=
    idx_facts0 ⟨(i 0).val / 2048, hlt⟩
  intro a
  match a with
  | ⟨0, _⟩ =>
    show win0_8.index ⟨(i 0).val / 2048, hlt⟩ (0 : Fin 2) * 2048 ≤ (i 0).val
      ∧ (i 0).val < win0_8.index ⟨(i 0).val / 2048, hlt⟩ (0 : Fin 2) * 2048 + 2048
    rw [f80]
    show (i 0).val / 2048 * 2048 ≤ (i 0).val ∧ (i 0).val < (i 0).val / 2048 * 2048 + 2048
    omega
  | ⟨1, _⟩ =>
    show win0_8.index ⟨(i 0).val / 2048, hlt⟩ (1 : Fin 2) * 256 ≤ (i 1).val
      ∧ (i 1).val < win0_8.index ⟨(i 0).val / 2048, hlt⟩ (1 : Fin 2) * 256 + 256
    rw [f81]
    omega

/-- THE ARRAY after the region: result window 8's array ends holding the linear layer of the arrays as
    the region finds them. -/
theorem final0_8 (c : Dev nD) :
    (dat0 V c).arrAt 8 cfg0.N = lin (V c main_v0) (V c main_arg3) (V c main_arg4) :=
  (dat0 V c).arrAt_eq_of_cover 8 (lin (V c main_v0) (V c main_arg3) (V c main_arg4))
    (fun t _ => flushed0_8_eq V c t) (cover0_8)

/-- What point t writes back of result window 9 is block t of the linear layer of the arrays as the
    region finds them. -/
theorem flushed0_9_eq (c : Dev nD) (t : Fin cfg0.N) :
    (dat0 V c).flushed 9 t
      = ((cfg0.win 9).blk t).view.read (Elt Ideal) (lin (V c main_v0) (V c main_arg5) (V c main_arg6)) := by
  show (cfg0.win 9).cut (grid0.coords t) ((dat0 V c).after 9 t) = _
  rw [after0_9]
  unfold out0_9
  rw [View.canon_unit_zero hz2v]
  simp only [View.ld_unit_zero (S := S2048x256) hz2v, View.ld_unit_zero (S := S256x256) hz2v,
    View.ld_unit_zero (S := S256) hz1v]
  funext j
  obtain ⟨p, e, rfl⟩ : ∃ (p : Fin 2048) (e : Fin 256), j = ix2 p e := ⟨j 0, j 1, eq_ix2 j⟩
  show k0_pay4 (iblk0 V c 0 t) (iblk0 V c 5 t) (iblk0 V c 6 t) (ix2 p e)
      = lin (V c main_v0) (V c main_arg5) (V c main_arg6) (((cfg0.win 9).blk t).view.emb (ix2 p e))
  refine (k0_pay4_apply (iblk0 V c 0 t) (iblk0 V c 5 t) (iblk0 V c 6 t) p e).trans ?_
  obtain ⟨f00, f01, f70, f71, f80, f81, f90, f91, f10, f11, f30, f31, f50, f51, f20, f40, f60, ht⟩ :=
    idx_facts0 t
  have hP : t.val * 2048 + p.val < 16384 := by have := p.isLt; omega
  have eo : ((cfg0.win 9).blk t).view.emb (ix2 p e)
      = ix2 (⟨t.val * 2048 + p.val, hP⟩ : Fin 16384) e := by
    funext a; apply Fin.ext
    match a with
    | ⟨0, _⟩ => show win0_9.index t (0 : Fin 2) * 2048 + 1 * p.val = t.val * 2048 + p.val; omega
    | ⟨1, _⟩ => show win0_9.index t (1 : Fin 2) * 256 + 1 * e.val = e.val; omega
  rw [eo]
  show _ = linAt (V c main_v0) (V c main_arg5) (V c main_arg6) ⟨t.val * 2048 + p.val, hP⟩ e
  unfold linAt
  have e0 : ∀ d : Fin 256, iblk0 V c 0 t (ix2 p d)
      = V c main_v0 (ix2 (⟨t.val * 2048 + p.val, hP⟩ : Fin 16384) d) := fun d => by
    show V c main_v0 (((cfg0.win 0).blk t).view.emb (ix2 p d)) = _
    refine congrArg (V c main_v0) (funext fun a => Fin.ext ?_)
    match a with
    | ⟨0, _⟩ => show win0_0.index t (0 : Fin 2) * 2048 + 1 * p.val = t.val * 2048 + p.val; omega
    | ⟨1, _⟩ => show win0_0.index t (1 : Fin 2) * 256 + 1 * d.val = d.val; omega
  have e1 : ∀ d : Fin 256, iblk0 V c 5 t (ix2 e d) = V c main_arg5 (ix2 e d) := fun d => by
    show V c main_arg5 (((cfg0.win 5).blk t).view.emb (ix2 e d)) = _
    refine congrArg (V c main_arg5) (funext fun a => Fin.ext ?_)
    match a with
    | ⟨0, _⟩ => show win0_5.index t (0 : Fin 2) * 256 + 1 * e.val = e.val; omega
    | ⟨1, _⟩ => show win0_5.index t (1 : Fin 2) * 256 + 1 * d.val = d.val; omega
  have e2 : iblk0 V c 6 t (ValueIdx.ix1 e) = V c main_arg6 (ValueIdx.ix1 e) := by
    show V c main_arg6 (((cfg0.win 6).blk t).view.emb (ValueIdx.ix1 e)) = _
    refine congrArg (V c main_arg6) (funext fun a => Fin.ext ?_)
    match a with
    | ⟨0, _⟩ => show win0_6.index t (0 : Fin 1) * 256 + 1 * e.val = e.val; omega
  simp only [e0, e1, e2]

/-- An index of the array is in point t's block of result window 9 iff each coordinate is in the
    block's range on its axis. -/
theorem mem_blk0_9 (t : Fin cfg0.N) (i : S16384x256.Idx) :
    i ∈ ((cfg0.win 9).blk t).view.set ↔ ∀ a : Fin 2,
      win0_9.index t a * S2048x256.size a ≤ (i a).val
        ∧ (i a).val < win0_9.index t a * S2048x256.size a + S2048x256.size a := by
  show i ∈ ((View.whole main_v1_2).slice (win0_9.rect t)).set ↔ _
  rw [View.set_slice_whole, Rect.mem_set_unit]
  exact Iff.rfl

/-- Every index of the result array is in some writing point's block: row p is in the block of point
    p / 2048. -/
theorem cover0_9 (i : S16384x256.Idx) :
    ∃ t : Fin cfg0.N, (cfg0.win 9).flush t = true ∧ i ∈ ((cfg0.win 9).blk t).view.set := by
  have hi0 : (i 0).val < 16384 := (i 0).isLt
  have hi1 : (i 1).val < 256 := (i 1).isLt
  have hN : cfg0.N = 8 := N_0
  have hlt : (i 0).val / 2048 < cfg0.N := by rw [hN]; omega
  refine ⟨⟨(i 0).val / 2048, hlt⟩, flush0_9 _, ?_⟩
  rw [mem_blk0_9]
  obtain ⟨f00, f01, f70, f71, f80, f81, f90, f91, f10, f11, f30, f31, f50, f51, f20, f40, f60, ht⟩ :=
    idx_facts0 ⟨(i 0).val / 2048, hlt⟩
  intro a
  match a with
  | ⟨0, _⟩ =>
    show win0_9.index ⟨(i 0).val / 2048, hlt⟩ (0 : Fin 2) * 2048 ≤ (i 0).val
      ∧ (i 0).val < win0_9.index ⟨(i 0).val / 2048, hlt⟩ (0 : Fin 2) * 2048 + 2048
    rw [f90]
    show (i 0).val / 2048 * 2048 ≤ (i 0).val ∧ (i 0).val < (i 0).val / 2048 * 2048 + 2048
    omega
  | ⟨1, _⟩ =>
    show win0_9.index ⟨(i 0).val / 2048, hlt⟩ (1 : Fin 2) * 256 ≤ (i 1).val
      ∧ (i 1).val < win0_9.index ⟨(i 0).val / 2048, hlt⟩ (1 : Fin 2) * 256 + 256
    rw [f91]
    omega

/-- THE ARRAY after the region: result window 9's array ends holding the linear layer of the arrays as
    the region finds them. -/
theorem final0_9 (c : Dev nD) :
    (dat0 V c).arrAt 9 cfg0.N = lin (V c main_v0) (V c main_arg5) (V c main_arg6) :=
  (dat0 V c).arrAt_eq_of_cover 9 (lin (V c main_v0) (V c main_arg5) (V c main_arg6))
    (fun t _ => flushed0_9_eq V c t) (cover0_9)

/-! ### The two reshapes around the projections, read at an index -/

/-- The input [4, 4096, 256] flattened to [16384, 256] reads, at (p, d), the input at
    (p / 4096, p % 4096, d). -/
theorem flatten_apply {α : Type} (X : S4x4096x256.Idx → α) (h : S4x4096x256.ShapeCasts S16384x256)
    (p : Fin 16384) (d : Fin 256) :
    shapeCast S16384x256 X h (ix2 p d)
      = X (ix3 (⟨p.val / 4096, by have := p.isLt; omega⟩ : Fin 4)
          (⟨p.val % 4096, Nat.mod_lt _ (by norm_num)⟩ : Fin 4096) d) :=
  shapeCast_apply X h _ _ (by
    rw [Shape.rowMajor_val_three, Shape.rowMajor_val_two]
    show (p.val / 4096 * 4096 + p.val % 4096) * 256 + d.val = p.val * 256 + d.val
    rw [Nat.div_add_mod' p.val 4096])

/-- A [16384, 256] array viewed [4, 4096, 256] reads, at (b, n, e), the array at (4096·b + n, e). -/
theorem unflatten_apply {α : Type} (Y : S16384x256.Idx → α) (h : S16384x256.ShapeCasts S4x4096x256)
    (b : Fin 4) (n : Fin 4096) (e : Fin 256) :
    shapeCast S4x4096x256 Y h (ix3 b n e)
      = Y (ix2 (⟨4096 * b.val + n.val, by have := b.isLt; have := n.isLt; omega⟩ : Fin 16384) e) :=
  shapeCast_apply Y h _ _ (by
    rw [Shape.rowMajor_val_two, Shape.rowMajor_val_three]
    show (4096 * b.val + n.val) * 256 + e.val = (b.val * 4096 + n.val) * 256 + e.val
    rw [Nat.mul_comm 4096])

end Cert.KernelIdeal.Hand
-- ==== Proof.LibFiniteAll.lean ====
/-
  A precondition's "every entry is finite", read back at the extended reals.

  Such a conjunct is printed as the reduction by "and", over a whole array, of the entrywise test |x| < +∞, from the
  constant 1, and the claim says the result is 1. The word of +∞ denotes ⊤; the absolute value of x is max x (−x) and the
  comparison is the order's; so the test at an entry says x is neither infinity, that is a real number. A reduction by
  "and" into one result that came out 1 met a 1 at every entry.
-/
import Idealize.ShloMosaic.Lib.ReduceAll
import Idealize.ShloMosaic.Lib.ValueIdx
import Idealize.ShloMosaic.PureOps.Ideal.Laws

noncomputable section

namespace Cert.Lib.FiniteAll

open Idealize.ShloMosaic

instance : Subsingleton (⟨0, ![]⟩ : Shape).Idx := ⟨fun a b => funext fun d => d.elim0⟩

/-- The word of +∞ denotes ⊤. -/
theorem ofBits_inf : Ideal.ofBits .f32 0x7F800000#32 = ⊤ := by
  simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hc
    simp [Ideal.cmp, hc] at h
  induction x using EReal.rec with
  | bot => simp at hlt
  | top => simp at hlt
  | coe r => exact ⟨r, rfl⟩

/-- One conjunct of the precondition: the reduction by "and" of the entrywise test came out 1, so every entry of the
    array is a real number. -/
theorem real_of_all {S : Shape} {axes : List (Fin S.rank)} (x : FVec Ideal S .f32)
    (hb : (⟨0, ![]⟩ : Shape).BroadcastsInDim S (![] : Fin 0 → Fin S.rank)) (hr : S.ReducesTo axes (⟨0, ![]⟩ : Shape)) (h0 : 0 < (⟨0, ![]⟩ : Shape).numel)
    (h : Host.reduce IntOp.andi (cmpf .olt (Host.absf x) (broadcastInDim S ![] hb (constant (⟨0, ![]⟩ : Shape) .f32 0x7F800000#32)))
        (constantI (⟨0, ![]⟩ : Shape) 1 1#1) hr h0 ValueIdx.ix0 = 1#1) (i : S.Idx) : ∃ r : ℝ, x i = (r : EReal) :=
  real_of_abs_lt_inf (x i) (Host.reduce_andi_all _ _ hr h0 ValueIdx.ix0 h i)

end Cert.Lib.FiniteAll

end
-- ==== Proof.KI.Finite.lean ====
import proofs.«168436_j23081154249219_2_alg».proof.Defs
import proofs.«168436_j23081154249219_2_alg».proof.Proof.LibFiniteAll
import proofs.«168436_j23081154249219_2_alg».proof.Proof.Gen.Pre_finite_inputs

/-!
# Finite inputs

The precondition is the conjunction, over the seven argument arrays, of "every entry has absolute value
below +∞", each conjunct a reduction by "and" from 1 of the entrywise comparison. Read at the extended
reals, it says every entry of every argument array is a real number (`real_of_pre`).
-/

noncomputable section

namespace Cert.KernelIdeal.Hand

open Cert.KernelIdeal Idealize.ShloMosaic Idealize.ShloMosaic.TcCoe Idealize.SL.Sem

/-- FINITE INPUTS. Under the precondition (the "and" over all seven argument arrays of the entrywise
    test |x| < +∞ came out 1 on every device), every entry of each of the seven argument arrays is a
    real number. -/
theorem real_of_pre (m : (ℓ : Loc nD τ sig) → Buf (Elt Ideal) ℓ)
    (h : Cert.Pre_KernelIdeal (hPre_finite_inputs := Cert.Pre_finite_inputs.Gen.facts) m) (c : Dev nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal))
    ∧ (∀ i, ∃ r : ℝ, m ((c.tc : Thread nD τ).loc main_arg3) i = (r : EReal))
    ∧ (∀ i, ∃ r : ℝ, m ((c.tc : Thread nD τ).loc main_arg4) i = (r : EReal))
    ∧ (∀ i, ∃ r : ℝ, m ((c.tc : Thread nD τ).loc main_arg5) i = (r : EReal))
    ∧ (∀ i, ∃ r : ℝ, m ((c.tc : Thread nD τ).loc main_arg6) i = (r : EReal)) := by
  have h1 := congrFun (h c) ValueIdx.ix0
  dsimp only [Cert.Pre_finite_inputs.fn, Cert.Pre_finite_inputs.fn_part1, andi] at h1
  simp only [IntOp.andi_eq_one] at h1
  obtain ⟨⟨⟨⟨⟨⟨a0, a1⟩, a2⟩, a3⟩, a4⟩, a5⟩, a6⟩ := h1
  exact ⟨fun i => Cert.Lib.FiniteAll.real_of_all _ _ _ _ a0 i,
    fun i => Cert.Lib.FiniteAll.real_of_all _ _ _ _ a1 i,
    fun i => Cert.Lib.FiniteAll.real_of_all _ _ _ _ a2 i,
    fun i => Cert.Lib.FiniteAll.real_of_all _ _ _ _ a3 i,
    fun i => Cert.Lib.FiniteAll.real_of_all _ _ _ _ a4 i,
    fun i => Cert.Lib.FiniteAll.real_of_all _ _ _ _ a5 i,
    fun i => Cert.Lib.FiniteAll.real_of_all _ _ _ _ a6 i⟩

end Cert.KernelIdeal.Hand
-- ==== Proof.KI.Bridge.lean ====
/-
  The kernel's result. The host flattens the input to [16384, 256]; region 0 leaves in its three result arrays the three
  projections x W^T + b of the flattened rows; the host reshapes them back to [4, 4096, 256], so region 1 is entered with
  queries, keys and values equal to the reference's projections (row 4096 b + n of the flattened arrays is row (b, n)).
  Under the precondition every input entry is a real number. So the induction over region 1 applies and the result array
  ends as the reference's result.
-/
import proofs.«168436_j23081154249219_2_alg».proof.Proof.Gen.KernelIdeal.Launch
import proofs.«168436_j23081154249219_2_alg».proof.Proof.Gen.KernelIdeal.Skeleton
import proofs.«168436_j23081154249219_2_alg».proof.Proof.Gen.KernelIdeal.Points
import proofs.«168436_j23081154249219_2_alg».proof.Proof.KI.Run
import proofs.«168436_j23081154249219_2_alg».proof.Proof.KI.Fin1
import proofs.«168436_j23081154249219_2_alg».proof.Proof.KI.R0Value
import proofs.«168436_j23081154249219_2_alg».proof.Proof.KI.Finite
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.OnlineSoftmax Cert.RefValue

variable (m : (ℓ : Loc nD τ sig) → Buf (Elt Ideal) ℓ) (ρ : Dev nD → PrngReg)

/-! ## What region 0 is entered with -/

theorem V1_main_v0 (c : Dev nD) :
    (V1 m ρ c main_v0 : S16384x256.Idx → EReal) = shapeCast S16384x256 (m ((c.tc : Thread nD τ).loc main_arg0)) shapeCasts_S4x4096x256_S16384x256 := by
  dsimp only [V1, W1, hostOps0]; after_results; rfl

theorem V1_main_arg1 (c : Dev nD) : V1 m ρ c main_arg1 = (m ((c.tc : Thread nD τ).loc main_arg1)) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V1_main_arg2 (c : Dev nD) : V1 m ρ c main_arg2 = (m ((c.tc : Thread nD τ).loc main_arg2)) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V1_main_arg3 (c : Dev nD) : V1 m ρ c main_arg3 = (m ((c.tc : Thread nD τ).loc main_arg3)) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V1_main_arg4 (c : Dev nD) : V1 m ρ c main_arg4 = (m ((c.tc : Thread nD τ).loc main_arg4)) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V1_main_arg5 (c : Dev nD) : V1 m ρ c main_arg5 = (m ((c.tc : Thread nD τ).loc main_arg5)) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V1_main_arg6 (c : Dev nD) : V1 m ρ c main_arg6 = (m ((c.tc : Thread nD τ).loc main_arg6)) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## What region 0 leaves, and what region 1 is entered with -/

theorem W2_q (c : Dev nD) : W2 m ρ c (Proc.devRef .tc main_v1_0) = lin (V1 m ρ c main_v0) (V1 m ρ c main_arg1) (V1 m ρ c main_arg2) :=
  (W2_arr m ρ c 7).trans (final0_7 (V1 m ρ) c)
theorem W2_k (c : Dev nD) : W2 m ρ c (Proc.devRef .tc main_v1_1) = lin (V1 m ρ c main_v0) (V1 m ρ c main_arg3) (V1 m ρ c main_arg4) :=
  (W2_arr m ρ c 8).trans (final0_8 (V1 m ρ) c)
theorem W2_v (c : Dev nD) : W2 m ρ c (Proc.devRef .tc main_v1_2) = lin (V1 m ρ c main_v0) (V1 m ρ c main_arg5) (V1 m ρ c main_arg6) :=
  (W2_arr m ρ c 9).trans (final0_9 (V1 m ρ) c)

theorem V3_main_v2 (c : Dev nD) :
    (V3 m ρ c main_v2 : S4x4096x256.Idx → EReal) = shapeCast S4x4096x256 (W2 m ρ c (Proc.devRef .tc main_v1_0) : S16384x256.Idx → EReal) shapeCasts_S16384x256_S4x4096x256 := by
  dsimp only [V3, W3, hostOps1]; after_results; rfl
theorem V3_main_v3 (c : Dev nD) :
    (V3 m ρ c main_v3 : S4x4096x256.Idx → EReal) = shapeCast S4x4096x256 (W2 m ρ c (Proc.devRef .tc main_v1_1) : S16384x256.Idx → EReal) shapeCasts_S16384x256_S4x4096x256 := by
  dsimp only [V3, W3, hostOps1]; after_results; rfl
theorem V3_main_v4 (c : Dev nD) :
    (V3 m ρ c main_v4 : S4x4096x256.Idx → EReal) = shapeCast S4x4096x256 (W2 m ρ c (Proc.devRef .tc main_v1_2) : S16384x256.Idx → EReal) shapeCasts_S16384x256_S4x4096x256 := by
  dsimp only [V3, W3, hostOps1]; after_results; rfl

/-- Row 4096 b + n of a projection of the flattened input is the projection of row (b, n). -/
theorem lin_flat (X : S4x4096x256.Idx → EReal) (W : S256x256.Idx → EReal) (bias : S256.Idx → EReal) (b : Fin 4) (n : Fin 4096) (e : Fin 256)
    (h : 4096 * b.val + n.val < 16384) :
    linAt (shapeCast S16384x256 X shapeCasts_S4x4096x256_S16384x256) W bias ⟨4096 * b.val + n.val, h⟩ e = proj X W bias b n e := by
  unfold linAt proj
  simp only [flatten_apply]
  have eb : (⟨(4096 * b.val + n.val) / 4096, by omega⟩ : Fin 4) = b := Fin.ext (by show (4096 * b.val + n.val) / 4096 = b.val; have := n.isLt; omega)
  have en : (⟨(4096 * b.val + n.val) % 4096, Nat.mod_lt _ (by norm_num)⟩ : Fin 4096) = n := Fin.ext (by show (4096 * b.val + n.val) % 4096 = n.val; have := n.isLt; omega)
  simp only [eb, en]

theorem V3_q_apply (c : Dev nD) (b : Fin 4) (n : Fin 4096) (e : Fin 256) :
    V3 m ρ c main_v2 (ix3 b n e) = proj (m ((c.tc : Thread nD τ).loc main_arg0)) (m ((c.tc : Thread nD τ).loc main_arg1)) (m ((c.tc : Thread nD τ).loc main_arg2)) b n e := by
  have h : 4096 * b.val + n.val < 16384 := by have := b.isLt; have := n.isLt; omega
  rw [show V3 m ρ c main_v2 (ix3 b n e) = shapeCast S4x4096x256 (W2 m ρ c (Proc.devRef .tc main_v1_0) : S16384x256.Idx → EReal) shapeCasts_S16384x256_S4x4096x256 (ix3 b n e) from congrFun (V3_main_v2 m ρ c) _,
    unflatten_apply, W2_q, V1_main_v0, V1_main_arg1, V1_main_arg2]
  exact lin_flat _ _ _ b n e h
theorem V3_k_apply (c : Dev nD) (b : Fin 4) (n : Fin 4096) (e : Fin 256) :
    V3 m ρ c main_v3 (ix3 b n e) = proj (m ((c.tc : Thread nD τ).loc main_arg0)) (m ((c.tc : Thread nD τ).loc main_arg3)) (m ((c.tc : Thread nD τ).loc main_arg4)) b n e := by
  have h : 4096 * b.val + n.val < 16384 := by have := b.isLt; have := n.isLt; omega
  rw [show V3 m ρ c main_v3 (ix3 b n e) = shapeCast S4x4096x256 (W2 m ρ c (Proc.devRef .tc main_v1_1) : S16384x256.Idx → EReal) shapeCasts_S16384x256_S4x4096x256 (ix3 b n e) from congrFun (V3_main_v3 m ρ c) _,
    unflatten_apply, W2_k, V1_main_v0, V1_main_arg3, V1_main_arg4]
  exact lin_flat _ _ _ b n e h
theorem V3_v_apply (c : Dev nD) (b : Fin 4) (n : Fin 4096) (e : Fin 256) :
    V3 m ρ c main_v4 (ix3 b n e) = proj (m ((c.tc : Thread nD τ).loc main_arg0)) (m ((c.tc : Thread nD τ).loc main_arg5)) (m ((c.tc : Thread nD τ).loc main_arg6)) b n e := by
  have h : 4096 * b.val + n.val < 16384 := by have := b.isLt; have := n.isLt; omega
  rw [show V3 m ρ c main_v4 (ix3 b n e) = shapeCast S4x4096x256 (W2 m ρ c (Proc.devRef .tc main_v1_2) : S16384x256.Idx → EReal) shapeCasts_S16384x256_S4x4096x256 (ix3 b n e) from congrFun (V3_main_v4 m ρ c) _,
    unflatten_apply, W2_v, V1_main_v0, V1_main_arg5, V1_main_arg6]
  exact lin_flat _ _ _ b n e h

/-! ## The result -/

/-- Under the precondition (the program runs on one device) region 1 is entered with the reference's projections of real
    inputs. -/
theorem inputs_of_pre (h : Cert.Pre_KernelIdeal (hPre_finite_inputs := Cert.Pre_finite_inputs.Gen.facts) m) :
    Inputs (V3 m ρ) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3))
      (m (((0 : Dev nD).tc : Thread nD τ).loc main_arg4)) (m (((0 : Dev nD).tc : Thread nD τ).loc main_arg5))
      (m (((0 : Dev nD).tc : Thread nD τ).loc main_arg6)) := by
  obtain ⟨h0, h1, h2, h3, h4, h5, h6⟩ := real_of_pre m h 0
  refine ⟨fun c b n e => ?_, fun c b n e => ?_, fun c b n e => ?_, h0, h1, h2, h3, h4, h5, h6⟩
  · obtain rfl : c = 0 := Subsingleton.elim _ _; exact V3_q_apply m ρ 0 b n e
  · obtain rfl : c = 0 := Subsingleton.elim _ _; exact V3_k_apply m ρ 0 b n e
  · obtain rfl : c = 0 := Subsingleton.elim _ _; exact V3_v_apply m ρ 0 b n e

/-- THE VALUE: under the precondition the result array ends as the reference's result of the launch's argument arrays. -/
theorem result_eq (h : Cert.Pre_KernelIdeal (hPre_finite_inputs := Cert.Pre_finite_inputs.Gen.facts) m) (c : Dev nD) :
    W4 m ρ c (Proc.devRef .tc main_v5) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  obtain rfl : c = 0 := Subsingleton.elim _ _
  exact (W4_arr m ρ 0 3).trans (final1 (inputs_of_pre m ρ h) 0)

end Cert.KernelIdeal.Hand

end
-- ==== Proof.lean ====
/-
  The certificate of a two-stage attention kernel against its reference. The kernel projects the [4, 4096, 256] input to
  queries, keys and values (x W^T + b, one pallas_call over eight 2048-row blocks of the flattened input) and then runs
  causal attention tile by tile (a second pallas_call over forty steps: per batch the ten (query tile, key tile) pairs of
  the lower triangle of a 4 x 4 tiling of 1024-row tiles, listed by two prefetched tables), keeping per query row a
  running maximum, normaliser and accumulator and dividing at a query tile's last step. The reference computes the same
  projections, adds a mask that is minus infinity above the diagonal, and applies a softmax over all 4096 keys.

  At the ideal instance (exact extended reals; the kernel's large negative fill named minus infinity) both are, for
  batch b, query row n and column d, the quotient of the sum over keys k <= n of exp(s_nk - max_n) v_kd by the sum of
  exp(s_nk - max_n), s the scores q.k: the reference because a masked key contributes exp(-inf) = 0, the kernel because
  the tile-by-tile recurrence is the online form of that quotient (rescaling by exp(old max - new max) keeps both sums
  relative to the running maximum, which ends at the row's maximum; the reset state contributes exp(-inf) = 0). All
  scores are real numbers under the precondition, which is what the rescaling law needs.

  The frames (termination, no fault, arguments unchanged) are proved for the printed kernel and for its idealization by
  the same text: each pallas_call's body is run once symbolically, the proof data name what every window's buffer and
  the three carried scratch arrays hold after each step, and @main is the list host stretch, region, host stretch,
  region. The two ledger entries say the named constant denotes minus infinity at the ideal instance.
-/
import proofs.«168436_j23081154249219_2_alg».proof.Defs
import proofs.«168436_j23081154249219_2_alg».proof.Proof.Gen.Kernel
import proofs.«168436_j23081154249219_2_alg».proof.Proof.Gen.KernelIdeal
import proofs.«168436_j23081154249219_2_alg».proof.Proof.Gen.ReferenceIdeal
import proofs.«168436_j23081154249219_2_alg».proof.Proof.Gen.ReferenceIdeal.Run
import proofs.«168436_j23081154249219_2_alg».proof.Proof.Gen.ReferenceIdeal.Read
import proofs.«168436_j23081154249219_2_alg».proof.Proof.Gen.Pre_finite_inputs
import proofs.«168436_j23081154249219_2_alg».proof.Proof.K.Run
import proofs.«168436_j23081154249219_2_alg».proof.Proof.KI.Bridge
import proofs.«168436_j23081154249219_2_alg».proof.Proof.RefValue
import Idealize.ShloMosaic.Adequacy
import Idealize.ShloMosaic.Init

noncomputable section

namespace Cert.Proof

open Idealize.ShloMosaic Idealize.SL.Sem

/-- The printed kernel runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two ledger entries: the named fill is minus infinity at the ideal instance. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both idealized programs end with the reference's result of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.RefValue.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨?_, ?_, ?_, ?_, ?_, ?_, ?_, ?_⟩) (Cert.KernelIdeal.Hand.run_main (F := Ideal) m ρ)
    · exact (h c _ (Cert.KernelIdeal.Hand.mem_uc Cert.KernelIdeal.main_v5 (by decide))).trans (Cert.KernelIdeal.Hand.result_eq m ρ hpre c)
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
    · exact (h c _ (Cert.KernelIdeal.Hand.mem_uc Cert.KernelIdeal.main_arg2 (by decide))).trans (Cert.KernelIdeal.Hand.W4_main_arg2 m ρ c)
    · exact (h c _ (Cert.KernelIdeal.Hand.mem_uc Cert.KernelIdeal.main_arg3 (by decide))).trans (Cert.KernelIdeal.Hand.W4_main_arg3 m ρ c)
    · exact (h c _ (Cert.KernelIdeal.Hand.mem_uc Cert.KernelIdeal.main_arg4 (by decide))).trans (Cert.KernelIdeal.Hand.W4_main_arg4 m ρ c)
    · exact (h c _ (Cert.KernelIdeal.Hand.mem_uc Cert.KernelIdeal.main_arg5 (by decide))).trans (Cert.KernelIdeal.Hand.W4_main_arg5 m ρ c)
    · exact (h c _ (Cert.KernelIdeal.Hand.mem_uc Cert.KernelIdeal.main_arg6 (by decide))).trans (Cert.KernelIdeal.Hand.W4_main_arg6 m ρ c)
  · refine (θ_run Cert.ReferenceIdeal.defs _ _).mono (fun _ h c => ⟨(h c).1.trans ?_, (h c).2⟩)
      (Cert.ReferenceIdeal.Value.run (F := Ideal) m' ρ')
    rw [Cert.RefValue.ref_eq m' c, (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
